-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x3 : Shape := ⟨3, ![1, 8192, 3]⟩
abbrev S1x8192x256 : Shape := ⟨3, ![1, 8192, 256]⟩
abbrev S259x128 : Shape := ⟨2, ![259, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S1x8192x3 : S_.BroadcastsInDim S1x8192x3 (![] : Fin 0 → Fin S1x8192x3.rank)
  reducesTo_S1x8192x3_S_d0_1_2 : S1x8192x3.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S128 .f32) (main_arg8 : FVec F S128x256 .f32) (main_arg9 : FVec F S256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S259x128 .f32) (main_arg5 : FVec F S128 .f32) (main_arg6 : FVec F S259x128 .f32) (main_arg7 : FVec F S128 .f32) (main_arg8 : FVec F S128x256 .f32) (main_arg9 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S259x128 .f32 := Host.absf main_arg4
  let main_cst_6 : FVec F S_ .f32 := constant S_ .f32 0x7F800000#32
  let main_v20 : FVec F S259x128 .f32 := broadcastInDim S259x128 ![] bcast_S_S259x128 main_cst_6
  let main_v21 : IVec S259x128 1 := cmpf .olt main_v19 main_v20
  let main_c_7 : IVec S_ 1 := constantI S_ 1 1#1
  let main_v22 : IVec S_ 1 := (fun x v => Host.reduce IntOp.andi x v reducesTo_S259x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S259x128 .f32 := Host.absf main_arg6
  let main_cst_10 : FVec F S_ .f32 := constant S_ .f32 0x7F800000#32
  let main_v30 : FVec F S259x128 .f32 := broadcastInDim S259x128 ![] bcast_S_S259x128 main_cst_10
  let main_v31 : IVec S259x128 1 := cmpf .olt main_v29 main_v30
  let main_c_11 : IVec S_ 1 := constantI S_ 1 1#1
  let main_v32 : IVec S_ 1 := (fun x v => Host.reduce IntOp.andi x v reducesTo_S259x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x8192x3 .f32) (main_arg1 : FVec F S1x8192x256 .f32) (main_arg2 : FVec F S259x128 .f32) (main_arg3 : FVec F S128 .f32) (main_arg4 : FVec F S259x128 .f32) (main_arg5 : FVec F S128 .f32) (main_arg6 : FVec F S259x128 .f32) (main_arg7 : FVec F S128 .f32) (main_arg8 : FVec F S128x256 .f32) (main_arg9 : FVec F S256 .f32) : IVec S_ 1 :=
  let main_v0 : FVec F S1x8192x3 .f32 := Host.absf main_arg0
  let main_cst : FVec F S_ .f32 := constant S_ .f32 0x7F800000#32
  let main_v1 : FVec F S1x8192x3 .f32 := broadcastInDim S1x8192x3 ![] bcast_S_S1x8192x3 main_cst
  let main_v2 : IVec S1x8192x3 1 := cmpf .olt main_v0 main_v1
  let main_c : IVec S_ 1 := constantI S_ 1 1#1
  let main_v3 : IVec S_ 1 := (fun x v => Host.reduce IntOp.andi x v reducesTo_S1x8192x3_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S259x128 .f32 := Host.absf main_arg2
  let main_cst_2 : FVec F S_ .f32 := constant S_ .f32 0x7F800000#32
  let main_v10 : FVec F S259x128 .f32 := broadcastInDim S259x128 ![] bcast_S_S259x128 main_cst_2
  let main_v11 : IVec S259x128 1 := cmpf .olt main_v9 main_v10
  let main_c_3 : IVec S_ 1 := constantI S_ 1 1#1
  let main_v12 : IVec S_ 1 := (fun x v => Host.reduce IntOp.andi x v reducesTo_S259x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S1x8192x3 : Shape := ⟨3, ![1, 8192, 3]⟩
abbrev S1x8192x256 : Shape := ⟨3, ![1, 8192, 256]⟩
abbrev S259x128 : Shape := ⟨2, ![259, 128]⟩
abbrev S128 : Shape := ⟨1, ![128]⟩
abbrev S128x256 : Shape := ⟨2, ![128, 256]⟩
abbrev S256 : Shape := ⟨1, ![256]⟩
abbrev S8192x3 : Shape := ⟨2, ![8192, 3]⟩
abbrev S8192x256 : Shape := ⟨2, ![8192, 256]⟩
abbrev S3x128 : Shape := ⟨2, ![3, 128]⟩
abbrev S256x128 : Shape := ⟨2, ![256, 128]⟩
abbrev S8192x128 : Shape := ⟨2, ![8192, 128]⟩
abbrev S1024x3 : Shape := ⟨2, ![1024, 3]⟩
abbrev S1024x256 : Shape := ⟨2, ![1024, 256]⟩
abbrev S1024x128 : Shape := ⟨2, ![1024, 128]⟩
abbrev S1x128 : Shape := ⟨2, ![1, 128]⟩
abbrev S1024x1 : Shape := ⟨2, ![1024, 1]⟩
abbrev S512x128 : Shape := ⟨2, ![512, 128]⟩
abbrev S1024x512 : Shape := ⟨2, ![1024, 512]⟩
abbrev S1024 : Shape := ⟨1, ![1024]⟩
abbrev S1x256 : Shape := ⟨2, ![1, 256]⟩

abbrev nBuf : Space → Nat
  | .hbm => 23
  | .vmem => 31
  | .smem => 0
  | _ => 0

abbrev bufTy : (tb : Table) → Fin (tcTables nBuf tb) → BufTy
  | .hbm, ⟨0, _⟩ => ⟨S1x8192x3, .f32⟩
  | .hbm, ⟨1, _⟩ => ⟨S1x8192x256, .f32⟩
  | .hbm, ⟨2, _⟩ => ⟨S259x128, .f32⟩
  | .hbm, ⟨3, _⟩ => ⟨S128, .f32⟩
  | .hbm, ⟨4, _⟩ => ⟨S259x128, .f32⟩
  | .hbm, ⟨5, _⟩ => ⟨S128, .f32⟩
  | .hbm, ⟨6, _⟩ => ⟨S259x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S8192x3, .f32⟩
  | .hbm, ⟨11, _⟩ => ⟨S8192x256, .f32⟩
  | .hbm, ⟨12, _⟩ => ⟨S3x128, .f32⟩
  | .hbm, ⟨13, _⟩ => ⟨S256x128, .f32⟩
  | .hbm, ⟨14, _⟩ => ⟨S3x128, .f32⟩
  | .hbm, ⟨15, _⟩ => ⟨S256x128, .f32⟩
  | .hbm, ⟨16, _⟩ => ⟨S3x128, .f32⟩
  | .hbm, ⟨17, _⟩ => ⟨S256x128, .f32⟩
  | .hbm, ⟨18, _⟩ => ⟨S8192x128, .bf16⟩
  | .hbm, ⟨19, _⟩ => ⟨S8192x128, .bf16⟩
  | .hbm, ⟨20, _⟩ => ⟨S8192x128, .bf16⟩
  | .hbm, ⟨21, _⟩ => ⟨S8192x256, .f32⟩
  | .hbm, ⟨22, _⟩ => ⟨S1x8192x256, .f32⟩
  | .local _ .vmem, ⟨0, _⟩ => ⟨S1024x3, .f32⟩
  | .local _ .vmem, ⟨1, _⟩ => ⟨S1024x3, .f32⟩
  | .local _ .vmem, ⟨2, _⟩ => ⟨S1024x256, .f32⟩
  | .local _ .vmem, ⟨3, _⟩ => ⟨S1024x256, .f32⟩
  | .local _ .vmem, ⟨4, _⟩ => ⟨S3x128, .f32⟩
  | .local _ .vmem, ⟨5, _⟩ => ⟨S256x128, .f32⟩
  | .local _ .vmem, ⟨6, _⟩ => ⟨S128, .f32⟩
  | .local _ .vmem, ⟨7, _⟩ => ⟨S3x128, .f32⟩
  | .local _ .vmem, ⟨8, _⟩ => ⟨S256x128, .f32⟩
  | .local _ .vmem, ⟨9, _⟩ => ⟨S128, .f32⟩
  | .local _ .vmem, ⟨10, _⟩ => ⟨S3x128, .f32⟩
  | .local _ .vmem, ⟨11, _⟩ => ⟨S256x128, .f32⟩
  | .local _ .vmem, ⟨12, _⟩ => ⟨S128, .f32⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S8192x128, .bf16⟩
  | .local _ .vmem, ⟨22, _⟩ => ⟨S8192x128, .bf16⟩
  | .local _ .vmem, ⟨23, _⟩ => ⟨S1024x256, .f32⟩
  | .local _ .vmem, ⟨24, _⟩ => ⟨S1024x256, .f32⟩
  | .local _ .vmem, ⟨25, _⟩ => ⟨S128x256, .f32⟩
  | .local _ .vmem, ⟨26, _⟩ => ⟨S256, .f32⟩
  | .local _ .vmem, ⟨27, _⟩ => ⟨S1024x256, .f32⟩
  | .local _ .vmem, ⟨28, _⟩ => ⟨S1024x256, .f32⟩
  | .local _ .vmem, ⟨29, _⟩ => ⟨S1024x128, .f32⟩
  | .local _ .vmem, ⟨30, _⟩ => ⟨S1024x1, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem3_1 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_14 : BitVec 32 := 0#32
  let v31 : BitVec 1 := Scalar.cmpi .ne v30 c0_i32_14
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S1x8192x3_S8192x3 : S1x8192x3.ShapeCasts S8192x3
  shapeCasts_S1x8192x256_S8192x256 : S1x8192x256.ShapeCasts S8192x256
  slices_S259x128_S3x128_0_0 : S259x128.Slices ![0, 0] S3x128
  slices_S259x128_S256x128_3_0 : S259x128.Slices ![3, 0] S256x128
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S512x128 : 0 < S512x128.numel
  shapeCasts_S512x128_S512x128 : S512x128.ShapeCasts S512x128
  reduces_S1024x512_S1024 : S1024x512.Reduces [1] S1024
  shapeCasts_S1024_S1024x1 : S1024.ShapeCasts S1024x1
  broadcasts_S1024x1_S1024x128 : S1024x1.Broadcasts S1024x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  bcast_S8192x256_S1x8192x256_1_2 : S8192x256.BroadcastsInDim S1x8192x256 (![1, 2] : Fin 2 → Fin S1x8192x256.rank)
  dot_S1024x3_S3x128_S1024x128_1_0_0_1_n_n_wf : DotDims.WF S1024x3 S3x128 S1024x128 [1] [0] [0] [1] [] []
  dot_S1024x256_S256x128_S1024x128_1_0_0_1_n_n_wf : DotDims.WF S1024x256 S256x128 S1024x128 [1] [0] [0] [1] [] []
  dot_S1024x128_S512x128_S1024x512_1_1_0_0_n_n_wf : DotDims.WF S1024x128 S512x128 S1024x512 [1] [1] [0] [0] [] []
  dot_S1024x512_S512x128_S1024x128_1_0_0_1_n_n_wf : DotDims.WF S1024x512 S512x128 S1024x128 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x128.size a ≤ S3x128.size a
  hwx0_8 : ∀ i : grid0.Coords, EltTy.bits .f32 = 32 ∨ (Rect.block (s := S3x128) S3x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S8192x128.size a
  hwx0_11 : ∀ i : grid0.Coords, EltTy.bits .bf16 = 32 ∨ (Rect.block (s := S8192x128) S1024x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S8192x128.size a
  hwx0_12 : ∀ i : grid0.Coords, EltTy.bits .bf16 = 32 ∨ (Rect.block (s := S8192x128) S1024x128.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S8192x128.size a
  hwx0_13 : ∀ i : grid0.Coords, EltTy.bits .bf16 = 32 ∨ (Rect.block (s := S8192x128) S1024x128.size (cc0_transform_13 i) (hinb0_13 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def dot_S1024x3_S3x128_S1024x128_1_0_0_1_n_n : DotDims S1024x3 S3x128 S1024x128 where
  lhsContracting := [1]
  rhsContracting := [0]
  lhsNonContracting := [0]
  rhsNonContracting := [1]
  lhsBatch := []
  rhsBatch := []
  wf := dot_S1024x3_S3x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S3x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S1024x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8_2) S1024x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v8_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1x8192x3 : Shape := ⟨3, ![1, 8192, 3]⟩
abbrev S1x8192x256 : Shape := ⟨3, ![1, 8192, 256]⟩
abbrev S259x128 : Shape := ⟨2, ![259, 128]⟩
abbrev S128 : Shape := ⟨1, ![128]⟩
abbrev S128x256 : Shape := ⟨2, ![128, 256]⟩
abbrev S256 : Shape := ⟨1, ![256]⟩
abbrev S1x8192x259 : Shape := ⟨3, ![1, 8192, 259]⟩
abbrev S8192x259 : Shape := ⟨2, ![8192, 259]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x8192x256, .f32⟩
  | .hbm, ⟨2, _⟩ => ⟨S259x128, .f32⟩
  | .hbm, ⟨3, _⟩ => ⟨S128, .f32⟩
  | .hbm, ⟨4, _⟩ => ⟨S259x128, .f32⟩
  | .hbm, ⟨5, _⟩ => ⟨S128, .f32⟩
  | .hbm, ⟨6, _⟩ => ⟨S259x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S1x8192x259, .f32⟩
  | .hbm, ⟨11, _⟩ => ⟨S8192x259, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S1x128, .f32⟩
  | .hbm, ⟨22, _⟩ => ⟨S8192x128, .f32⟩
  | .hbm, ⟨23, _⟩ => ⟨S8192x128, .f32⟩
  | .hbm, ⟨24, _⟩ => ⟨S128x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x128, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S1x8192x256, .f32⟩
  | .hbm, ⟨45, _⟩ => ⟨S1x8192x256, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S1x8192x3_S1x8192x256_S1x8192x259_d2 : Shape.Concatenates [S1x8192x3, S1x8192x256] S1x8192x259 2
  shapeCasts_S1x8192x259_S8192x259 : S1x8192x259.ShapeCasts S8192x259
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x256_S1x8192x256_1_2 : S8192x256.BroadcastsInDim S1x8192x256 (![1, 2] : Fin 2 → Fin S1x8192x256.rank)
  dot_S8192x259_S259x128_S8192x128_1_0_0_1_n_n_wf : DotDims.WF S8192x259 S259x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []

variable [Facts₀]

def dot_S8192x259_S259x128_S8192x128_1_0_0_1_n_n : DotDims S8192x259 S259x128 S8192x128 where
  lhsContracting := [1]
  rhsContracting := [0]
  lhsNonContracting := [0]
  rhsNonContracting := [1]
  lhsBatch := []
  rhsBatch := []
  wf := dot_S8192x259_S259x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.Kernel.ProjBody.lean ====
/- The projection kernel's half of the frame (region 0): at each of the 8 grid points the body reads its eleven
   input blocks whole — a 1024-row block of landmarks [1024,3] and of features [1024,256], and for each of the three
   projections the weight's first 3 rows [3,128], its last 256 rows [256,128] and the bias [128] — and writes three
   output blocks [1024,128] whole, one store each: block·W + b rounded to bf16, for the i-, j- and k-projection.
   Stated at a parameter `V`, the TensorCore's buffer contents when the region is entered. -/
import proofs.«133152_j31482110280356_2_alg».proof.Proof.Gen.Kernel.Launch
import proofs.«133152_j31482110280356_2_alg».proof.Proof.Gen.Kernel.Skeleton
import proofs.«133152_j31482110280356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of the window's array, as the region finds it, that the point's
    index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds the window's block at every point, whether the block was fetched at
    that point or carried over from the point before (then the block index has not moved): for any proof data whose
    array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rLm : Rect S1024x3 := Rect.unit (s := S1024x3) ![0, 0] S1024x3.size inb_S1024x3_S1024x3_0_0
abbrev rFt : Rect S1024x256 := Rect.unit (s := S1024x256) ![0, 0] S1024x256.size inb_S1024x256_S1024x256_0_0
abbrev rWa : Rect S3x128 := Rect.unit (s := S3x128) ![0, 0] S3x128.size inb_S3x128_S3x128_0_0
abbrev rWb : Rect S256x128 := Rect.unit (s := S256x128) ![0, 0] S256x128.size inb_S256x128_S256x128_0_0
abbrev rBs : Rect S128 := Rect.unit (s := S128) ![0] S128.size inb_S128_S128_0
abbrev rPj : Rect S1024x128 := Rect.unit (s := S1024x128) ![0, 0] S1024x128.size inb_S1024x128_S1024x128_0_0

theorem zeros2 : (![0, 0] : Fin 2 → Nat) = fun _ => 0 := by funext a; fin_cases a <;> rfl
theorem zeros1 : (![0] : Fin 1 → Nat) = fun _ => 0 := by funext a; fin_cases a; rfl

/-! ## The three projections, from the input blocks -/

/-- The i-projection's output block: (landmarks·Wi[0:3] + features·Wi[3:259]) + bi, the operands rounded to bf16
    before each product, the sum rounded to bf16. -/
def projFi (x0 : Vec F S1024x3 .f32) (x1 : Vec F S1024x256 .f32) (x2 : Vec F S3x128 .f32) (x3 : Vec F S256x128 .f32) (x4 : Vec F S128 .f32) : Vec F S1024x128 .bf16 := k0_pay1 (k0_pay8 x0 x1 x2 x3 x4)
/-- The j-projection's output block, the same of Wj and bj. -/
def projFj (x0 : Vec F S1024x3 .f32) (x1 : Vec F S1024x256 .f32) (x5 : Vec F S3x128 .f32) (x6 : Vec F S256x128 .f32) (x7 : Vec F S128 .f32) : Vec F S1024x128 .bf16 := k0_pay2 (k0_pay9 x0 x1 x5 x6) (k0_pay10 x7)
/-- The k-projection's output block, the same of Wk and bk. -/
def projFk (x0 : Vec F S1024x3 .f32) (x1 : Vec F S1024x256 .f32) (x8 : Vec F S3x128 .f32) (x9 : Vec F S256x128 .f32) (x10 : Vec F S128 .f32) : Vec F S1024x128 .bf16 := k0_pay3 (k0_pay4 x0) (k0_pay5 x1) (k0_pay6 x8) (k0_pay7 x9) x10

/-! ## What the body leaves in each output window's buffer -/

/-- A load of a whole block reads the block. -/
theorem ld_rLm (X : Vec F S1024x3 .f32) : View.ld X rLm = X := View.ld_unit_zero zeros2 _ X
theorem ld_rFt (X : Vec F S1024x256 .f32) : View.ld X rFt = X := View.ld_unit_zero zeros2 _ X
theorem ld_rWa (X : Vec F S3x128 .f32) : View.ld X rWa = X := View.ld_unit_zero zeros2 _ X
theorem ld_rWb (X : Vec F S256x128 .f32) : View.ld X rWb = X := View.ld_unit_zero zeros2 _ X
theorem ld_rBs (X : Vec F S128 .f32) : View.ld X rBs = X := View.ld_unit_zero zeros1 _ X

/-- One store of a whole output block covers the buffer. -/
theorem cover_rPj (p : Vec F S1024x128 .bf16) (y : S1024x128.Idx) :
    ∃ pc ∈ ([⟨rPj, p⟩] : List (View.Piece (Elt F) S1024x128 .bf16)), y ∈ pc.1.set :=
  ⟨_, List.mem_singleton_self _, View.mem_set_unit_zero zeros2 inb_S1024x128_S1024x128_0_0 y⟩

/-- Output window 11's buffer after the body, from the input blocks: its one store, of the whole block. -/
def out0_11 (x0 : Vec F S1024x3 .f32) (x1 : Vec F S1024x256 .f32) (x2 : Vec F S3x128 .f32) (x3 : Vec F S256x128 .f32) (x4 : Vec F S128 .f32) : Vec F S1024x128 .bf16 :=
  View.canon [⟨rPj, k0_pay1 (k0_pay8 (View.ld x0 rLm) (View.ld x1 rFt) (View.ld x2 rWa) (View.ld x3 rWb) (View.ld x4 rBs))⟩]

/-- It is the projection of the blocks: the store's payload read back, each load the block itself. -/
theorem out0_11_eq (x0 : Vec F S1024x3 .f32) (x1 : Vec F S1024x256 .f32) (x2 : Vec F S3x128 .f32) (x3 : Vec F S256x128 .f32) (x4 : Vec F S128 .f32) : out0_11 x0 x1 x2 x3 x4 = projFi x0 x1 x2 x3 x4 := by
  unfold out0_11 projFi
  rw [View.canon_unit_zero zeros2, ld_rLm, ld_rFt, ld_rWa, ld_rWb, ld_rBs]

/-- Output window 12's buffer after the body, from the input blocks: its one store, of the whole block. -/
def out0_12 (x0 : Vec F S1024x3 .f32) (x1 : Vec F S1024x256 .f32) (x5 : Vec F S3x128 .f32) (x6 : Vec F S256x128 .f32) (x7 : Vec F S128 .f32) : Vec F S1024x128 .bf16 :=
  View.canon [⟨rPj, k0_pay2 (k0_pay9 (View.ld x0 rLm) (View.ld x1 rFt) (View.ld x5 rWa) (View.ld x6 rWb)) (k0_pay10 (View.ld x7 rBs))⟩]

/-- It is the projection of the blocks: the store's payload read back, each load the block itself. -/
theorem out0_12_eq (x0 : Vec F S1024x3 .f32) (x1 : Vec F S1024x256 .f32) (x5 : Vec F S3x128 .f32) (x6 : Vec F S256x128 .f32) (x7 : Vec F S128 .f32) : out0_12 x0 x1 x5 x6 x7 = projFj x0 x1 x5 x6 x7 := by
  unfold out0_12 projFj
  rw [View.canon_unit_zero zeros2, ld_rLm, ld_rFt, ld_rWa, ld_rWb, ld_rBs]

/-- Output window 13's buffer after the body, from the input blocks: its one store, of the whole block. -/
def out0_13 (x0 : Vec F S1024x3 .f32) (x1 : Vec F S1024x256 .f32) (x8 : Vec F S3x128 .f32) (x9 : Vec F S256x128 .f32) (x10 : Vec F S128 .f32) : Vec F S1024x128 .bf16 :=
  View.canon [⟨rPj, k0_pay3 (k0_pay4 (View.ld x0 rLm)) (k0_pay5 (View.ld x1 rFt)) (k0_pay6 (View.ld x8 rWa)) (k0_pay7 (View.ld x9 rWb)) (View.ld x10 rBs)⟩]

/-- It is the projection of the blocks: the store's payload read back, each load the block itself. -/
theorem out0_13_eq (x0 : Vec F S1024x3 .f32) (x1 : Vec F S1024x256 .f32) (x8 : Vec F S3x128 .f32) (x9 : Vec F S256x128 .f32) (x10 : Vec F S128 .f32) : out0_13 x0 x1 x8 x9 x10 = projFk x0 x1 x8 x9 x10 := by
  unfold out0_13 projFk
  rw [View.canon_unit_zero zeros2, ld_rLm, ld_rFt, ld_rWa, ld_rWb, ld_rBs]

/-! ## The body's triple -/

set_option maxHeartbeats 1000000 in
/-- The body on whole buffers, the inputs' at contents `xW` and the outputs' at anything, runs to a continuation that
    holds the inputs' as they were and each output's at its projection's block. -/
theorem sound_kernel0 (c : Dev nD) (E : Set ℕ) (i : grid0.Coords) (arg1 : Memref sig .tc .vmem S1024x3 .f32) (harg1 : arg1.IsWhole) (arg2 : Memref sig .tc .vmem S1024x256 .f32) (harg2 : arg2.IsWhole) (arg3 : Memref sig .tc .vmem S3x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S3x128 .f32) (harg6 : arg6.IsWhole) (arg7 : Memref sig .tc .vmem S256x128 .f32) (harg7 : arg7.IsWhole) (arg8 : Memref sig .tc .vmem S128 .f32) (harg8 : arg8.IsWhole) (arg9 : Memref sig .tc .vmem S3x128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1024x128 .bf16) (harg14 : arg14.IsWhole)
    (x0 : Vec F S1024x3 .f32) (x1 : Vec F S1024x256 .f32) (x2 : Vec F S3x128 .f32) (x3 : Vec F S256x128 .f32) (x4 : Vec F S128 .f32) (x5 : Vec F S3x128 .f32) (x6 : Vec F S256x128 .f32) (x7 : Vec F S128 .f32) (x8 : Vec F S3x128 .f32) (x9 : Vec F S256x128 .f32) (x10 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4)
            ∗ owns (c : Thread nD τ) arg13 fullShare (out0_12 x0 x1 x5 x6 x7)
            ∗ owns (c : Thread nD τ) arg14 fullShare (out0_13 x0 x1 x8 x9 x10)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover_rPj _)
  isplitl [H12]
  · iexists _; isplitr
    swap; · iexact H12
    ipureintro
    try dsimp only
    exact View.read_writes_eq_canon _ _ _ (cover_rPj _)
  iexists _; isplitr
  swap; · iexact H13
  ipureintro
  try dsimp only
  exact View.read_writes_eq_canon _ _ _ (cover_rPj _)

/-! ## The pipeline's proof data -/

/-- The proof data of the projection pipeline on core `c`: the arrays as the region finds them; after the body at point
    `t` each input's buffer at its block and each output's at its projection of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t)
    | ⟨12, _⟩ => out0_12 (iblk0 V c 0 t) (iblk0 V c 1 t) (iblk0 V c 5 t) (iblk0 V c 6 t) (iblk0 V c 7 t)
    | ⟨13, _⟩ => out0_13 (iblk0 V c 0 t) (iblk0 V c 1 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window: an input's block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
/-- an output's one store, -/
theorem after0_11_out (c : Dev nD) (t : Fin cfg0.N) : (dat0 V c).after 11 t = out0_11 (iblk0 V c 0 t) (iblk0 V c 1 t) (iblk0 V c 2 t) (iblk0 V c 3 t) (iblk0 V c 4 t) := by dsimp only [dat0]
theorem after0_12_out (c : Dev nD) (t : Fin cfg0.N) : (dat0 V c).after 12 t = out0_12 (iblk0 V c 0 t) (iblk0 V c 1 t) (iblk0 V c 5 t) (iblk0 V c 6 t) (iblk0 V c 7 t) := by dsimp only [dat0]
theorem after0_13_out (c : Dev nD) (t : Fin cfg0.N) : (dat0 V c).after 13 t = out0_13 (iblk0 V c 0 t) (iblk0 V c 1 t) (iblk0 V c 8 t) (iblk0 V c 9 t) (iblk0 V c 10 t) := by dsimp only [dat0]
/-- which is the projection of the point's input blocks. -/
theorem after0_11 (c : Dev nD) (t : Fin cfg0.N) : (dat0 V c).after 11 t = projFi (iblk0 V c 0 t) (iblk0 V c 1 t) (iblk0 V c 2 t) (iblk0 V c 3 t) (iblk0 V c 4 t) :=
  (after0_11_out V c t).trans (out0_11_eq _ _ _ _ _)
theorem after0_12 (c : Dev nD) (t : Fin cfg0.N) : (dat0 V c).after 12 t = projFj (iblk0 V c 0 t) (iblk0 V c 1 t) (iblk0 V c 5 t) (iblk0 V c 6 t) (iblk0 V c 7 t) :=
  (after0_12_out V c t).trans (out0_12_eq _ _ _ _ _)
theorem after0_13 (c : Dev nD) (t : Fin cfg0.N) : (dat0 V c).after 13 t = projFk (iblk0 V c 0 t) (iblk0 V c 1 t) (iblk0 V c 8 t) (iblk0 V c 9 t) (iblk0 V c 10 t) :=
  (after0_13_out V c t).trans (out0_13_eq _ _ _ _ _)

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11_out, after0_12_out, after0_13_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.AttnBody.lean ====
/-
  The attention kernel's half of the frame: the second pipeline of the program (a grid of 8 row blocks by 16 column
  tiles) at a parameter `V`, the TensorCore's buffer contents when its region is entered.

  The kernel keeps two accumulators in scratch buffers between grid points: the numerator `acc` [1024,128] and the
  denominator `den` [1024,1]. At a row block's first tile (second coordinate 0) both are reset to zero; at every tile
  `den += rowsum p` and `acc += p · fk_tile` with `p = logistic(fi_blk · fj_tileᵀ)`; at the last tile (second coordinate
  15) the output block `feat_blk + ((acc / den) · Wr + br)` is stored. So a point is in one of three cases — first tile,
  middle tile, last tile —, the output window is idle away from the last tiles, and the region invariant carries the two
  scratch buffers at the accumulators the point before left (`carried`).

  Stated here: the body's triple in each case with explicit contents (`runA`, `runB`, `runC`), the accumulators point
  by point (`carried`), the proof data (`dat1`), the body obligation (`body_obligation1`), and the two ends of the
  invariant (`hin1`, `hout1`).
-/
import proofs.«133152_j31482110280356_2_alg».proof.Proof.Gen.Kernel.Launch
import proofs.«133152_j31482110280356_2_alg».proof.Proof.Gen.Kernel.Skeleton
import proofs.«133152_j31482110280356_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The zero offsets of a whole-buffer access, in the two spellings. -/
theorem hz2 : (![0, 0] : Fin 2 → ℕ) = fun _ => 0 := by funext a; fin_cases a <;> rfl
theorem hz1 : (![0] : Fin 1 → ℕ) = fun _ => 0 := by funext a; fin_cases a; rfl

/-- The first conditional of the body (the two accumulators are reset), from the grid coordinates. -/
abbrev condA (i : grid1.Coords) : Prop := (Scalar.cmpi .ne (Scalar.extui (Scalar.cmpi .eq (BitVec.ofNat 32 (i 1).val) 0#32)) 0#32) = 1#1
/-- It holds where the second coordinate is 0. -/
theorem hcondA : ∀ t : Fin cfg1.N, condA (grid1.coords t) ↔ t.val % 16 = 0 :=
  (by decide +kernel : ∀ t : Fin grid1.N, condA (grid1.coords t) ↔ t.val % 16 = 0)
/-- The second conditional of the body (the output block is stored), from the grid coordinates. -/
abbrev condC (i : grid1.Coords) : Prop := k1_cond2 i = 1#1
/-- It holds where the second coordinate is 15. -/
theorem hcondC : ∀ t : Fin cfg1.N, condC (grid1.coords t) ↔ t.val % 16 = 15 :=
  (by decide +kernel : ∀ t : Fin grid1.N, condC (grid1.coords t) ↔ t.val % 16 = 15)

/-- The 512 rows of the point's column tile. -/
abbrev tileRect (i : grid1.Coords) : Rect S8192x128 := Rect.unit (s := S8192x128) (k1_off1 i) S512x128.size (k1_off1_inb i)
/-- The numerator accumulator after a point, from the point's blocks and the accumulator before it. -/
def accNext (i : grid1.Coords) (x0 : Vec F S1024x128 .bf16) (x1 x2 : Vec F S8192x128 .bf16) (a : Vec F S1024x128 .f32) : Vec F S1024x128 .f32 := k1_pay5 (View.ld x1 (tileRect i)) (View.ld x2 (tileRect i)) x0 a
/-- The denominator accumulator after a point. -/
def denNext (i : grid1.Coords) (x0 : Vec F S1024x128 .bf16) (x1 : Vec F S8192x128 .bf16) (d : Vec F S1024x1 .f32) : Vec F S1024x1 .f32 := k1_pay4 (View.ld x1 (tileRect i)) x0 d
/-- The output block, from the two accumulators after the row block's last tile. -/
def outOf (a : Vec F S1024x128 .f32) (d : Vec F S1024x1 .f32) (x3 : Vec F S1024x256 .f32) (x4 : Vec F S128x256 .f32) (x5 : Vec F S256 .f32) : Vec F S1024x256 .f32 := k1_pay6 a d x4 x5 x3

/-- A load through a rectangle of a whole memref held at the contents that read `X` reads `X` through the rectangle. -/
theorem readAt_unread_ld {κ : Kind} {sp : Space} {s : Shape} {e : EltTy} {m : Memref sig κ sp s e} (h : m.IsWhole)
    (X : s.Idx → Elt F e) (r : Rect s) : View.readAt (Elt F) m.view r.toLoadRect (h.unread X) = View.ld X r := by
  rw [View.readAt_eq_ld, h.read_unread]

/-- A load of the whole of it reads `X`. -/
theorem readAt_unread_whole {κ : Kind} {sp : Space} {S : Shape} {e : EltTy} {m : Memref sig κ sp S e} (h : m.IsWhole)
    (X : S.Idx → Elt F e) {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- One store of the whole buffer, over anything, reads back as its payload. -/
theorem read_writes_one {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A store of the whole buffer, the last of several, reads back as its payload. -/
theorem read_writes_last {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero hz inb y⟩), View.canon_cons_unit_zero hz]

/-- Nineteen conjuncts before two, beside one more: the one more moved in before the two. -/
theorem sep_regroup (A1 A2 A3 A4 A5 A6 A7 A8 A9 A10 A11 A12 A13 A14 A15 A16 A17 A18 A19 S0 S1 G : sProp 𝕄) :
    iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ S0 ∗ S1) ∗ G) = iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ G) ∗ S0 ∗ S1) := by
  have h₁ : iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ S0 ∗ S1) ∗ G) ⊢ iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ G) ∗ S0 ∗ S1) := by
    iintro ⟨⟨H1, H2, H3, H4, H5, H6, H7, H8, H9, H10, H11, H12, H13, H14, H15, H16, H17, H18, H19, HS0, HS1⟩, Hg⟩
    isplitr [HS0 HS1]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact Hg
    isplitl [HS0]; · iexact HS0
    iexact HS1
  have h₂ : iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ G) ∗ S0 ∗ S1) ⊢ iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ S0 ∗ S1) ∗ G) := by
    iintro ⟨⟨H1, H2, H3, H4, H5, H6, H7, H8, H9, H10, H11, H12, H13, H14, H15, H16, H17, H18, H19, Hg⟩, HS0, HS1⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      iexact HS1
    iexact Hg
  exact BI.equiv_iff.mp ⟨h₁, h₂⟩

set_option maxHeartbeats 1000000 in
/-- The body at a row block's first tile (reset, no output store): on whole memrefs, the inputs' at their contents, the
    output's at contents handed back untouched, the two accumulators at anything, it leaves the accumulators at
    `accNext`, `denNext` of the zero accumulators. -/
theorem runA (c : Dev nD) (E : Set ℕ) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S1024x256 .f32) (harg8 : arg8.IsWhole) (arg9 : Memref sig .tc .vmem S1024x128 .f32) (harg9 : arg9.IsWhole) (arg10 : Memref sig .tc .vmem S1024x1 .f32) (harg10 : arg10.IsWhole)
    (hcA : condA i) (hcC : ¬condC i) (x0 : Vec F S1024x128 .bf16) (x1 x2 : Vec F S8192x128 .bf16) (x3 : Vec F S1024x256 .f32) (x4 : Vec F S128x256 .f32) (x5 : Vec F S256 .f32)
    (xi6 : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ (∃ a, owns (c : Thread nD τ) arg9 fullShare a) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accNext i x0 x1 x2 k1_pay1)
            ∗ owns (c : Thread nD τ) arg10 fullShare (denNext i x0 x1 k1_pay2)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%a, %fa, -, HA⟩, ⟨%d, %fd, -, HD⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hcA | exact hcC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr
    swap; · iexact HA
    ipureintro
    try sl_unfold_run_names
    rw [read_writes_last _ _ hz2, readAt_unread_ld harg3, readAt_unread_ld harg4, readAt_unread_whole harg2 _ hz2, View.readCov_unit_zero _ hz2]
    rfl
  iexists _; isplitr
  swap; · iexact HD
  ipureintro
  try sl_unfold_run_names
  rw [read_writes_last _ _ hz2, readAt_unread_ld harg3, readAt_unread_whole harg2 _ hz2, View.readCov_unit_zero _ hz2]
  rfl

set_option maxHeartbeats 1000000 in
/-- The body at a point of the middle case (no reset, no output store): on whole memrefs, the inputs' at their contents, the
    output's at contents handed back untouched, the two accumulators at `a`, `d`, it leaves the accumulators at
    `accNext`, `denNext` of them. -/
theorem runB (c : Dev nD) (E : Set ℕ) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S1024x256 .f32) (harg8 : arg8.IsWhole) (arg9 : Memref sig .tc .vmem S1024x128 .f32) (harg9 : arg9.IsWhole) (arg10 : Memref sig .tc .vmem S1024x1 .f32) (harg10 : arg10.IsWhole)
    (hcA : ¬condA i) (hcC : ¬condC i) (x0 : Vec F S1024x128 .bf16) (x1 x2 : Vec F S8192x128 .bf16) (x3 : Vec F S1024x256 .f32) (x4 : Vec F S128x256 .f32) (x5 : Vec F S256 .f32)
    (xi6 : Vec F S1024x256 .f32) (a : Vec F S1024x128 .f32) (d : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare a ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accNext i x0 x1 x2 a)
            ∗ owns (c : Thread nD τ) arg10 fullShare (denNext i x0 x1 d)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, HA⟩, ⟨%fd, %hfd, HD⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfa; obtain rfl := harg10.eq_unread hfd
  sl_exec (disch := first | exact hcA | exact hcC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr
    swap; · iexact HA
    ipureintro
    try sl_unfold_run_names
    rw [read_writes_one _ _ hz2, readAt_unread_ld harg3, readAt_unread_ld harg4, readAt_unread_whole harg2 _ hz2, readAt_unread_whole harg9 _ hz2]
    rfl
  iexists _; isplitr
  swap; · iexact HD
  ipureintro
  try sl_unfold_run_names
  rw [read_writes_one _ _ hz2, readAt_unread_ld harg3, readAt_unread_whole harg2 _ hz2, readAt_unread_whole harg10 _ hz2]
  rfl

set_option maxHeartbeats 1000000 in
/-- The body at a row block's last tile (no reset, the output stored): on whole memrefs, the inputs' at their contents, the
    output's at anything, the two accumulators at `a`, `d`, it leaves the accumulators at `accNext`, `denNext` of them
    and the output's buffer at `outOf` of those. -/
theorem runC (c : Dev nD) (E : Set ℕ) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S1024x256 .f32) (harg8 : arg8.IsWhole) (arg9 : Memref sig .tc .vmem S1024x128 .f32) (harg9 : arg9.IsWhole) (arg10 : Memref sig .tc .vmem S1024x1 .f32) (harg10 : arg10.IsWhole)
    (hcA : ¬condA i) (hcC : condC i) (x0 : Vec F S1024x128 .bf16) (x1 x2 : Vec F S8192x128 .bf16) (x3 : Vec F S1024x256 .f32) (x4 : Vec F S128x256 .f32) (x5 : Vec F S256 .f32)
    (a : Vec F S1024x128 .f32) (d : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ o, owns (c : Thread nD τ) arg8 fullShare o) ∗ owns (c : Thread nD τ) arg9 fullShare a ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (outOf (accNext i x0 x1 x2 a) (denNext i x0 x1 d) x3 x4 x5) ∗ owns (c : Thread nD τ) arg9 fullShare (accNext i x0 x1 x2 a)
            ∗ owns (c : Thread nD τ) arg10 fullShare (denNext i x0 x1 d)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%o, %f6, -, H6⟩, ⟨%fa, %hfa, HA⟩, ⟨%fd, %hfd, HD⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfa; obtain rfl := harg10.eq_unread hfd
  sl_exec (disch := first | exact hcA | exact hcC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    try sl_unfold_run_names
    rw [read_writes_one _ _ hz2, View.readCov_unit_zero _ hz2, View.readCov_unit_zero _ hz2, readAt_unread_ld harg3, readAt_unread_ld harg4,
      readAt_unread_whole harg2 _ hz2, readAt_unread_whole harg9 _ hz2, readAt_unread_whole harg10 _ hz2,
      readAt_unread_whole harg6 _ hz2, readAt_unread_whole harg7 _ hz1, readAt_unread_whole harg5 _ hz2]
    rfl
  isplitl [HA]
  · iexists _; isplitr
    swap; · iexact HA
    ipureintro
    try sl_unfold_run_names
    rw [read_writes_one _ _ hz2, readAt_unread_ld harg3, readAt_unread_ld harg4, readAt_unread_whole harg2 _ hz2, readAt_unread_whole harg9 _ hz2]
    rfl
  iexists _; isplitr
  swap; · iexact HD
  ipureintro
  try sl_unfold_run_names
  rw [read_writes_one _ _ hz2, readAt_unread_ld harg3, readAt_unread_whole harg2 _ hz2, readAt_unread_whole harg10 _ hz2]
  rfl

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place (the window is uncut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place (the window is uncut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place (the window is uncut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place (the window is uncut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place (the window is uncut and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the two scratch operands -/

abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .f32 := win1_6.stage (cfg1.slots t 6)
abbrev hs1_6 (t : Fin cfg1.N) : (ms1_6 t).IsWhole := hstage1_6 ((cfg1.slots t 6).cast nbuf1_6)
/-- The numerator accumulator's scratch buffer, and the denominator's. -/
abbrev scM0 : Memref sig .tc .vmem S1024x128 .f32 := Memref.whole cc1_scratch0
abbrev scM1 : Memref sig .tc .vmem S1024x1 .f32 := Memref.whole cc1_scratch1

/-! ## Where the windows are idle -/

/-- Away from a row block's last tile the output window is idle: the body stores nothing into it, -/
theorem idleAt1_6 : ∀ t : Fin cfg1.N, ¬condC (grid1.coords t) → cfg1.idle 6 (grid1.coords t) = true := by decide +kernel
/-- and the pipeline does not write its block back; -/
theorem noFlush1_6 (t : Fin cfg1.N) (h : ¬t.val % 16 = 15) : (cfg1.win 6).flush t = false :=
  Bool.eq_false_iff.mpr fun hf => h ((flush1_6 t).mp hf)
/-- at the last tile it is live. -/
theorem liveAt1_6 : ∀ t : Fin cfg1.N, condC (grid1.coords t) → cfg1.idle 6 (grid1.coords t) = false := by decide +kernel

/-! ## The two accumulators after each point -/

/-- The accumulators (numerator, denominator) after the body at position `n`: at a row block's first tile the
    step from the zero accumulators, elsewhere the step from what the point before left. -/
def carried (c : Dev nD) : (n : ℕ) → n < cfg1.N → Vec F S1024x128 .f32 × Vec F S1024x1 .f32
  | 0, hn => (accNext (grid1.coords ⟨0, hn⟩) (iblk1 V c 0 ⟨0, hn⟩) (iblk1 V c 1 ⟨0, hn⟩) (iblk1 V c 2 ⟨0, hn⟩) k1_pay1, denNext (grid1.coords ⟨0, hn⟩) (iblk1 V c 0 ⟨0, hn⟩) (iblk1 V c 1 ⟨0, hn⟩) k1_pay2)
  | n + 1, hn =>
    if (n + 1) % 16 = 0 then (accNext (grid1.coords ⟨n + 1, hn⟩) (iblk1 V c 0 ⟨n + 1, hn⟩) (iblk1 V c 1 ⟨n + 1, hn⟩) (iblk1 V c 2 ⟨n + 1, hn⟩) k1_pay1, denNext (grid1.coords ⟨n + 1, hn⟩) (iblk1 V c 0 ⟨n + 1, hn⟩) (iblk1 V c 1 ⟨n + 1, hn⟩) k1_pay2)
    else (accNext (grid1.coords ⟨n + 1, hn⟩) (iblk1 V c 0 ⟨n + 1, hn⟩) (iblk1 V c 1 ⟨n + 1, hn⟩) (iblk1 V c 2 ⟨n + 1, hn⟩) (carried c n (Nat.lt_of_succ_lt hn)).1, denNext (grid1.coords ⟨n + 1, hn⟩) (iblk1 V c 0 ⟨n + 1, hn⟩) (iblk1 V c 1 ⟨n + 1, hn⟩) (carried c n (Nat.lt_of_succ_lt hn)).2)

/-- At a row block's first tile: the step from the zero accumulators. -/
theorem carried_first (c : Dev nD) (t : Fin cfg1.N) (h : t.val % 16 = 0) :
    carried V c t.val t.isLt = (accNext (grid1.coords t) (iblk1 V c 0 t) (iblk1 V c 1 t) (iblk1 V c 2 t) k1_pay1, denNext (grid1.coords t) (iblk1 V c 0 t) (iblk1 V c 1 t) k1_pay2) := by
  obtain ⟨n, hn⟩ := t
  cases n with
  | zero => rfl
  | succ n => exact (if_pos h).trans rfl

/-- Elsewhere: the step from what the point before left. -/
theorem carried_next (c : Dev nD) (t : Fin cfg1.N) (h : t.val % 16 ≠ 0) :
    carried V c t.val t.isLt = (accNext (grid1.coords t) (iblk1 V c 0 t) (iblk1 V c 1 t) (iblk1 V c 2 t) (carried V c (t.val - 1) (Nat.lt_of_le_of_lt (Nat.sub_le _ _) t.isLt)).1, denNext (grid1.coords t) (iblk1 V c 0 t) (iblk1 V c 1 t) (carried V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The region invariant -/

/-- What the body never touches: the core's scoped buffers that belong to the other kernel, each whole at some contents,
    and the generator register at some state. -/
def restInv (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg11_0), ((c : Thread nD τ).loc cc0_stg11_0) ↦{fullShare} f)
    ∗ (∃ f : Buf (Elt F) ((c : Thread nD τ).loc cc0_stg11_1), ((c : Thread nD τ).loc cc0_stg11_1) ↦{fullShare} f)
    ∗ (∃ f : Buf (Elt F) ((c : Thread nD τ).loc cc0_stg12_0), ((c : Thread nD τ).loc cc0_stg12_0) ↦{fullShare} f)
    ∗ (∃ f : Buf (Elt F) ((c : Thread nD τ).loc cc0_stg12_1), ((c : Thread nD τ).loc cc0_stg12_1) ↦{fullShare} f)
    ∗ (∃ f : Buf (Elt F) ((c : Thread nD τ).loc cc0_stg13_0), ((c : Thread nD τ).loc cc0_stg13_0) ↦{fullShare} f)
    ∗ (∃ f : Buf (Elt F) ((c : Thread nD τ).loc cc0_stg13_1), ((c : Thread nD τ).loc cc0_stg13_1) ↦{fullShare} f)
    ∗ ∃ r, prngReg c r)

/-- The class invariant is the untouched rest beside the two accumulators' scratch buffers at some contents. -/
theorem PhiA1_eq (c : Dev nD) :
    (Pipeline.ΦA spec1 c : sProp 𝕄)
      = iprop(restInv c ∗ (∃ a, owns (c : Thread nD τ) scM0 fullShare a) ∗ (∃ d, owns (c : Thread nD τ) scM1 fullShare d)) := by
  unfold Pipeline.ΦA restInv; rw [scopedRest1_eq]; simp only [scM0, scM1, owns_whole]
  exact sep_regroup _ _ _ _ _ _ _ _ _ _ _ _ _ _ _ _ _ _ _ _ _ _

/-- The region invariant before position `n`: before the first point the class's; afterwards the untouched rest beside
    the two scratch buffers at what the point before left in them. -/
def PhiS (c : Dev nD) : (n : ℕ) → n ≤ cfg1.N → sProp 𝕄
  | 0, _ => Pipeline.ΦA spec1 c
  | n + 1, hn => iprop(restInv c ∗ owns (c : Thread nD τ) scM0 fullShare (carried V c n hn).1 ∗ owns (c : Thread nD τ) scM1 fullShare (carried V c n hn).2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restInv c ∗ owns (c : Thread nD τ) scM0 fullShare (carried V c n hn).1 ∗ owns (c : Thread nD τ) scM1 fullShare (carried V c n hn).2) := rfl

theorem PhiS_pos (c : Dev nD) (n : ℕ) (h : n ≤ cfg1.N) (hz : n ≠ 0) :
    PhiS V c n h = iprop(restInv c ∗ owns (c : Thread nD τ) scM0 fullShare (carried V c (n - 1) (by omega)).1 ∗ owns (c : Thread nD τ) scM1 fullShare (carried V c (n - 1) (by omega)).2) := by
  cases n with
  | zero => exact absurd rfl hz
  | succ n => rfl

/-! ## The pipeline's proof data -/

/-- The proof data of the attention pipeline on core `c`: the arrays as the region finds them; after the body at point `t`
    each input's buffer at its block and the output's at `outOf` of the accumulators after `t` (consulted at the last
    tiles only); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outOf (carried V c t.val t.isLt).1 (carried V c t.val t.isLt).2 (iblk1 V c 3 t) (iblk1 V c 4 t) (iblk1 V c 5 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) (h : t.val % 16 = 15) :
    (dat1 V c).after 6 t = outOf (carried V c t.val t.isLt).1 (carried V c t.val t.isLt).2 (iblk1 V c 3 t) (iblk1 V c 4 t) (iblk1 V c 5 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms of the two conditions say which of the
    three cases the point is in; the invariant hands the body the two scratch buffers at what the point before left (at
    anything before a row block's first tile) and takes them back at this point's accumulators; away from the last tile
    the output's buffer is handed back as found, at the last tile it holds `outOf` of the accumulators; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  rw [show (dat1 V c).leavesExact 3 t = owns (c : Thread nD τ) (ms1_3 t) fullShare ((dat1 V c).after 3 t) from by
    unfold Dat.leavesExact; rfl, after1_3]
  rw [show (dat1 V c).leavesExact 4 t = owns (c : Thread nD τ) (ms1_4 t) fullShare ((dat1 V c).after 4 t) from by
    unfold Dat.leavesExact; rfl, after1_4]
  rw [show (dat1 V c).leavesExact 5 t = owns (c : Thread nD τ) (ms1_5 t) fullShare ((dat1 V c).after 5 t) from by
    unfold Dat.leavesExact; rfl, after1_5]
  by_cases hA : t.val % 16 = 0
  · have hC : ¬t.val % 16 = 15 := by omega
    rw [Dat.leavesExact_idle (dat1 V c) 6 t (idleAt1_6 t (fun h => hC ((hcondC t).mp h))) (noFlush1_6 t hC)]
    rw [show (carried V c t.val t.isLt).1 = _ from congrArg Prod.fst (carried_first V c t hA),
      show (carried V c t.val t.isLt).2 = _ from congrArg Prod.snd (carried_first V c t hA)]
    by_cases hz : t.val = 0
    · rw [PhiS_castSucc V c t, PhiS_zero V c _ _ hz, PhiA1_eq]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runA c Set.univ (grid1.coords t) _ _ _ _ _ _ _ _ _ _ _ _ _ _ _ _ _ _ ((hcondA t).mpr hA) (fun h => hC ((hcondC t).mp h)) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runA c Set.univ (grid1.coords t) _ _ _ _ _ _ _ _ _ _ _ _ _ _ _ _ _ _ ((hcondA t).mpr hA) (fun h => hC ((hcondC t).mp h)) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => hA (by rw [h])
    rw [show (carried V c t.val t.isLt).1 = _ from congrArg Prod.fst (carried_next V c t hA),
      show (carried V c t.val t.isLt).2 = _ from congrArg Prod.snd (carried_next V c t hA)]
    rw [PhiS_castSucc V c t, PhiS_pos V c _ _ hz]
    by_cases hC : t.val % 16 = 15
    · rw [show (dat1 V c).leavesExact 6 t = owns (c : Thread nD τ) (ms1_6 t) fullShare ((dat1 V c).after 6 t) from by
        unfold Dat.leavesExact; rw [liveAt1_6 t ((hcondC t).mpr hC)], after1_6 V c t hC]
      rw [show (carried V c t.val t.isLt).1 = _ from congrArg Prod.fst (carried_next V c t hA),
        show (carried V c t.val t.isLt).2 = _ from congrArg Prod.snd (carried_next V c t hA)]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runC c Set.univ (grid1.coords t) _ _ _ _ _ _ _ _ _ _ _ _ _ _ _ _ _ _ (fun h => hA ((hcondA t).mp h)) ((hcondC t).mpr hC) (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => hC ((hcondC t).mp h))) (noFlush1_6 t hC)]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runB c Set.univ (grid1.coords t) _ _ _ _ _ _ _ _ _ _ _ _ _ _ _ _ _ _ (fun h => hA ((hcondA t).mp h)) (fun h => hC ((hcondC t).mp h)) (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨Hr, HS0, HS1⟩
  isplitl [Hr]; · iexact Hr
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.Hand

end
-- ==== Proof.Kernel.Run.lean ====
/-
  The run of the whole program, from the launch to the return, over its four segments: the host operations that
  slice the weights and drop the unit axis, the projection kernel's region, the attention kernel's region, and the
  host operation that puts the unit axis back. What each region's kernel does at a grid point is a PARAMETER here
  (`ProjKit`, `AttnKit`: the region's proof data at any entry contents, its body obligation, and for the attention
  kernel how its invariant starts from and returns to the plain one); this module threads the buffer contents through
  the segments and concludes that every execution terminates with every unscoped buffer at the contents the fold
  `W4` names.
-/
import proofs.«133152_j31482110280356_2_alg».proof.Proof.Gen.Kernel.Launch
import proofs.«133152_j31482110280356_2_alg».proof.Proof.Gen.Kernel.Points
import proofs.«133152_j31482110280356_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The TensorCore's buffer contents at a segment boundary, read at its references. -/
abbrev Contents (F : FTy → Type) : Type := (c : Dev nD) → (b : Ref sig .tc) → Buf (Elt F) ((c : Thread nD τ).loc b)

/-- What the projection kernel's region supplies: its proof data at any entry contents — the arrays as entered,
    the plain invariant, full shares, nothing owed — and the body obligation. -/
structure ProjKit (F : FTy → Type) [FloatOps F] where
  dat : Contents F → (c : Dev nD) → Dat τ (Elt F) Unit ℕ (UR sig nD τ) ℕ cfg0 c
  hA : ∀ V c (w : Fin cfg0.W), (dat V c).A w = V c (Pipeline.arrRef spec0 w)
  hΦ : ∀ V c t, (dat V c).Φ t = Pipeline.ΦA spec0 c
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ

/-- What the attention kernel's region supplies: the same, with an invariant of its own (the two accumulators'
    contents between points) that starts from the plain one and returns to it. -/
structure AttnKit (F : FTy → Type) [FloatOps F] where
  dat : Contents F → (c : Dev nD) → Dat τ (Elt F) Unit ℕ (UR sig nD τ) ℕ cfg1 c
  hA : ∀ V c (w : Fin cfg1.W), (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable {F : FTy → Type} [FloatOps F]

local notation "𝕄" => MT nD τ sig Unit (Elt F) ℕ (UR sig nD τ) ℕ

variable (P : ProjKit F) (A : AttnKit F)
variable (m : (ℓ : Loc nD τ sig) → Buf (Elt F) ℓ) (ρ : Dev nD → PrngReg)

/-! ## The buffer contents at each segment boundary: a fold through the program -/

/-- At launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev V1 : Contents F := fun c b => W1 m ρ c b
/-- After the projection kernel's region: its arrays at what the write-backs leave, every other buffer as entered. -/
def W2 (c : Dev nD) : Valuation τ sig (Elt F) :=
  Pipeline.withArrays spec0 c (W1 m ρ c) fun w => (P.dat (V1 m ρ) c).arrAt w cfg0.N
abbrev V2 : Contents F := fun c b => W2 P m ρ c b
/-- After the attention kernel's region. -/
def W3 (c : Dev nD) : Valuation τ sig (Elt F) :=
  Pipeline.withArrays spec1 c (W2 P m ρ c) fun w => (A.dat (V2 P m ρ) c).arrAt w cfg1.N
abbrev V3 : Contents F := fun c b => W3 P A m ρ c b
/-- After the last host operation. -/
abbrev W4 : Dev nD → Valuation τ sig (Elt F) := fun c => StableHlo.after hostOps2 (W3 P A m ρ c)

theorem W2_arr (c : Dev nD) (w : Fin cfg0.W) :
    W2 P m ρ c (Proc.devRef .tc (Pipeline.arrRef spec0 w)) = (P.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 P m ρ c (Proc.devRef .tc b) = W1 m ρ c (Proc.devRef .tc b) := by
  unfold W2; exact Pipeline.withArrays_of_ne spec0 c _ _ b hb
theorem exit0_arrays (c : Dev nD) (w : Fin cfg0.W) : (P.dat (V1 m ρ) c).arrAt w cfg0.N = V2 P m ρ c (Pipeline.arrRef spec0 w) :=
  (W2_arr P m ρ c w).symm
theorem exit0_rest (c : Dev nD) : ∀ b, b ∉ Finset.univ.image (Pipeline.arrRef spec0) → V2 P m ρ c b = V1 m ρ c b :=
  fun b hb => W2_of_ne P m ρ c b fun w e => hb (Finset.mem_image.mpr ⟨w, Finset.mem_univ _, e⟩)

theorem W3_arr (c : Dev nD) (w : Fin cfg1.W) :
    W3 P A m ρ c (Proc.devRef .tc (Pipeline.arrRef spec1 w)) = (A.dat (V2 P m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 P A m ρ c (Proc.devRef .tc b) = W2 P m ρ c (Proc.devRef .tc b) := by
  unfold W3; exact Pipeline.withArrays_of_ne spec1 c _ _ b hb
theorem exit1_arrays (c : Dev nD) (w : Fin cfg1.W) : (A.dat (V2 P m ρ) c).arrAt w cfg1.N = V3 P A m ρ c (Pipeline.arrRef spec1 w) :=
  (W3_arr P A m ρ c w).symm
theorem exit1_rest (c : Dev nD) : ∀ b, b ∉ Finset.univ.image (Pipeline.arrRef spec1) → V3 P A m ρ c b = V2 P m ρ c b :=
  fun b hb => W3_of_ne P A m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => P.dat (V1 m ρ) c
  | ⟨1, _⟩ => fun c => A.dat (V2 P m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 P A m ρ c) ∗ ∃ r, prngReg c r)

/-! ## The regions as segments -/

set_option backward.isDefEq.respectTransparency.types false in
/-- The projection kernel's region: entered with every unscoped buffer at `W1`, left at `W2`. -/
def reg0 : Pipeline.RegionSeg (pcfgs (F := F)) adm (pdats P A m ρ) () defs₀ 𝒱₀ L lv 0 where
  win := launch0.win.to₀
  block_pos := launch0.block_pos
  stage_whole := launch0.stage_whole
  K := PEmpty
  osem k := k.elim
  ho := Pipeline.OwnSemFacts.none _
  hbody c := (P.hbody (V1 m ρ) c).loose
  hwaits := Pipeline.hwaits_of_owed_zero _ _ _ _ L lv 0 fun c t => P.howed (V1 m ρ) c t
  pre c := iprop(StableHlo.held (c : Thread nD τ) (Pipeline.ucRefs τ sig) (W1 m ρ c) ∗ R c)
  post c := iprop(StableHlo.held (c : Thread nD τ) (Pipeline.ucRefs τ sig) (W2 P m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats P A m ρ) launch0.win launch0.arr_whole c
      ((pdats P A m ρ 0 c).share_full fun w => P.hq (V1 m ρ) c w) (V1 m ρ c) fun w => P.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P A m ρ 0 c).owed 0 = 0 from P.howed (V1 m ρ) c 0]
      icases HO with ⟨%W, HO⟩; iexists W; isplitr
      · ipureintro; exact fun _ _ => Or.inl (by rw [show (pdats P A m ρ 0 c).recorded 0 = Set.univ from P.hrec (V1 m ρ) c 0]; trivial)
      iexact HO
    isplitl [Hp]; · iexact Hp
    iexact Hrest
  hin c := by
    rw [show (pdats P A m ρ 0 c).Φ 0 = Pipeline.ΦA spec0 c from P.hΦ (V1 m ρ) c 0]; unfold Pipeline.ΦA
    iintro ⟨Hp, -, Hr⟩
    isplitl [Hr]; · iexact Hr
    iexact Hp
  hout c := by
    rw [Pipeline.ownSems0_none, show (pdats P A m ρ 0 c).Φ (Fin.last _) = Pipeline.ΦA spec0 c from P.hΦ (V1 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats P A m ρ) ((pdats P A m ρ 0 c).share_full fun w => P.hq (V1 m ρ) c w)
      (V1 m ρ c) (V2 P m ρ c) ((pdats P A m ρ 0 c).arrAt · cfg0.N) (exit0_arrays P m ρ c) (exit0_rest P m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P A m ρ 0 c).owed (Fin.last _) = 0 from P.howed (V1 m ρ) c _]
    icases HO with ⟨%W, -, HO⟩; iexists W; iexact HO

set_option backward.isDefEq.respectTransparency.types false in
/-- The attention kernel's region: entered with every unscoped buffer at `W2`, left at `W3`; its invariant starts
    from the plain one and returns to it. -/
def reg1 : Pipeline.RegionSeg (pcfgs (F := F)) adm (pdats P A m ρ) () defs₀ 𝒱₀ L lv 1 where
  win := launch1.win.to₀
  block_pos := launch1.block_pos
  stage_whole := launch1.stage_whole
  K := PEmpty
  osem k := k.elim
  ho := Pipeline.OwnSemFacts.none _
  hbody c := (A.hbody (V2 P m ρ) c).loose
  hwaits := Pipeline.hwaits_of_owed_zero _ _ _ _ L lv 1 fun c t => A.howed (V2 P m ρ) c t
  pre c := iprop(StableHlo.held (c : Thread nD τ) (Pipeline.ucRefs τ sig) (W2 P m ρ c) ∗ R c)
  post c := iprop(StableHlo.held (c : Thread nD τ) (Pipeline.ucRefs τ sig) (W3 P A m ρ c) ∗ R c)
  X c := iprop(∃ r, prngReg c r)
  Y c := iprop(∃ r, prngReg c r)
  Z c := Pipeline.unscopedRest (Ix := Unit) (Name := ℕ) (U := UR sig nD τ) (Lvl := ℕ) spec1 c (V2 P m ρ c)
  hentry c := by
    rw [Pipeline.ownSems0_none]
    have hsplit := Pipeline.arrays_of_unscopedBufs (p := 1) (pcfgs (F := F)) adm (pdats P A m ρ) launch1.win launch1.arr_whole c
      ((pdats P A m ρ 1 c).share_full fun w => A.hq (V2 P m ρ) c w) (V2 P m ρ c) fun w => A.hA (V2 P m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P A m ρ 1 c).owed 0 = 0 from A.howed (V2 P m ρ) c 0]
      icases HO with ⟨%W, HO⟩; iexists W; isplitr
      · ipureintro; exact fun _ _ => Or.inl (by rw [show (pdats P A m ρ 1 c).recorded 0 = Set.univ from A.hrec (V2 P m ρ) c 0]; trivial)
      iexact HO
    isplitl [Hp]; · iexact Hp
    iexact Hrest
  hin c := by
    refine (show _ ⊢ (Pipeline.ΦA spec1 c : sProp 𝕄) from ?_).trans (A.hin (V2 P m ρ) c)
    unfold Pipeline.ΦA
    iintro ⟨Hp, -, Hr⟩
    isplitl [Hr]; · iexact Hr
    iexact Hp
  hout c := by
    refine (A.hout (V2 P m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats P A m ρ) ((pdats P A m ρ 1 c).share_full fun w => A.hq (V2 P m ρ) c w)
      (V2 P m ρ c) (V3 P A m ρ c) ((pdats P A m ρ 1 c).arrAt · cfg1.N) (exit1_arrays P A m ρ c) (exit1_rest P A m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P A m ρ 1 c).owed (Fin.last _) = 0 from A.howed (V2 P m ρ) c _]
    icases HO with ⟨%W, -, HO⟩; iexists W; iexact HO

/-! ## The program as segments, and the launch -/

abbrev segs : List (Pipeline.Seg (pcfgs (F := F)) adm (pdats P A m ρ) () defs₀ 𝒱₀ L lv) :=
  [ .host (hseg hostOps0 hostOps0_sub hostOps0_fresh (W0 m ρ)),
    .region (reg0 P A m ρ),
    .region (reg1 P A m ρ),
    .host (hseg hostOps2 hostOps2_sub hostOps2_fresh (W3 P A m ρ)) ]

theorem main_run (c : Dev nD) : main (F := F) c = Pipeline.Seg.run (segs P A m ρ) := (main_chain c).trans (by chain_rfl)

set_option backward.isDefEq.respectTransparency.types false in
/-- THE RUN. From any memory with zero counters every weakly fair execution of the program on the TensorCores
    terminates, nothing faulting, and in every final state each unscoped buffer holds what the fold `W4` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 P A m ρ c b) :=
  Pipeline.θ_run_regions_kit (pcfgs (F := F)) adm (pdats P A m ρ) () cellOf_inj emb₁ defs₀ 𝒱₀ L lv m ρ main (segs P A m ρ)
    (fun c Q => by rw [main_run P A m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ P A m ρ)
    (hch := ⟨fun _ => .rfl, fun _ => .rfl, fun _ => .rfl, fun _ => .rfl, fun c => by
      show iprop(StableHlo.held (c : Thread nD τ) (Pipeline.ucRefs τ sig) (W4 P A m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 P A m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 P A m ρ c) s')
      isplitl [Hh] <;> iassumption)
    (hQ := fun s h c => h c)

end Cert.Kernel.Hand

end
-- ==== Proof.Kernel.Kept.lean ====
/-
  No segment changes an argument array: the host operations write only their own results, a region's write-backs
  go to its output windows' arrays only (an input window's array is never written back), and every other buffer
  bypasses the region. So the fold of the buffer contents through the four segments, read at an argument, walks back
  to the launch memory — which is the frame claim, given the run.
-/
import proofs.«133152_j31482110280356_2_alg».proof.Proof.Kernel.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (P : ProjKit F) (A : AttnKit F)
variable (m : (ℓ : Loc nD τ sig) → Buf (Elt F) ℓ) (ρ : Dev nD → PrngReg)

/-- A buffer no host operation before the first region writes holds its launch contents when that region is entered. -/
theorem W1_kept (c : Dev nD) (r : Ref sig .tc) (h : r ∉ hostOps0_W) : W1 m ρ c r = m ((c : Thread nD τ).loc r) :=
  (StableHlo.after_of_writes_sub hostOps0 _ hostOps0_writes h).trans rfl

/-- A buffer the last host operation does not write is as the second region left it. -/
theorem W4_kept (c : Dev nD) (r : Ref sig .tc) (h : r ∉ hostOps2_W) : W4 P A m ρ c r = W3 P A m ρ c r :=
  StableHlo.after_of_writes_sub hostOps2 _ hostOps2_writes h

/-- An input window's array of the first region leaves it as entered. -/
theorem W2_in (c : Dev nD) (w : Fin cfg0.W) (hin : (cfg0.win w).isOut = false) :
    W2 P m ρ c (Proc.devRef .tc (Pipeline.arrRef spec0 w)) = V1 m ρ c (Pipeline.arrRef spec0 w) :=
  (W2_arr P m ρ c w).trans (((P.dat (V1 m ρ) c).arrAt_in w hin _).trans (P.hA (V1 m ρ) c w))

/-- An input window's array of the second region leaves it as entered. -/
theorem W3_in (c : Dev nD) (w : Fin cfg1.W) (hin : (cfg1.win w).isOut = false) :
    W3 P A m ρ c (Proc.devRef .tc (Pipeline.arrRef spec1 w)) = V2 P m ρ c (Pipeline.arrRef spec1 w) :=
  (W3_arr P A m ρ c w).trans (((A.dat (V2 P m ρ) c).arrAt_in w hin _).trans (A.hA (V2 P m ρ) c w))

theorem W4_main_arg0 (c : Dev nD) : W4 P A m ρ c (Proc.devRef .tc main_arg0) = m ((c : Thread nD τ).loc main_arg0) :=
  (W4_kept P A m ρ c main_arg0 (by decide)).trans <| (W3_of_ne P A m ρ c main_arg0 (by decide)).trans <| (W2_of_ne P m ρ c main_arg0 (by decide)).trans <| W1_kept m ρ c main_arg0 (by decide)

theorem W4_main_arg1 (c : Dev nD) : W4 P A m ρ c (Proc.devRef .tc main_arg1) = m ((c : Thread nD τ).loc main_arg1) :=
  (W4_kept P A m ρ c main_arg1 (by decide)).trans <| (W3_of_ne P A m ρ c main_arg1 (by decide)).trans <| (W2_of_ne P m ρ c main_arg1 (by decide)).trans <| W1_kept m ρ c main_arg1 (by decide)

theorem W4_main_arg2 (c : Dev nD) : W4 P A m ρ c (Proc.devRef .tc main_arg2) = m ((c : Thread nD τ).loc main_arg2) :=
  (W4_kept P A m ρ c main_arg2 (by decide)).trans <| (W3_of_ne P A m ρ c main_arg2 (by decide)).trans <| (W2_of_ne P m ρ c main_arg2 (by decide)).trans <| W1_kept m ρ c main_arg2 (by decide)

theorem W4_main_arg3 (c : Dev nD) : W4 P A m ρ c (Proc.devRef .tc main_arg3) = m ((c : Thread nD τ).loc main_arg3) :=
  (W4_kept P A m ρ c main_arg3 (by decide)).trans <| (W3_of_ne P A m ρ c main_arg3 (by decide)).trans <| (W2_in P m ρ c 4 rfl).trans <| W1_kept m ρ c main_arg3 (by decide)

theorem W4_main_arg4 (c : Dev nD) : W4 P A m ρ c (Proc.devRef .tc main_arg4) = m ((c : Thread nD τ).loc main_arg4) :=
  (W4_kept P A m ρ c main_arg4 (by decide)).trans <| (W3_of_ne P A m ρ c main_arg4 (by decide)).trans <| (W2_of_ne P m ρ c main_arg4 (by decide)).trans <| W1_kept m ρ c main_arg4 (by decide)

theorem W4_main_arg5 (c : Dev nD) : W4 P A m ρ c (Proc.devRef .tc main_arg5) = m ((c : Thread nD τ).loc main_arg5) :=
  (W4_kept P A m ρ c main_arg5 (by decide)).trans <| (W3_of_ne P A m ρ c main_arg5 (by decide)).trans <| (W2_in P m ρ c 7 rfl).trans <| W1_kept m ρ c main_arg5 (by decide)

theorem W4_main_arg6 (c : Dev nD) : W4 P A m ρ c (Proc.devRef .tc main_arg6) = m ((c : Thread nD τ).loc main_arg6) :=
  (W4_kept P A m ρ c main_arg6 (by decide)).trans <| (W3_of_ne P A m ρ c main_arg6 (by decide)).trans <| (W2_of_ne P m ρ c main_arg6 (by decide)).trans <| W1_kept m ρ c main_arg6 (by decide)

theorem W4_main_arg7 (c : Dev nD) : W4 P A m ρ c (Proc.devRef .tc main_arg7) = m ((c : Thread nD τ).loc main_arg7) :=
  (W4_kept P A m ρ c main_arg7 (by decide)).trans <| (W3_of_ne P A m ρ c main_arg7 (by decide)).trans <| (W2_in P m ρ c 10 rfl).trans <| W1_kept m ρ c main_arg7 (by decide)

theorem W4_main_arg8 (c : Dev nD) : W4 P A m ρ c (Proc.devRef .tc main_arg8) = m ((c : Thread nD τ).loc main_arg8) :=
  (W4_kept P A m ρ c main_arg8 (by decide)).trans <| (W3_in P A m ρ c 4 rfl).trans <| (W2_of_ne P m ρ c main_arg8 (by decide)).trans <| W1_kept m ρ c main_arg8 (by decide)

theorem W4_main_arg9 (c : Dev nD) : W4 P A m ρ c (Proc.devRef .tc main_arg9) = m ((c : Thread nD τ).loc main_arg9) :=
  (W4_kept P A m ρ c main_arg9 (by decide)).trans <| (W3_in P A m ρ c 5 rfl).trans <| (W2_of_ne P m ρ c main_arg9 (by decide)).trans <| W1_kept m ρ c main_arg9 (by decide)

include P A in
/-- THE FRAME: every weakly fair execution terminates, nothing faulting, and the ten argument arrays end as launched. -/
theorem frame_of_kits : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 P A m ρ c),
    (h c _ (mem_uc main_arg1 (by decide))).trans (W4_main_arg1 P A m ρ c),
    (h c _ (mem_uc main_arg2 (by decide))).trans (W4_main_arg2 P A m ρ c),
    (h c _ (mem_uc main_arg3 (by decide))).trans (W4_main_arg3 P A m ρ c),
    (h c _ (mem_uc main_arg4 (by decide))).trans (W4_main_arg4 P A m ρ c),
    (h c _ (mem_uc main_arg5 (by decide))).trans (W4_main_arg5 P A m ρ c),
    (h c _ (mem_uc main_arg6 (by decide))).trans (W4_main_arg6 P A m ρ c),
    (h c _ (mem_uc main_arg7 (by decide))).trans (W4_main_arg7 P A m ρ c),
    (h c _ (mem_uc main_arg8 (by decide))).trans (W4_main_arg8 P A m ρ c),
    (h c _ (mem_uc main_arg9 (by decide))).trans (W4_main_arg9 P A m ρ c)⟩) (run_all P A m ρ)

end Cert.Kernel.Hand

end
-- ==== Proof.Kernel.Frame.lean ====
/-
  The two regions' records (`ProjKit`, `AttnKit`) from the kernels' bodies, and with them the run and the frame of the whole program: the
  projection kernel's region keeps the plain invariant; the attention kernel's region carries its two accumulators
  in its invariant, which starts from the plain one and returns to it.
-/
import proofs.«133152_j31482110280356_2_alg».proof.Proof.Kernel.ProjBody
import proofs.«133152_j31482110280356_2_alg».proof.Proof.Kernel.AttnBody
import proofs.«133152_j31482110280356_2_alg».proof.Proof.Kernel.Kept

noncomputable section

namespace Cert.Kernel.Hand

open Cert.Kernel Cert.Kernel.Gen
open Idealize.ShloMosaic Idealize.ShloMosaic.TcCoe
open Idealize.SL Idealize.SL.Sem

variable {F : FTy → Type} [FloatOps F]

/-- The projection kernel's region. -/
def projKit : ProjKit F where
  dat := fun V c => dat0 V c
  hA := fun V c w => A_eq0 V c w
  hΦ := fun V c t => rfl
  hq := fun V c w => rfl
  howed := fun V c t => rfl
  hrec := fun V c t => rfl
  hbody := fun V c => body_obligation0 V c

/-- The attention kernel's region. -/
def attnKit : AttnKit F where
  dat := fun V c => dat1 V c
  hA := fun V c w => A_eq1 V c w
  hq := fun V c w => rfl
  howed := fun V c t => rfl
  hrec := fun V c t => rfl
  hbody := fun V c => body_obligation1 V c
  hin := fun V c => hin1 V c
  hout := fun V c => hout1 V c

variable (m : (ℓ : Loc nD τ sig) → Buf (Elt F) ℓ) (ρ : Dev nD → PrngReg)

/-- The run: every execution terminates with every unscoped buffer at the fold's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 projKit attnKit m ρ c b) :=
  run_all projKit attnKit m ρ

/-- The frame: every execution terminates and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_kits projKit attnKit m ρ

end Cert.Kernel.Hand

end
-- ==== Proof.KernelIdeal.ProjBody.lean ====
/- The projection kernel's half of the frame (region 0): at each of the 8 grid points the body reads its eleven
   input blocks whole — a 1024-row block of landmarks [1024,3] and of features [1024,256], and for each of the three
   projections the weight's first 3 rows [3,128], its last 256 rows [256,128] and the bias [128] — and writes three
   output blocks [1024,128] whole, one store each: block·W + b rounded to bf16, for the i-, j- and k-projection.
   Stated at a parameter `V`, the TensorCore's buffer contents when the region is entered. -/
import proofs.«133152_j31482110280356_2_alg».proof.Proof.Gen.KernelIdeal.Launch
import proofs.«133152_j31482110280356_2_alg».proof.Proof.Gen.KernelIdeal.Skeleton
import proofs.«133152_j31482110280356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of the window's array, as the region finds it, that the point's
    index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds the window's block at every point, whether the block was fetched at
    that point or carried over from the point before (then the block index has not moved): for any proof data whose
    array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rLm : Rect S1024x3 := Rect.unit (s := S1024x3) ![0, 0] S1024x3.size inb_S1024x3_S1024x3_0_0
abbrev rFt : Rect S1024x256 := Rect.unit (s := S1024x256) ![0, 0] S1024x256.size inb_S1024x256_S1024x256_0_0
abbrev rWa : Rect S3x128 := Rect.unit (s := S3x128) ![0, 0] S3x128.size inb_S3x128_S3x128_0_0
abbrev rWb : Rect S256x128 := Rect.unit (s := S256x128) ![0, 0] S256x128.size inb_S256x128_S256x128_0_0
abbrev rBs : Rect S128 := Rect.unit (s := S128) ![0] S128.size inb_S128_S128_0
abbrev rPj : Rect S1024x128 := Rect.unit (s := S1024x128) ![0, 0] S1024x128.size inb_S1024x128_S1024x128_0_0

theorem zeros2 : (![0, 0] : Fin 2 → Nat) = fun _ => 0 := by funext a; fin_cases a <;> rfl
theorem zeros1 : (![0] : Fin 1 → Nat) = fun _ => 0 := by funext a; fin_cases a; rfl

/-! ## The three projections, from the input blocks -/

/-- The i-projection's output block: (landmarks·Wi[0:3] + features·Wi[3:259]) + bi, the operands rounded to bf16
    before each product, the sum rounded to bf16. -/
def projFi (x0 : Vec F S1024x3 .f32) (x1 : Vec F S1024x256 .f32) (x2 : Vec F S3x128 .f32) (x3 : Vec F S256x128 .f32) (x4 : Vec F S128 .f32) : Vec F S1024x128 .bf16 := k0_pay1 (k0_pay8 x0 x1 x2 x3 x4)
/-- The j-projection's output block, the same of Wj and bj. -/
def projFj (x0 : Vec F S1024x3 .f32) (x1 : Vec F S1024x256 .f32) (x5 : Vec F S3x128 .f32) (x6 : Vec F S256x128 .f32) (x7 : Vec F S128 .f32) : Vec F S1024x128 .bf16 := k0_pay2 (k0_pay9 x0 x1 x5 x6) (k0_pay10 x7)
/-- The k-projection's output block, the same of Wk and bk. -/
def projFk (x0 : Vec F S1024x3 .f32) (x1 : Vec F S1024x256 .f32) (x8 : Vec F S3x128 .f32) (x9 : Vec F S256x128 .f32) (x10 : Vec F S128 .f32) : Vec F S1024x128 .bf16 := k0_pay3 (k0_pay4 x0) (k0_pay5 x1) (k0_pay6 x8) (k0_pay7 x9) x10

/-! ## What the body leaves in each output window's buffer -/

/-- A load of a whole block reads the block. -/
theorem ld_rLm (X : Vec F S1024x3 .f32) : View.ld X rLm = X := View.ld_unit_zero zeros2 _ X
theorem ld_rFt (X : Vec F S1024x256 .f32) : View.ld X rFt = X := View.ld_unit_zero zeros2 _ X
theorem ld_rWa (X : Vec F S3x128 .f32) : View.ld X rWa = X := View.ld_unit_zero zeros2 _ X
theorem ld_rWb (X : Vec F S256x128 .f32) : View.ld X rWb = X := View.ld_unit_zero zeros2 _ X
theorem ld_rBs (X : Vec F S128 .f32) : View.ld X rBs = X := View.ld_unit_zero zeros1 _ X

/-- One store of a whole output block covers the buffer. -/
theorem cover_rPj (p : Vec F S1024x128 .bf16) (y : S1024x128.Idx) :
    ∃ pc ∈ ([⟨rPj, p⟩] : List (View.Piece (Elt F) S1024x128 .bf16)), y ∈ pc.1.set :=
  ⟨_, List.mem_singleton_self _, View.mem_set_unit_zero zeros2 inb_S1024x128_S1024x128_0_0 y⟩

/-- Output window 11's buffer after the body, from the input blocks: its one store, of the whole block. -/
def out0_11 (x0 : Vec F S1024x3 .f32) (x1 : Vec F S1024x256 .f32) (x2 : Vec F S3x128 .f32) (x3 : Vec F S256x128 .f32) (x4 : Vec F S128 .f32) : Vec F S1024x128 .bf16 :=
  View.canon [⟨rPj, k0_pay1 (k0_pay8 (View.ld x0 rLm) (View.ld x1 rFt) (View.ld x2 rWa) (View.ld x3 rWb) (View.ld x4 rBs))⟩]

/-- It is the projection of the blocks: the store's payload read back, each load the block itself. -/
theorem out0_11_eq (x0 : Vec F S1024x3 .f32) (x1 : Vec F S1024x256 .f32) (x2 : Vec F S3x128 .f32) (x3 : Vec F S256x128 .f32) (x4 : Vec F S128 .f32) : out0_11 x0 x1 x2 x3 x4 = projFi x0 x1 x2 x3 x4 := by
  unfold out0_11 projFi
  rw [View.canon_unit_zero zeros2, ld_rLm, ld_rFt, ld_rWa, ld_rWb, ld_rBs]

/-- Output window 12's buffer after the body, from the input blocks: its one store, of the whole block. -/
def out0_12 (x0 : Vec F S1024x3 .f32) (x1 : Vec F S1024x256 .f32) (x5 : Vec F S3x128 .f32) (x6 : Vec F S256x128 .f32) (x7 : Vec F S128 .f32) : Vec F S1024x128 .bf16 :=
  View.canon [⟨rPj, k0_pay2 (k0_pay9 (View.ld x0 rLm) (View.ld x1 rFt) (View.ld x5 rWa) (View.ld x6 rWb)) (k0_pay10 (View.ld x7 rBs))⟩]

/-- It is the projection of the blocks: the store's payload read back, each load the block itself. -/
theorem out0_12_eq (x0 : Vec F S1024x3 .f32) (x1 : Vec F S1024x256 .f32) (x5 : Vec F S3x128 .f32) (x6 : Vec F S256x128 .f32) (x7 : Vec F S128 .f32) : out0_12 x0 x1 x5 x6 x7 = projFj x0 x1 x5 x6 x7 := by
  unfold out0_12 projFj
  rw [View.canon_unit_zero zeros2, ld_rLm, ld_rFt, ld_rWa, ld_rWb, ld_rBs]

/-- Output window 13's buffer after the body, from the input blocks: its one store, of the whole block. -/
def out0_13 (x0 : Vec F S1024x3 .f32) (x1 : Vec F S1024x256 .f32) (x8 : Vec F S3x128 .f32) (x9 : Vec F S256x128 .f32) (x10 : Vec F S128 .f32) : Vec F S1024x128 .bf16 :=
  View.canon [⟨rPj, k0_pay3 (k0_pay4 (View.ld x0 rLm)) (k0_pay5 (View.ld x1 rFt)) (k0_pay6 (View.ld x8 rWa)) (k0_pay7 (View.ld x9 rWb)) (View.ld x10 rBs)⟩]

/-- It is the projection of the blocks: the store's payload read back, each load the block itself. -/
theorem out0_13_eq (x0 : Vec F S1024x3 .f32) (x1 : Vec F S1024x256 .f32) (x8 : Vec F S3x128 .f32) (x9 : Vec F S256x128 .f32) (x10 : Vec F S128 .f32) : out0_13 x0 x1 x8 x9 x10 = projFk x0 x1 x8 x9 x10 := by
  unfold out0_13 projFk
  rw [View.canon_unit_zero zeros2, ld_rLm, ld_rFt, ld_rWa, ld_rWb, ld_rBs]

/-! ## The body's triple -/

set_option maxHeartbeats 1000000 in
/-- The body on whole buffers, the inputs' at contents `xW` and the outputs' at anything, runs to a continuation that
    holds the inputs' as they were and each output's at its projection's block. -/
theorem sound_kernel0 (c : Dev nD) (E : Set ℕ) (i : grid0.Coords) (arg1 : Memref sig .tc .vmem S1024x3 .f32) (harg1 : arg1.IsWhole) (arg2 : Memref sig .tc .vmem S1024x256 .f32) (harg2 : arg2.IsWhole) (arg3 : Memref sig .tc .vmem S3x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S3x128 .f32) (harg6 : arg6.IsWhole) (arg7 : Memref sig .tc .vmem S256x128 .f32) (harg7 : arg7.IsWhole) (arg8 : Memref sig .tc .vmem S128 .f32) (harg8 : arg8.IsWhole) (arg9 : Memref sig .tc .vmem S3x128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1024x128 .bf16) (harg14 : arg14.IsWhole)
    (x0 : Vec F S1024x3 .f32) (x1 : Vec F S1024x256 .f32) (x2 : Vec F S3x128 .f32) (x3 : Vec F S256x128 .f32) (x4 : Vec F S128 .f32) (x5 : Vec F S3x128 .f32) (x6 : Vec F S256x128 .f32) (x7 : Vec F S128 .f32) (x8 : Vec F S3x128 .f32) (x9 : Vec F S256x128 .f32) (x10 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4)
            ∗ owns (c : Thread nD τ) arg13 fullShare (out0_12 x0 x1 x5 x6 x7)
            ∗ owns (c : Thread nD τ) arg14 fullShare (out0_13 x0 x1 x8 x9 x10)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover_rPj _)
  isplitl [H12]
  · iexists _; isplitr
    swap; · iexact H12
    ipureintro
    try dsimp only
    exact View.read_writes_eq_canon _ _ _ (cover_rPj _)
  iexists _; isplitr
  swap; · iexact H13
  ipureintro
  try dsimp only
  exact View.read_writes_eq_canon _ _ _ (cover_rPj _)

/-! ## The pipeline's proof data -/

/-- The proof data of the projection pipeline on core `c`: the arrays as the region finds them; after the body at point
    `t` each input's buffer at its block and each output's at its projection of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t)
    | ⟨12, _⟩ => out0_12 (iblk0 V c 0 t) (iblk0 V c 1 t) (iblk0 V c 5 t) (iblk0 V c 6 t) (iblk0 V c 7 t)
    | ⟨13, _⟩ => out0_13 (iblk0 V c 0 t) (iblk0 V c 1 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window: an input's block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
/-- an output's one store, -/
theorem after0_11_out (c : Dev nD) (t : Fin cfg0.N) : (dat0 V c).after 11 t = out0_11 (iblk0 V c 0 t) (iblk0 V c 1 t) (iblk0 V c 2 t) (iblk0 V c 3 t) (iblk0 V c 4 t) := by dsimp only [dat0]
theorem after0_12_out (c : Dev nD) (t : Fin cfg0.N) : (dat0 V c).after 12 t = out0_12 (iblk0 V c 0 t) (iblk0 V c 1 t) (iblk0 V c 5 t) (iblk0 V c 6 t) (iblk0 V c 7 t) := by dsimp only [dat0]
theorem after0_13_out (c : Dev nD) (t : Fin cfg0.N) : (dat0 V c).after 13 t = out0_13 (iblk0 V c 0 t) (iblk0 V c 1 t) (iblk0 V c 8 t) (iblk0 V c 9 t) (iblk0 V c 10 t) := by dsimp only [dat0]
/-- which is the projection of the point's input blocks. -/
theorem after0_11 (c : Dev nD) (t : Fin cfg0.N) : (dat0 V c).after 11 t = projFi (iblk0 V c 0 t) (iblk0 V c 1 t) (iblk0 V c 2 t) (iblk0 V c 3 t) (iblk0 V c 4 t) :=
  (after0_11_out V c t).trans (out0_11_eq _ _ _ _ _)
theorem after0_12 (c : Dev nD) (t : Fin cfg0.N) : (dat0 V c).after 12 t = projFj (iblk0 V c 0 t) (iblk0 V c 1 t) (iblk0 V c 5 t) (iblk0 V c 6 t) (iblk0 V c 7 t) :=
  (after0_12_out V c t).trans (out0_12_eq _ _ _ _ _)
theorem after0_13 (c : Dev nD) (t : Fin cfg0.N) : (dat0 V c).after 13 t = projFk (iblk0 V c 0 t) (iblk0 V c 1 t) (iblk0 V c 8 t) (iblk0 V c 9 t) (iblk0 V c 10 t) :=
  (after0_13_out V c t).trans (out0_13_eq _ _ _ _ _)

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11_out, after0_12_out, after0_13_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.AttnBody.lean ====
/-
  The attention kernel's half of the frame: the second pipeline of the program (a grid of 8 row blocks by 16 column
  tiles) at a parameter `V`, the TensorCore's buffer contents when its region is entered.

  The kernel keeps two accumulators in scratch buffers between grid points: the numerator `acc` [1024,128] and the
  denominator `den` [1024,1]. At a row block's first tile (second coordinate 0) both are reset to zero; at every tile
  `den += rowsum p` and `acc += p · fk_tile` with `p = logistic(fi_blk · fj_tileᵀ)`; at the last tile (second coordinate
  15) the output block `feat_blk + ((acc / den) · Wr + br)` is stored. So a point is in one of three cases — first tile,
  middle tile, last tile —, the output window is idle away from the last tiles, and the region invariant carries the two
  scratch buffers at the accumulators the point before left (`carried`).

  Stated here: the body's triple in each case with explicit contents (`runA`, `runB`, `runC`), the accumulators point
  by point (`carried`), the proof data (`dat1`), the body obligation (`body_obligation1`), and the two ends of the
  invariant (`hin1`, `hout1`).
-/
import proofs.«133152_j31482110280356_2_alg».proof.Proof.Gen.KernelIdeal.Launch
import proofs.«133152_j31482110280356_2_alg».proof.Proof.Gen.KernelIdeal.Skeleton
import proofs.«133152_j31482110280356_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a whole-buffer access, in the two spellings. -/
theorem hz2 : (![0, 0] : Fin 2 → ℕ) = fun _ => 0 := by funext a; fin_cases a <;> rfl
theorem hz1 : (![0] : Fin 1 → ℕ) = fun _ => 0 := by funext a; fin_cases a; rfl

/-- The first conditional of the body (the two accumulators are reset), from the grid coordinates. -/
abbrev condA (i : grid1.Coords) : Prop := (Scalar.cmpi .ne (Scalar.extui (Scalar.cmpi .eq (BitVec.ofNat 32 (i 1).val) 0#32)) 0#32) = 1#1
/-- It holds where the second coordinate is 0. -/
theorem hcondA : ∀ t : Fin cfg1.N, condA (grid1.coords t) ↔ t.val % 16 = 0 :=
  (by decide +kernel : ∀ t : Fin grid1.N, condA (grid1.coords t) ↔ t.val % 16 = 0)
/-- The second conditional of the body (the output block is stored), from the grid coordinates. -/
abbrev condC (i : grid1.Coords) : Prop := k1_cond2 i = 1#1
/-- It holds where the second coordinate is 15. -/
theorem hcondC : ∀ t : Fin cfg1.N, condC (grid1.coords t) ↔ t.val % 16 = 15 :=
  (by decide +kernel : ∀ t : Fin grid1.N, condC (grid1.coords t) ↔ t.val % 16 = 15)

/-- The 512 rows of the point's column tile. -/
abbrev tileRect (i : grid1.Coords) : Rect S8192x128 := Rect.unit (s := S8192x128) (k1_off1 i) S512x128.size (k1_off1_inb i)
/-- The numerator accumulator after a point, from the point's blocks and the accumulator before it. -/
def accNext (i : grid1.Coords) (x0 : Vec F S1024x128 .bf16) (x1 x2 : Vec F S8192x128 .bf16) (a : Vec F S1024x128 .f32) : Vec F S1024x128 .f32 := k1_pay5 (View.ld x1 (tileRect i)) (View.ld x2 (tileRect i)) x0 a
/-- The denominator accumulator after a point. -/
def denNext (i : grid1.Coords) (x0 : Vec F S1024x128 .bf16) (x1 : Vec F S8192x128 .bf16) (d : Vec F S1024x1 .f32) : Vec F S1024x1 .f32 := k1_pay4 (View.ld x1 (tileRect i)) x0 d
/-- The output block, from the two accumulators after the row block's last tile. -/
def outOf (a : Vec F S1024x128 .f32) (d : Vec F S1024x1 .f32) (x3 : Vec F S1024x256 .f32) (x4 : Vec F S128x256 .f32) (x5 : Vec F S256 .f32) : Vec F S1024x256 .f32 := k1_pay6 a d x4 x5 x3

/-- A load through a rectangle of a whole memref held at the contents that read `X` reads `X` through the rectangle. -/
theorem readAt_unread_ld {κ : Kind} {sp : Space} {s : Shape} {e : EltTy} {m : Memref sig κ sp s e} (h : m.IsWhole)
    (X : s.Idx → Elt F e) (r : Rect s) : View.readAt (Elt F) m.view r.toLoadRect (h.unread X) = View.ld X r := by
  rw [View.readAt_eq_ld, h.read_unread]

/-- A load of the whole of it reads `X`. -/
theorem readAt_unread_whole {κ : Kind} {sp : Space} {S : Shape} {e : EltTy} {m : Memref sig κ sp S e} (h : m.IsWhole)
    (X : S.Idx → Elt F e) {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- One store of the whole buffer, over anything, reads back as its payload. -/
theorem read_writes_one {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A store of the whole buffer, the last of several, reads back as its payload. -/
theorem read_writes_last {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero hz inb y⟩), View.canon_cons_unit_zero hz]

/-- Nineteen conjuncts before two, beside one more: the one more moved in before the two. -/
theorem sep_regroup (A1 A2 A3 A4 A5 A6 A7 A8 A9 A10 A11 A12 A13 A14 A15 A16 A17 A18 A19 S0 S1 G : sProp 𝕄) :
    iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ S0 ∗ S1) ∗ G) = iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ G) ∗ S0 ∗ S1) := by
  have h₁ : iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ S0 ∗ S1) ∗ G) ⊢ iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ G) ∗ S0 ∗ S1) := by
    iintro ⟨⟨H1, H2, H3, H4, H5, H6, H7, H8, H9, H10, H11, H12, H13, H14, H15, H16, H17, H18, H19, HS0, HS1⟩, Hg⟩
    isplitr [HS0 HS1]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact Hg
    isplitl [HS0]; · iexact HS0
    iexact HS1
  have h₂ : iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ G) ∗ S0 ∗ S1) ⊢ iprop((A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ S0 ∗ S1) ∗ G) := by
    iintro ⟨⟨H1, H2, H3, H4, H5, H6, H7, H8, H9, H10, H11, H12, H13, H14, H15, H16, H17, H18, H19, Hg⟩, HS0, HS1⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      iexact HS1
    iexact Hg
  exact BI.equiv_iff.mp ⟨h₁, h₂⟩

set_option maxHeartbeats 1000000 in
/-- The body at a row block's first tile (reset, no output store): on whole memrefs, the inputs' at their contents, the
    output's at contents handed back untouched, the two accumulators at anything, it leaves the accumulators at
    `accNext`, `denNext` of the zero accumulators. -/
theorem runA (c : Dev nD) (E : Set ℕ) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S1024x256 .f32) (harg8 : arg8.IsWhole) (arg9 : Memref sig .tc .vmem S1024x128 .f32) (harg9 : arg9.IsWhole) (arg10 : Memref sig .tc .vmem S1024x1 .f32) (harg10 : arg10.IsWhole)
    (hcA : condA i) (hcC : ¬condC i) (x0 : Vec F S1024x128 .bf16) (x1 x2 : Vec F S8192x128 .bf16) (x3 : Vec F S1024x256 .f32) (x4 : Vec F S128x256 .f32) (x5 : Vec F S256 .f32)
    (xi6 : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ (∃ a, owns (c : Thread nD τ) arg9 fullShare a) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accNext i x0 x1 x2 k1_pay1)
            ∗ owns (c : Thread nD τ) arg10 fullShare (denNext i x0 x1 k1_pay2)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%a, %fa, -, HA⟩, ⟨%d, %fd, -, HD⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hcA | exact hcC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr
    swap; · iexact HA
    ipureintro
    try sl_unfold_run_names
    rw [read_writes_last _ _ hz2, readAt_unread_ld harg3, readAt_unread_ld harg4, readAt_unread_whole harg2 _ hz2, View.readCov_unit_zero _ hz2]
    rfl
  iexists _; isplitr
  swap; · iexact HD
  ipureintro
  try sl_unfold_run_names
  rw [read_writes_last _ _ hz2, readAt_unread_ld harg3, readAt_unread_whole harg2 _ hz2, View.readCov_unit_zero _ hz2]
  rfl

set_option maxHeartbeats 1000000 in
/-- The body at a point of the middle case (no reset, no output store): on whole memrefs, the inputs' at their contents, the
    output's at contents handed back untouched, the two accumulators at `a`, `d`, it leaves the accumulators at
    `accNext`, `denNext` of them. -/
theorem runB (c : Dev nD) (E : Set ℕ) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S1024x256 .f32) (harg8 : arg8.IsWhole) (arg9 : Memref sig .tc .vmem S1024x128 .f32) (harg9 : arg9.IsWhole) (arg10 : Memref sig .tc .vmem S1024x1 .f32) (harg10 : arg10.IsWhole)
    (hcA : ¬condA i) (hcC : ¬condC i) (x0 : Vec F S1024x128 .bf16) (x1 x2 : Vec F S8192x128 .bf16) (x3 : Vec F S1024x256 .f32) (x4 : Vec F S128x256 .f32) (x5 : Vec F S256 .f32)
    (xi6 : Vec F S1024x256 .f32) (a : Vec F S1024x128 .f32) (d : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare a ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accNext i x0 x1 x2 a)
            ∗ owns (c : Thread nD τ) arg10 fullShare (denNext i x0 x1 d)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, HA⟩, ⟨%fd, %hfd, HD⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfa; obtain rfl := harg10.eq_unread hfd
  sl_exec (disch := first | exact hcA | exact hcC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HA]
  · iexists _; isplitr
    swap; · iexact HA
    ipureintro
    try sl_unfold_run_names
    rw [read_writes_one _ _ hz2, readAt_unread_ld harg3, readAt_unread_ld harg4, readAt_unread_whole harg2 _ hz2, readAt_unread_whole harg9 _ hz2]
    rfl
  iexists _; isplitr
  swap; · iexact HD
  ipureintro
  try sl_unfold_run_names
  rw [read_writes_one _ _ hz2, readAt_unread_ld harg3, readAt_unread_whole harg2 _ hz2, readAt_unread_whole harg10 _ hz2]
  rfl

set_option maxHeartbeats 1000000 in
/-- The body at a row block's last tile (no reset, the output stored): on whole memrefs, the inputs' at their contents, the
    output's at anything, the two accumulators at `a`, `d`, it leaves the accumulators at `accNext`, `denNext` of them
    and the output's buffer at `outOf` of those. -/
theorem runC (c : Dev nD) (E : Set ℕ) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S1024x256 .f32) (harg8 : arg8.IsWhole) (arg9 : Memref sig .tc .vmem S1024x128 .f32) (harg9 : arg9.IsWhole) (arg10 : Memref sig .tc .vmem S1024x1 .f32) (harg10 : arg10.IsWhole)
    (hcA : ¬condA i) (hcC : condC i) (x0 : Vec F S1024x128 .bf16) (x1 x2 : Vec F S8192x128 .bf16) (x3 : Vec F S1024x256 .f32) (x4 : Vec F S128x256 .f32) (x5 : Vec F S256 .f32)
    (a : Vec F S1024x128 .f32) (d : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ o, owns (c : Thread nD τ) arg8 fullShare o) ∗ owns (c : Thread nD τ) arg9 fullShare a ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (outOf (accNext i x0 x1 x2 a) (denNext i x0 x1 d) x3 x4 x5) ∗ owns (c : Thread nD τ) arg9 fullShare (accNext i x0 x1 x2 a)
            ∗ owns (c : Thread nD τ) arg10 fullShare (denNext i x0 x1 d)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%o, %f6, -, H6⟩, ⟨%fa, %hfa, HA⟩, ⟨%fd, %hfd, HD⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfa; obtain rfl := harg10.eq_unread hfd
  sl_exec (disch := first | exact hcA | exact hcC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    try sl_unfold_run_names
    rw [read_writes_one _ _ hz2, View.readCov_unit_zero _ hz2, View.readCov_unit_zero _ hz2, readAt_unread_ld harg3, readAt_unread_ld harg4,
      readAt_unread_whole harg2 _ hz2, readAt_unread_whole harg9 _ hz2, readAt_unread_whole harg10 _ hz2,
      readAt_unread_whole harg6 _ hz2, readAt_unread_whole harg7 _ hz1, readAt_unread_whole harg5 _ hz2]
    rfl
  isplitl [HA]
  · iexists _; isplitr
    swap; · iexact HA
    ipureintro
    try sl_unfold_run_names
    rw [read_writes_one _ _ hz2, readAt_unread_ld harg3, readAt_unread_ld harg4, readAt_unread_whole harg2 _ hz2, readAt_unread_whole harg9 _ hz2]
    rfl
  iexists _; isplitr
  swap; · iexact HD
  ipureintro
  try sl_unfold_run_names
  rw [read_writes_one _ _ hz2, readAt_unread_ld harg3, readAt_unread_whole harg2 _ hz2, readAt_unread_whole harg10 _ hz2]
  rfl

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place (the window is uncut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place (the window is uncut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place (the window is uncut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place (the window is uncut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place (the window is uncut and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the two scratch operands -/

abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .f32 := win1_6.stage (cfg1.slots t 6)
abbrev hs1_6 (t : Fin cfg1.N) : (ms1_6 t).IsWhole := hstage1_6 ((cfg1.slots t 6).cast nbuf1_6)
/-- The numerator accumulator's scratch buffer, and the denominator's. -/
abbrev scM0 : Memref sig .tc .vmem S1024x128 .f32 := Memref.whole cc1_scratch0
abbrev scM1 : Memref sig .tc .vmem S1024x1 .f32 := Memref.whole cc1_scratch1

/-! ## Where the windows are idle -/

/-- Away from a row block's last tile the output window is idle: the body stores nothing into it, -/
theorem idleAt1_6 : ∀ t : Fin cfg1.N, ¬condC (grid1.coords t) → cfg1.idle 6 (grid1.coords t) = true := by decide +kernel
/-- and the pipeline does not write its block back; -/
theorem noFlush1_6 (t : Fin cfg1.N) (h : ¬t.val % 16 = 15) : (cfg1.win 6).flush t = false :=
  Bool.eq_false_iff.mpr fun hf => h ((flush1_6 t).mp hf)
/-- at the last tile it is live. -/
theorem liveAt1_6 : ∀ t : Fin cfg1.N, condC (grid1.coords t) → cfg1.idle 6 (grid1.coords t) = false := by decide +kernel

/-! ## The two accumulators after each point -/

/-- The accumulators (numerator, denominator) after the body at position `n`: at a row block's first tile the
    step from the zero accumulators, elsewhere the step from what the point before left. -/
def carried (c : Dev nD) : (n : ℕ) → n < cfg1.N → Vec F S1024x128 .f32 × Vec F S1024x1 .f32
  | 0, hn => (accNext (grid1.coords ⟨0, hn⟩) (iblk1 V c 0 ⟨0, hn⟩) (iblk1 V c 1 ⟨0, hn⟩) (iblk1 V c 2 ⟨0, hn⟩) k1_pay1, denNext (grid1.coords ⟨0, hn⟩) (iblk1 V c 0 ⟨0, hn⟩) (iblk1 V c 1 ⟨0, hn⟩) k1_pay2)
  | n + 1, hn =>
    if (n + 1) % 16 = 0 then (accNext (grid1.coords ⟨n + 1, hn⟩) (iblk1 V c 0 ⟨n + 1, hn⟩) (iblk1 V c 1 ⟨n + 1, hn⟩) (iblk1 V c 2 ⟨n + 1, hn⟩) k1_pay1, denNext (grid1.coords ⟨n + 1, hn⟩) (iblk1 V c 0 ⟨n + 1, hn⟩) (iblk1 V c 1 ⟨n + 1, hn⟩) k1_pay2)
    else (accNext (grid1.coords ⟨n + 1, hn⟩) (iblk1 V c 0 ⟨n + 1, hn⟩) (iblk1 V c 1 ⟨n + 1, hn⟩) (iblk1 V c 2 ⟨n + 1, hn⟩) (carried c n (Nat.lt_of_succ_lt hn)).1, denNext (grid1.coords ⟨n + 1, hn⟩) (iblk1 V c 0 ⟨n + 1, hn⟩) (iblk1 V c 1 ⟨n + 1, hn⟩) (carried c n (Nat.lt_of_succ_lt hn)).2)

/-- At a row block's first tile: the step from the zero accumulators. -/
theorem carried_first (c : Dev nD) (t : Fin cfg1.N) (h : t.val % 16 = 0) :
    carried V c t.val t.isLt = (accNext (grid1.coords t) (iblk1 V c 0 t) (iblk1 V c 1 t) (iblk1 V c 2 t) k1_pay1, denNext (grid1.coords t) (iblk1 V c 0 t) (iblk1 V c 1 t) k1_pay2) := by
  obtain ⟨n, hn⟩ := t
  cases n with
  | zero => rfl
  | succ n => exact (if_pos h).trans rfl

/-- Elsewhere: the step from what the point before left. -/
theorem carried_next (c : Dev nD) (t : Fin cfg1.N) (h : t.val % 16 ≠ 0) :
    carried V c t.val t.isLt = (accNext (grid1.coords t) (iblk1 V c 0 t) (iblk1 V c 1 t) (iblk1 V c 2 t) (carried V c (t.val - 1) (Nat.lt_of_le_of_lt (Nat.sub_le _ _) t.isLt)).1, denNext (grid1.coords t) (iblk1 V c 0 t) (iblk1 V c 1 t) (carried V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The region invariant -/

/-- What the body never touches: the core's scoped buffers that belong to the other kernel, each whole at some contents,
    and the generator register at some state. -/
def restInv (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg11_0), ((c : Thread nD τ).loc cc0_stg11_0) ↦{fullShare} f)
    ∗ (∃ f : Buf (Elt F) ((c : Thread nD τ).loc cc0_stg11_1), ((c : Thread nD τ).loc cc0_stg11_1) ↦{fullShare} f)
    ∗ (∃ f : Buf (Elt F) ((c : Thread nD τ).loc cc0_stg12_0), ((c : Thread nD τ).loc cc0_stg12_0) ↦{fullShare} f)
    ∗ (∃ f : Buf (Elt F) ((c : Thread nD τ).loc cc0_stg12_1), ((c : Thread nD τ).loc cc0_stg12_1) ↦{fullShare} f)
    ∗ (∃ f : Buf (Elt F) ((c : Thread nD τ).loc cc0_stg13_0), ((c : Thread nD τ).loc cc0_stg13_0) ↦{fullShare} f)
    ∗ (∃ f : Buf (Elt F) ((c : Thread nD τ).loc cc0_stg13_1), ((c : Thread nD τ).loc cc0_stg13_1) ↦{fullShare} f)
    ∗ ∃ r, prngReg c r)

/-- The class invariant is the untouched rest beside the two accumulators' scratch buffers at some contents. -/
theorem PhiA1_eq (c : Dev nD) :
    (Pipeline.ΦA spec1 c : sProp 𝕄)
      = iprop(restInv c ∗ (∃ a, owns (c : Thread nD τ) scM0 fullShare a) ∗ (∃ d, owns (c : Thread nD τ) scM1 fullShare d)) := by
  unfold Pipeline.ΦA restInv; rw [scopedRest1_eq]; simp only [scM0, scM1, owns_whole]
  exact sep_regroup _ _ _ _ _ _ _ _ _ _ _ _ _ _ _ _ _ _ _ _ _ _

/-- The region invariant before position `n`: before the first point the class's; afterwards the untouched rest beside
    the two scratch buffers at what the point before left in them. -/
def PhiS (c : Dev nD) : (n : ℕ) → n ≤ cfg1.N → sProp 𝕄
  | 0, _ => Pipeline.ΦA spec1 c
  | n + 1, hn => iprop(restInv c ∗ owns (c : Thread nD τ) scM0 fullShare (carried V c n hn).1 ∗ owns (c : Thread nD τ) scM1 fullShare (carried V c n hn).2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restInv c ∗ owns (c : Thread nD τ) scM0 fullShare (carried V c n hn).1 ∗ owns (c : Thread nD τ) scM1 fullShare (carried V c n hn).2) := rfl

theorem PhiS_pos (c : Dev nD) (n : ℕ) (h : n ≤ cfg1.N) (hz : n ≠ 0) :
    PhiS V c n h = iprop(restInv c ∗ owns (c : Thread nD τ) scM0 fullShare (carried V c (n - 1) (by omega)).1 ∗ owns (c : Thread nD τ) scM1 fullShare (carried V c (n - 1) (by omega)).2) := by
  cases n with
  | zero => exact absurd rfl hz
  | succ n => rfl

/-! ## The pipeline's proof data -/

/-- The proof data of the attention pipeline on core `c`: the arrays as the region finds them; after the body at point `t`
    each input's buffer at its block and the output's at `outOf` of the accumulators after `t` (consulted at the last
    tiles only); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outOf (carried V c t.val t.isLt).1 (carried V c t.val t.isLt).2 (iblk1 V c 3 t) (iblk1 V c 4 t) (iblk1 V c 5 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) (h : t.val % 16 = 15) :
    (dat1 V c).after 6 t = outOf (carried V c t.val t.isLt).1 (carried V c t.val t.isLt).2 (iblk1 V c 3 t) (iblk1 V c 4 t) (iblk1 V c 5 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms of the two conditions say which of the
    three cases the point is in; the invariant hands the body the two scratch buffers at what the point before left (at
    anything before a row block's first tile) and takes them back at this point's accumulators; away from the last tile
    the output's buffer is handed back as found, at the last tile it holds `outOf` of the accumulators; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  rw [show (dat1 V c).leavesExact 3 t = owns (c : Thread nD τ) (ms1_3 t) fullShare ((dat1 V c).after 3 t) from by
    unfold Dat.leavesExact; rfl, after1_3]
  rw [show (dat1 V c).leavesExact 4 t = owns (c : Thread nD τ) (ms1_4 t) fullShare ((dat1 V c).after 4 t) from by
    unfold Dat.leavesExact; rfl, after1_4]
  rw [show (dat1 V c).leavesExact 5 t = owns (c : Thread nD τ) (ms1_5 t) fullShare ((dat1 V c).after 5 t) from by
    unfold Dat.leavesExact; rfl, after1_5]
  by_cases hA : t.val % 16 = 0
  · have hC : ¬t.val % 16 = 15 := by omega
    rw [Dat.leavesExact_idle (dat1 V c) 6 t (idleAt1_6 t (fun h => hC ((hcondC t).mp h))) (noFlush1_6 t hC)]
    rw [show (carried V c t.val t.isLt).1 = _ from congrArg Prod.fst (carried_first V c t hA),
      show (carried V c t.val t.isLt).2 = _ from congrArg Prod.snd (carried_first V c t hA)]
    by_cases hz : t.val = 0
    · rw [PhiS_castSucc V c t, PhiS_zero V c _ _ hz, PhiA1_eq]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runA c Set.univ (grid1.coords t) _ _ _ _ _ _ _ _ _ _ _ _ _ _ _ _ _ _ ((hcondA t).mpr hA) (fun h => hC ((hcondC t).mp h)) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runA c Set.univ (grid1.coords t) _ _ _ _ _ _ _ _ _ _ _ _ _ _ _ _ _ _ ((hcondA t).mpr hA) (fun h => hC ((hcondC t).mp h)) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => hA (by rw [h])
    rw [show (carried V c t.val t.isLt).1 = _ from congrArg Prod.fst (carried_next V c t hA),
      show (carried V c t.val t.isLt).2 = _ from congrArg Prod.snd (carried_next V c t hA)]
    rw [PhiS_castSucc V c t, PhiS_pos V c _ _ hz]
    by_cases hC : t.val % 16 = 15
    · rw [show (dat1 V c).leavesExact 6 t = owns (c : Thread nD τ) (ms1_6 t) fullShare ((dat1 V c).after 6 t) from by
        unfold Dat.leavesExact; rw [liveAt1_6 t ((hcondC t).mpr hC)], after1_6 V c t hC]
      rw [show (carried V c t.val t.isLt).1 = _ from congrArg Prod.fst (carried_next V c t hA),
        show (carried V c t.val t.isLt).2 = _ from congrArg Prod.snd (carried_next V c t hA)]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runC c Set.univ (grid1.coords t) _ _ _ _ _ _ _ _ _ _ _ _ _ _ _ _ _ _ (fun h => hA ((hcondA t).mp h)) ((hcondC t).mpr hC) (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => hC ((hcondC t).mp h))) (noFlush1_6 t hC)]
      iintro ⟨⟨Hr, HS0, HS1⟩, Ho, ⟨%d0, H0⟩, ⟨%d1, H1⟩, ⟨%d2, H2⟩, ⟨%d3, H3⟩, ⟨%d4, H4⟩, ⟨%d5, H5⟩, ⟨%d6, H6⟩⟩
      iapply (runB c Set.univ (grid1.coords t) _ _ _ _ _ _ _ _ _ _ _ _ _ _ _ _ _ _ (fun h => hA ((hcondA t).mp h)) (fun h => hC ((hcondC t).mp h)) (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hr HS0 HS1]
      · isplitl [Hr]; · iexact Hr
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨Hr, HS0, HS1⟩
  isplitl [Hr]; · iexact Hr
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Hand

end
-- ==== Proof.KernelIdeal.Run.lean ====
/-
  The run of the whole program, from the launch to the return, over its four segments: the host operations that
  slice the weights and drop the unit axis, the projection kernel's region, the attention kernel's region, and the
  host operation that puts the unit axis back. What each region's kernel does at a grid point is a PARAMETER here
  (`ProjKit`, `AttnKit`: the region's proof data at any entry contents, its body obligation, and for the attention
  kernel how its invariant starts from and returns to the plain one); this module threads the buffer contents through
  the segments and concludes that every execution terminates with every unscoped buffer at the contents the fold
  `W4` names.
-/
import proofs.«133152_j31482110280356_2_alg».proof.Proof.Gen.KernelIdeal.Launch
import proofs.«133152_j31482110280356_2_alg».proof.Proof.Gen.KernelIdeal.Points
import proofs.«133152_j31482110280356_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The TensorCore's buffer contents at a segment boundary, read at its references. -/
abbrev Contents (F : FTy → Type) : Type := (c : Dev nD) → (b : Ref sig .tc) → Buf (Elt F) ((c : Thread nD τ).loc b)

/-- What the projection kernel's region supplies: its proof data at any entry contents — the arrays as entered,
    the plain invariant, full shares, nothing owed — and the body obligation. -/
structure ProjKit (F : FTy → Type) [FloatOps F] where
  dat : Contents F → (c : Dev nD) → Dat τ (Elt F) Unit ℕ (UR sig nD τ) ℕ cfg0 c
  hA : ∀ V c (w : Fin cfg0.W), (dat V c).A w = V c (Pipeline.arrRef spec0 w)
  hΦ : ∀ V c t, (dat V c).Φ t = Pipeline.ΦA spec0 c
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ

/-- What the attention kernel's region supplies: the same, with an invariant of its own (the two accumulators'
    contents between points) that starts from the plain one and returns to it. -/
structure AttnKit (F : FTy → Type) [FloatOps F] where
  dat : Contents F → (c : Dev nD) → Dat τ (Elt F) Unit ℕ (UR sig nD τ) ℕ cfg1 c
  hA : ∀ V c (w : Fin cfg1.W), (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable {F : FTy → Type} [FloatOps F]

local notation "𝕄" => MT nD τ sig Unit (Elt F) ℕ (UR sig nD τ) ℕ

variable (P : ProjKit F) (A : AttnKit F)
variable (m : (ℓ : Loc nD τ sig) → Buf (Elt F) ℓ) (ρ : Dev nD → PrngReg)

/-! ## The buffer contents at each segment boundary: a fold through the program -/

/-- At launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev V1 : Contents F := fun c b => W1 m ρ c b
/-- After the projection kernel's region: its arrays at what the write-backs leave, every other buffer as entered. -/
def W2 (c : Dev nD) : Valuation τ sig (Elt F) :=
  Pipeline.withArrays spec0 c (W1 m ρ c) fun w => (P.dat (V1 m ρ) c).arrAt w cfg0.N
abbrev V2 : Contents F := fun c b => W2 P m ρ c b
/-- After the attention kernel's region. -/
def W3 (c : Dev nD) : Valuation τ sig (Elt F) :=
  Pipeline.withArrays spec1 c (W2 P m ρ c) fun w => (A.dat (V2 P m ρ) c).arrAt w cfg1.N
abbrev V3 : Contents F := fun c b => W3 P A m ρ c b
/-- After the last host operation. -/
abbrev W4 : Dev nD → Valuation τ sig (Elt F) := fun c => StableHlo.after hostOps2 (W3 P A m ρ c)

theorem W2_arr (c : Dev nD) (w : Fin cfg0.W) :
    W2 P m ρ c (Proc.devRef .tc (Pipeline.arrRef spec0 w)) = (P.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 P m ρ c (Proc.devRef .tc b) = W1 m ρ c (Proc.devRef .tc b) := by
  unfold W2; exact Pipeline.withArrays_of_ne spec0 c _ _ b hb
theorem exit0_arrays (c : Dev nD) (w : Fin cfg0.W) : (P.dat (V1 m ρ) c).arrAt w cfg0.N = V2 P m ρ c (Pipeline.arrRef spec0 w) :=
  (W2_arr P m ρ c w).symm
theorem exit0_rest (c : Dev nD) : ∀ b, b ∉ Finset.univ.image (Pipeline.arrRef spec0) → V2 P m ρ c b = V1 m ρ c b :=
  fun b hb => W2_of_ne P m ρ c b fun w e => hb (Finset.mem_image.mpr ⟨w, Finset.mem_univ _, e⟩)

theorem W3_arr (c : Dev nD) (w : Fin cfg1.W) :
    W3 P A m ρ c (Proc.devRef .tc (Pipeline.arrRef spec1 w)) = (A.dat (V2 P m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 P A m ρ c (Proc.devRef .tc b) = W2 P m ρ c (Proc.devRef .tc b) := by
  unfold W3; exact Pipeline.withArrays_of_ne spec1 c _ _ b hb
theorem exit1_arrays (c : Dev nD) (w : Fin cfg1.W) : (A.dat (V2 P m ρ) c).arrAt w cfg1.N = V3 P A m ρ c (Pipeline.arrRef spec1 w) :=
  (W3_arr P A m ρ c w).symm
theorem exit1_rest (c : Dev nD) : ∀ b, b ∉ Finset.univ.image (Pipeline.arrRef spec1) → V3 P A m ρ c b = V2 P m ρ c b :=
  fun b hb => W3_of_ne P A m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => P.dat (V1 m ρ) c
  | ⟨1, _⟩ => fun c => A.dat (V2 P m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 P A m ρ c) ∗ ∃ r, prngReg c r)

/-! ## The regions as segments -/

set_option backward.isDefEq.respectTransparency.types false in
/-- The projection kernel's region: entered with every unscoped buffer at `W1`, left at `W2`. -/
def reg0 : Pipeline.RegionSeg (pcfgs (F := F)) adm (pdats P A m ρ) () defs₀ 𝒱₀ L lv 0 where
  win := launch0.win.to₀
  block_pos := launch0.block_pos
  stage_whole := launch0.stage_whole
  K := PEmpty
  osem k := k.elim
  ho := Pipeline.OwnSemFacts.none _
  hbody c := (P.hbody (V1 m ρ) c).loose
  hwaits := Pipeline.hwaits_of_owed_zero _ _ _ _ L lv 0 fun c t => P.howed (V1 m ρ) c t
  pre c := iprop(StableHlo.held (c : Thread nD τ) (Pipeline.ucRefs τ sig) (W1 m ρ c) ∗ R c)
  post c := iprop(StableHlo.held (c : Thread nD τ) (Pipeline.ucRefs τ sig) (W2 P m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats P A m ρ) launch0.win launch0.arr_whole c
      ((pdats P A m ρ 0 c).share_full fun w => P.hq (V1 m ρ) c w) (V1 m ρ c) fun w => P.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P A m ρ 0 c).owed 0 = 0 from P.howed (V1 m ρ) c 0]
      icases HO with ⟨%W, HO⟩; iexists W; isplitr
      · ipureintro; exact fun _ _ => Or.inl (by rw [show (pdats P A m ρ 0 c).recorded 0 = Set.univ from P.hrec (V1 m ρ) c 0]; trivial)
      iexact HO
    isplitl [Hp]; · iexact Hp
    iexact Hrest
  hin c := by
    rw [show (pdats P A m ρ 0 c).Φ 0 = Pipeline.ΦA spec0 c from P.hΦ (V1 m ρ) c 0]; unfold Pipeline.ΦA
    iintro ⟨Hp, -, Hr⟩
    isplitl [Hr]; · iexact Hr
    iexact Hp
  hout c := by
    rw [Pipeline.ownSems0_none, show (pdats P A m ρ 0 c).Φ (Fin.last _) = Pipeline.ΦA spec0 c from P.hΦ (V1 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats P A m ρ) ((pdats P A m ρ 0 c).share_full fun w => P.hq (V1 m ρ) c w)
      (V1 m ρ c) (V2 P m ρ c) ((pdats P A m ρ 0 c).arrAt · cfg0.N) (exit0_arrays P m ρ c) (exit0_rest P m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P A m ρ 0 c).owed (Fin.last _) = 0 from P.howed (V1 m ρ) c _]
    icases HO with ⟨%W, -, HO⟩; iexists W; iexact HO

set_option backward.isDefEq.respectTransparency.types false in
/-- The attention kernel's region: entered with every unscoped buffer at `W2`, left at `W3`; its invariant starts
    from the plain one and returns to it. -/
def reg1 : Pipeline.RegionSeg (pcfgs (F := F)) adm (pdats P A m ρ) () defs₀ 𝒱₀ L lv 1 where
  win := launch1.win.to₀
  block_pos := launch1.block_pos
  stage_whole := launch1.stage_whole
  K := PEmpty
  osem k := k.elim
  ho := Pipeline.OwnSemFacts.none _
  hbody c := (A.hbody (V2 P m ρ) c).loose
  hwaits := Pipeline.hwaits_of_owed_zero _ _ _ _ L lv 1 fun c t => A.howed (V2 P m ρ) c t
  pre c := iprop(StableHlo.held (c : Thread nD τ) (Pipeline.ucRefs τ sig) (W2 P m ρ c) ∗ R c)
  post c := iprop(StableHlo.held (c : Thread nD τ) (Pipeline.ucRefs τ sig) (W3 P A m ρ c) ∗ R c)
  X c := iprop(∃ r, prngReg c r)
  Y c := iprop(∃ r, prngReg c r)
  Z c := Pipeline.unscopedRest (Ix := Unit) (Name := ℕ) (U := UR sig nD τ) (Lvl := ℕ) spec1 c (V2 P m ρ c)
  hentry c := by
    rw [Pipeline.ownSems0_none]
    have hsplit := Pipeline.arrays_of_unscopedBufs (p := 1) (pcfgs (F := F)) adm (pdats P A m ρ) launch1.win launch1.arr_whole c
      ((pdats P A m ρ 1 c).share_full fun w => A.hq (V2 P m ρ) c w) (V2 P m ρ c) fun w => A.hA (V2 P m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P A m ρ 1 c).owed 0 = 0 from A.howed (V2 P m ρ) c 0]
      icases HO with ⟨%W, HO⟩; iexists W; isplitr
      · ipureintro; exact fun _ _ => Or.inl (by rw [show (pdats P A m ρ 1 c).recorded 0 = Set.univ from A.hrec (V2 P m ρ) c 0]; trivial)
      iexact HO
    isplitl [Hp]; · iexact Hp
    iexact Hrest
  hin c := by
    refine (show _ ⊢ (Pipeline.ΦA spec1 c : sProp 𝕄) from ?_).trans (A.hin (V2 P m ρ) c)
    unfold Pipeline.ΦA
    iintro ⟨Hp, -, Hr⟩
    isplitl [Hr]; · iexact Hr
    iexact Hp
  hout c := by
    refine (A.hout (V2 P m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats P A m ρ) ((pdats P A m ρ 1 c).share_full fun w => A.hq (V2 P m ρ) c w)
      (V2 P m ρ c) (V3 P A m ρ c) ((pdats P A m ρ 1 c).arrAt · cfg1.N) (exit1_arrays P A m ρ c) (exit1_rest P A m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P A m ρ 1 c).owed (Fin.last _) = 0 from A.howed (V2 P m ρ) c _]
    icases HO with ⟨%W, -, HO⟩; iexists W; iexact HO

/-! ## The program as segments, and the launch -/

abbrev segs : List (Pipeline.Seg (pcfgs (F := F)) adm (pdats P A m ρ) () defs₀ 𝒱₀ L lv) :=
  [ .host (hseg hostOps0 hostOps0_sub hostOps0_fresh (W0 m ρ)),
    .region (reg0 P A m ρ),
    .region (reg1 P A m ρ),
    .host (hseg hostOps2 hostOps2_sub hostOps2_fresh (W3 P A m ρ)) ]

theorem main_run (c : Dev nD) : main (F := F) c = Pipeline.Seg.run (segs P A m ρ) := (main_chain c).trans (by chain_rfl)

set_option backward.isDefEq.respectTransparency.types false in
/-- THE RUN. From any memory with zero counters every weakly fair execution of the program on the TensorCores
    terminates, nothing faulting, and in every final state each unscoped buffer holds what the fold `W4` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 P A m ρ c b) :=
  Pipeline.θ_run_regions_kit (pcfgs (F := F)) adm (pdats P A m ρ) () cellOf_inj emb₁ defs₀ 𝒱₀ L lv m ρ main (segs P A m ρ)
    (fun c Q => by rw [main_run P A m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ P A m ρ)
    (hch := ⟨fun _ => .rfl, fun _ => .rfl, fun _ => .rfl, fun _ => .rfl, fun c => by
      show iprop(StableHlo.held (c : Thread nD τ) (Pipeline.ucRefs τ sig) (W4 P A m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 P A m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 P A m ρ c) s')
      isplitl [Hh] <;> iassumption)
    (hQ := fun s h c => h c)

end Cert.KernelIdeal.Hand

end
-- ==== Proof.KernelIdeal.Kept.lean ====
/-
  No segment changes an argument array: the host operations write only their own results, a region's write-backs
  go to its output windows' arrays only (an input window's array is never written back), and every other buffer
  bypasses the region. So the fold of the buffer contents through the four segments, read at an argument, walks back
  to the launch memory — which is the frame claim, given the run.
-/
import proofs.«133152_j31482110280356_2_alg».proof.Proof.KernelIdeal.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (P : ProjKit F) (A : AttnKit F)
variable (m : (ℓ : Loc nD τ sig) → Buf (Elt F) ℓ) (ρ : Dev nD → PrngReg)

/-- A buffer no host operation before the first region writes holds its launch contents when that region is entered. -/
theorem W1_kept (c : Dev nD) (r : Ref sig .tc) (h : r ∉ hostOps0_W) : W1 m ρ c r = m ((c : Thread nD τ).loc r) :=
  (StableHlo.after_of_writes_sub hostOps0 _ hostOps0_writes h).trans rfl

/-- A buffer the last host operation does not write is as the second region left it. -/
theorem W4_kept (c : Dev nD) (r : Ref sig .tc) (h : r ∉ hostOps2_W) : W4 P A m ρ c r = W3 P A m ρ c r :=
  StableHlo.after_of_writes_sub hostOps2 _ hostOps2_writes h

/-- An input window's array of the first region leaves it as entered. -/
theorem W2_in (c : Dev nD) (w : Fin cfg0.W) (hin : (cfg0.win w).isOut = false) :
    W2 P m ρ c (Proc.devRef .tc (Pipeline.arrRef spec0 w)) = V1 m ρ c (Pipeline.arrRef spec0 w) :=
  (W2_arr P m ρ c w).trans (((P.dat (V1 m ρ) c).arrAt_in w hin _).trans (P.hA (V1 m ρ) c w))

/-- An input window's array of the second region leaves it as entered. -/
theorem W3_in (c : Dev nD) (w : Fin cfg1.W) (hin : (cfg1.win w).isOut = false) :
    W3 P A m ρ c (Proc.devRef .tc (Pipeline.arrRef spec1 w)) = V2 P m ρ c (Pipeline.arrRef spec1 w) :=
  (W3_arr P A m ρ c w).trans (((A.dat (V2 P m ρ) c).arrAt_in w hin _).trans (A.hA (V2 P m ρ) c w))

theorem W4_main_arg0 (c : Dev nD) : W4 P A m ρ c (Proc.devRef .tc main_arg0) = m ((c : Thread nD τ).loc main_arg0) :=
  (W4_kept P A m ρ c main_arg0 (by decide)).trans <| (W3_of_ne P A m ρ c main_arg0 (by decide)).trans <| (W2_of_ne P m ρ c main_arg0 (by decide)).trans <| W1_kept m ρ c main_arg0 (by decide)

theorem W4_main_arg1 (c : Dev nD) : W4 P A m ρ c (Proc.devRef .tc main_arg1) = m ((c : Thread nD τ).loc main_arg1) :=
  (W4_kept P A m ρ c main_arg1 (by decide)).trans <| (W3_of_ne P A m ρ c main_arg1 (by decide)).trans <| (W2_of_ne P m ρ c main_arg1 (by decide)).trans <| W1_kept m ρ c main_arg1 (by decide)

theorem W4_main_arg2 (c : Dev nD) : W4 P A m ρ c (Proc.devRef .tc main_arg2) = m ((c : Thread nD τ).loc main_arg2) :=
  (W4_kept P A m ρ c main_arg2 (by decide)).trans <| (W3_of_ne P A m ρ c main_arg2 (by decide)).trans <| (W2_of_ne P m ρ c main_arg2 (by decide)).trans <| W1_kept m ρ c main_arg2 (by decide)

theorem W4_main_arg3 (c : Dev nD) : W4 P A m ρ c (Proc.devRef .tc main_arg3) = m ((c : Thread nD τ).loc main_arg3) :=
  (W4_kept P A m ρ c main_arg3 (by decide)).trans <| (W3_of_ne P A m ρ c main_arg3 (by decide)).trans <| (W2_in P m ρ c 4 rfl).trans <| W1_kept m ρ c main_arg3 (by decide)

theorem W4_main_arg4 (c : Dev nD) : W4 P A m ρ c (Proc.devRef .tc main_arg4) = m ((c : Thread nD τ).loc main_arg4) :=
  (W4_kept P A m ρ c main_arg4 (by decide)).trans <| (W3_of_ne P A m ρ c main_arg4 (by decide)).trans <| (W2_of_ne P m ρ c main_arg4 (by decide)).trans <| W1_kept m ρ c main_arg4 (by decide)

theorem W4_main_arg5 (c : Dev nD) : W4 P A m ρ c (Proc.devRef .tc main_arg5) = m ((c : Thread nD τ).loc main_arg5) :=
  (W4_kept P A m ρ c main_arg5 (by decide)).trans <| (W3_of_ne P A m ρ c main_arg5 (by decide)).trans <| (W2_in P m ρ c 7 rfl).trans <| W1_kept m ρ c main_arg5 (by decide)

theorem W4_main_arg6 (c : Dev nD) : W4 P A m ρ c (Proc.devRef .tc main_arg6) = m ((c : Thread nD τ).loc main_arg6) :=
  (W4_kept P A m ρ c main_arg6 (by decide)).trans <| (W3_of_ne P A m ρ c main_arg6 (by decide)).trans <| (W2_of_ne P m ρ c main_arg6 (by decide)).trans <| W1_kept m ρ c main_arg6 (by decide)

theorem W4_main_arg7 (c : Dev nD) : W4 P A m ρ c (Proc.devRef .tc main_arg7) = m ((c : Thread nD τ).loc main_arg7) :=
  (W4_kept P A m ρ c main_arg7 (by decide)).trans <| (W3_of_ne P A m ρ c main_arg7 (by decide)).trans <| (W2_in P m ρ c 10 rfl).trans <| W1_kept m ρ c main_arg7 (by decide)

theorem W4_main_arg8 (c : Dev nD) : W4 P A m ρ c (Proc.devRef .tc main_arg8) = m ((c : Thread nD τ).loc main_arg8) :=
  (W4_kept P A m ρ c main_arg8 (by decide)).trans <| (W3_in P A m ρ c 4 rfl).trans <| (W2_of_ne P m ρ c main_arg8 (by decide)).trans <| W1_kept m ρ c main_arg8 (by decide)

theorem W4_main_arg9 (c : Dev nD) : W4 P A m ρ c (Proc.devRef .tc main_arg9) = m ((c : Thread nD τ).loc main_arg9) :=
  (W4_kept P A m ρ c main_arg9 (by decide)).trans <| (W3_in P A m ρ c 5 rfl).trans <| (W2_of_ne P m ρ c main_arg9 (by decide)).trans <| W1_kept m ρ c main_arg9 (by decide)

include P A in
/-- THE FRAME: every weakly fair execution terminates, nothing faulting, and the ten argument arrays end as launched. -/
theorem frame_of_kits : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 P A m ρ c),
    (h c _ (mem_uc main_arg1 (by decide))).trans (W4_main_arg1 P A m ρ c),
    (h c _ (mem_uc main_arg2 (by decide))).trans (W4_main_arg2 P A m ρ c),
    (h c _ (mem_uc main_arg3 (by decide))).trans (W4_main_arg3 P A m ρ c),
    (h c _ (mem_uc main_arg4 (by decide))).trans (W4_main_arg4 P A m ρ c),
    (h c _ (mem_uc main_arg5 (by decide))).trans (W4_main_arg5 P A m ρ c),
    (h c _ (mem_uc main_arg6 (by decide))).trans (W4_main_arg6 P A m ρ c),
    (h c _ (mem_uc main_arg7 (by decide))).trans (W4_main_arg7 P A m ρ c),
    (h c _ (mem_uc main_arg8 (by decide))).trans (W4_main_arg8 P A m ρ c),
    (h c _ (mem_uc main_arg9 (by decide))).trans (W4_main_arg9 P A m ρ c)⟩) (run_all P A m ρ)

end Cert.KernelIdeal.Hand

end
-- ==== Proof.KernelIdeal.Frame.lean ====
/-
  The two regions' records (`ProjKit`, `AttnKit`) from the kernels' bodies, and with them the run and the frame of the whole program: the
  projection kernel's region keeps the plain invariant; the attention kernel's region carries its two accumulators
  in its invariant, which starts from the plain one and returns to it.
-/
import proofs.«133152_j31482110280356_2_alg».proof.Proof.KernelIdeal.ProjBody
import proofs.«133152_j31482110280356_2_alg».proof.Proof.KernelIdeal.AttnBody
import proofs.«133152_j31482110280356_2_alg».proof.Proof.KernelIdeal.Kept

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The projection kernel's region. -/
def projKit : ProjKit F where
  dat := fun V c => dat0 V c
  hA := fun V c w => A_eq0 V c w
  hΦ := fun V c t => rfl
  hq := fun V c w => rfl
  howed := fun V c t => rfl
  hrec := fun V c t => rfl
  hbody := fun V c => body_obligation0 V c

/-- The attention kernel's region. -/
def attnKit : AttnKit F where
  dat := fun V c => dat1 V c
  hA := fun V c w => A_eq1 V c w
  hq := fun V c w => rfl
  howed := fun V c t => rfl
  hrec := fun V c t => rfl
  hbody := fun V c => body_obligation1 V c
  hin := fun V c => hin1 V c
  hout := fun V c => hout1 V c

variable (m : (ℓ : Loc nD τ sig) → Buf (Elt F) ℓ) (ρ : Dev nD → PrngReg)

/-- The run: every execution terminates with every unscoped buffer at the fold's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 projKit attnKit m ρ c b) :=
  run_all projKit attnKit m ρ

/-- The frame: every execution terminates and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_kits projKit attnKit m ρ

end Cert.KernelIdeal.Hand

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibTransposedMatmul.lean ====
/-
  A matrix product whose right operand is contracted on its second axis, read at coordinates.

  For the contraction `[M, K] × [N, K] → [M, N]` (each operand contracted on its second axis, no batch axis),
  accumulated into the zero matrix, the entry `(r, c)` of the result is `Σ_k lhs (r, k) · rhs (c, k)` on the extended
  reals, at any extents: row `r` of the left operand against row `c` of the right one — the product `A · Bᵀ` with no
  transpose ever formed. The one contraction coordinate `k` runs over `Fin K`.
-/
import Idealize.ShloMosaic.Lib.ValueIdx
import Idealize.ShloMosaic.PureOps.Ideal.Laws

namespace Cert.TransposedMatmul

open Idealize.ShloMosaic Idealize.ShloMosaic.ValueIdx

variable {M K N : ℕ}

/-- The left operand's row coordinate is the result's row coordinate. -/
theorem lhs_row (j : (⟨2, ![M, N]⟩ : Shape).Idx) (q : (DotDims.transposedRhs M K N).contr.Idx) :
    ((DotDims.transposedRhs M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand's row coordinate is the result's column coordinate. -/
theorem rhs_row (j : (⟨2, ![M, N]⟩ : Shape).Idx) (q : (DotDims.transposedRhs M K N).contr.Idx) :
    ((DotDims.transposedRhs M K N).rhsIdx j q (0 : Fin (⟨2, ![N, K]⟩ : Shape).rank)).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The product into the zero matrix, at `(r, c)`: the sum over `k` of `lhs (r, k) · rhs (c, k)`. -/
theorem transposedRhs_apply {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k)
      = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.TransposedMatmul
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.KernelIdeal.PayloadRead.lean ====
/-
  The two kernels' payloads read at an index, on the extended reals.

  The projection kernel's three outputs are, entry by entry, the product of the landmark columns with the first
  three weight rows plus the product of the feature columns with the remaining weight rows plus the bias; the
  attention kernel's tile weight is the logistic function of a row-by-row inner product, its denominator and
  accumulator steps add the tile's row sum and the tile's weighted sum of value rows, and its last step divides the
  accumulator by the denominator, applies the output weights and bias, and adds the feature block.
-/
import proofs.«133152_j31482110280356_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«133152_j31482110280356_2_alg».proof.Proof.LibPlainMatmul
import proofs.«133152_j31482110280356_2_alg».proof.Proof.LibTransposedMatmul
import proofs.«133152_j31482110280356_2_alg».proof.Proof.LibColumnLayout
import proofs.«133152_j31482110280356_2_alg».proof.Proof.LibLeadingAxisLayout

noncomputable section

open scoped BigOperators

namespace Cert.KernelIdeal.Hand

open Idealize.ShloMosaic Idealize.ShloMosaic.ValueIdx Cert.KernelIdeal Cert.KernelIdeal.Gen

/-! ## The printed contractions are the plain and the row-by-row products -/

/-- A row layer: the sum of two plain products, plus a bias vector laid along every row, at `(r, d)`. -/
theorem rowLayer_apply (a0 : FVec Ideal S1024x3 .bf16) (a1 : FVec Ideal S1024x256 .bf16) (w0 : FVec Ideal S3x128 .bf16)
    (w1 : FVec Ideal S256x128 .bf16) (b : Vec Ideal S128 .f32) (hc : S128.ShapeCasts S1x128) (hb : S1x128.Broadcasts S1024x128)
    (r : Fin 1024) (d : Fin 128) :
    addf (addf (matmul dot_S1024x3_S3x128_S1024x128_1_0_0_1_n_n none a0 w0 (constant S1024x128 .f32 0x00000000#32))
        (matmul dot_S1024x256_S256x128_S1024x128_1_0_0_1_n_n none a1 w1 (constant S1024x128 .f32 0x00000000#32)))
      (broadcastTo S1024x128 (shapeCast S1x128 b hc) hb) (ix2 r d)
      = ((∑ k : Fin 3, a0 (ix2 r k) * w0 (ix2 k d)) + (∑ k : Fin 256, a1 (ix2 r k) * w1 (ix2 k d))) + b (ix1 d) := by
  refine congrArg₂ (· + ·) (congrArg₂ (· + ·) ?_ ?_) ?_
  · exact Cert.PlainMatmul.plain_apply a0 w0 r d
  · exact Cert.PlainMatmul.plain_apply a1 w1 r d
  · exact Cert.LeadingAxisLayout.rows_apply b hc hb r d

/-- The first projection, entry `(r, d)`: landmarks against the first three weight rows, features against the other
    256, plus the bias at `d`. -/
theorem projFi_apply (x0 : Vec Ideal S1024x3 .f32) (x1 : Vec Ideal S1024x256 .f32) (x2 : Vec Ideal S3x128 .f32)
    (x3 : Vec Ideal S256x128 .f32) (x4 : Vec Ideal S128 .f32) (r : Fin 1024) (d : Fin 128) :
    k0_pay1 (k0_pay8 x0 x1 x2 x3 x4) (ix2 r d)
      = ((∑ k : Fin 3, x0 (ix2 r k) * x2 (ix2 k d)) + (∑ k : Fin 256, x1 (ix2 r k) * x3 (ix2 k d))) + x4 (ix1 d) := by
  unfold k0_pay1 k0_pay8 k0_pay4 k0_pay5
  simp only [shapeCast_self]
  exact rowLayer_apply _ _ _ _ x4 _ _ r d

/-- The second projection, entry `(r, d)`, with its own weights and bias. -/
theorem projFj_apply (x0 : Vec Ideal S1024x3 .f32) (x1 : Vec Ideal S1024x256 .f32) (x5 : Vec Ideal S3x128 .f32)
    (x6 : Vec Ideal S256x128 .f32) (x7 : Vec Ideal S128 .f32) (r : Fin 1024) (d : Fin 128) :
    k0_pay2 (k0_pay9 x0 x1 x5 x6) (k0_pay10 x7) (ix2 r d)
      = ((∑ k : Fin 3, x0 (ix2 r k) * x5 (ix2 k d)) + (∑ k : Fin 256, x1 (ix2 r k) * x6 (ix2 k d))) + x7 (ix1 d) := by
  unfold k0_pay2 k0_pay9 k0_pay10 k0_pay4 k0_pay5
  simp only [shapeCast_self]
  exact rowLayer_apply _ _ _ _ x7 _ _ r d

/-- The third projection, entry `(r, d)`, with its own weights and bias. -/
theorem projFk_apply (x0 : Vec Ideal S1024x3 .f32) (x1 : Vec Ideal S1024x256 .f32) (x8 : Vec Ideal S3x128 .f32)
    (x9 : Vec Ideal S256x128 .f32) (x10 : Vec Ideal S128 .f32) (r : Fin 1024) (d : Fin 128) :
    k0_pay3 (k0_pay4 x0) (k0_pay5 x1) (k0_pay6 x8) (k0_pay7 x9) x10 (ix2 r d)
      = ((∑ k : Fin 3, x0 (ix2 r k) * x8 (ix2 k d)) + (∑ k : Fin 256, x1 (ix2 r k) * x9 (ix2 k d))) + x10 (ix1 d) := by
  unfold k0_pay3 k0_pay4 k0_pay5 k0_pay6 k0_pay7
  simp only [shapeCast_self]
  exact rowLayer_apply _ _ _ _ x10 _ _ r d

/-! ## The attention kernel -/

/-- The accumulator's reset value is zero at every entry. -/
theorem accZero_apply (r : Fin 1024) (d : Fin 128) : (k1_pay1 (F := Ideal)) (ix2 r d) = 0 := by
  unfold k1_pay1
  simp only [shapeCast_self]
  exact Ideal.ofBits_zero_f32

/-- The denominator's reset value is zero at every row. -/
theorem denZero_apply (r : Fin 1024) : (k1_pay2 (F := Ideal)) (ix2 r (0 : Fin 1)) = 0 := by
  unfold k1_pay2
  simp only [shapeCast_self]
  exact Ideal.ofBits_zero_f32

/-- A tile's weight at `(r, j)`: the logistic function of the inner product of query row `r` and key row `j`. -/
theorem tileWeight_apply (v6 : Vec Ideal S512x128 .bf16) (v11 : Vec Ideal S1024x128 .bf16) (r : Fin 1024) (j : Fin 512) :
    k1_pay3 v6 v11 (ix2 r j) = Ideal.logistic (∑ d : Fin 128, v11 (ix2 r d) * v6 (ix2 j d)) := by
  unfold k1_pay3
  simp only [shapeCast_self]
  exact congrArg Ideal.logistic (Cert.TransposedMatmul.transposedRhs_apply v11 v6 r j)

/-- One denominator step at row `r`: the old denominator plus the sum of the tile's weights along that row. -/
theorem denStep_apply (v6 : Vec Ideal S512x128 .bf16) (v11 : Vec Ideal S1024x128 .bf16) (v15 : Vec Ideal S1024x1 .f32)
    (r : Fin 1024) :
    k1_pay4 v6 v11 v15 (ix2 r (0 : Fin 1)) = v15 (ix2 r (0 : Fin 1)) + ∑ j : Fin 512, k1_pay3 v6 v11 (ix2 r j) := by
  unfold k1_pay4
  simp only [shapeCast_self]
  refine congrArg (v15 (ix2 r (0 : Fin 1)) + ·) ?_
  refine (Cert.ColumnLayout.shapeCast_a_a1_apply _ _ r (0 : Fin 1)).trans ?_
  exact Cert.ColumnLayout.rowSum_apply (k1_pay3 v6 v11) _ _ _ r

/-- One accumulator step at `(r, d)`: the old accumulator plus the tile's weights along row `r` against column `d` of
    the value rows. -/
theorem accStep_apply (v6 : Vec Ideal S512x128 .bf16) (v9 : Vec Ideal S512x128 .bf16) (v11 : Vec Ideal S1024x128 .bf16)
    (v23 : Vec Ideal S1024x128 .f32) (r : Fin 1024) (d : Fin 128) :
    k1_pay5 v6 v9 v11 v23 (ix2 r d) = v23 (ix2 r d) + ∑ j : Fin 512, k1_pay3 v6 v11 (ix2 r j) * v9 (ix2 j d) := by
  unfold k1_pay5
  simp only [shapeCast_self]
  refine congrArg (v23 (ix2 r d) + ·) ?_
  exact Cert.PlainMatmul.plain_apply (truncf .bf16 (k1_pay3 v6 v11) bitsLt_bf16_f32) v9 r d

/-- The output block at `(r, c)`: the feature entry plus the normalised accumulator row against column `c` of the
    output weights, plus the output bias at `c`. -/
theorem outBlock_apply (v32 : Vec Ideal S1024x128 .f32) (v33 : Vec Ideal S1024x1 .f32) (v37 : Vec Ideal S128x256 .f32)
    (v40 : Vec Ideal S256 .f32) (v44 : Vec Ideal S1024x256 .f32) (r : Fin 1024) (c : Fin 256) :
    k1_pay6 v32 v33 v37 v40 v44 (ix2 r c)
      = v44 (ix2 r c) + ((∑ d : Fin 128, Ideal.div (v32 (ix2 r d)) (v33 (ix2 r (0 : Fin 1))) * v37 (ix2 d c)) + v40 (ix1 c)) := by
  unfold k1_pay6
  simp only [shapeCast_self]
  refine congrArg (v44 (ix2 r c) + ·) (congrArg₂ (· + ·) ?_ ?_)
  · refine (Cert.PlainMatmul.plain_apply _ _ r c).trans ?_
    refine Finset.sum_congr rfl fun d _ => congrArg (· * v37 (ix2 d c)) ?_
    exact congrArg (Ideal.div (v32 (ix2 r d))) (Cert.ColumnLayout.broadcastTo_a1_ab_apply v33 _ r d)
  · exact Cert.LeadingAxisLayout.rows_apply v40 _ _ r c

end Cert.KernelIdeal.Hand

end
-- ==== Proof.KernelIdeal.ProjValue.lean ====
/-
  What the projection kernel's region leaves in its three output arrays, on the extended reals: each is one affine
  map of the rows of [landmarks | features] — row n of the result needs row n of the two inputs only, so block t of
  the result (rows 1024·t … 1024·t + 1023) is computed from block t of the inputs, and the eight blocks tile the array.
-/
import proofs.«133152_j31482110280356_2_alg».proof.Proof.KernelIdeal.Run
import proofs.«133152_j31482110280356_2_alg».proof.Proof.Gen.KernelIdeal.Skeleton
import proofs.«133152_j31482110280356_2_alg».proof.Proof.KernelIdeal.PayloadRead
import Idealize.ShloMosaic.Lib.ValueIdx
import Idealize.ShloMosaic.Lib.Pipeline.Value

set_option maxRecDepth 16384
noncomputable section
namespace Cert.KernelIdeal.Hand.ProjValue
open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- One affine map's value at row n, column d: the landmark part, the feature part, the bias. -/
def aff (X0 : S8192x3.Idx → EReal) (X1 : S8192x256.Idx → EReal) (X2 : S3x128.Idx → EReal) (X3 : S256x128.Idx → EReal) (X4 : S128.Idx → EReal)
    (n : Fin 8192) (d : Fin 128) : EReal :=
  ((∑ k : Fin 3, X0 (ix2 n k) * X2 (ix2 k d)) + ∑ k : Fin 256, X1 (ix2 n k) * X3 (ix2 k d)) + X4 (ix1 d)

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 ∧ t.val < 8 :=
  (by decide +kernel : ∀ t : Fin grid0.N, _)

theorem idx_small : ∀ t : Fin cfg0.N, win0_2.index t = ![0, 0] ∧ win0_3.index t = ![0, 0] ∧ win0_4.index t = ![0]
    ∧ win0_5.index t = ![0, 0] ∧ win0_6.index t = ![0, 0] ∧ win0_7.index t = ![0]
    ∧ win0_8.index t = ![0, 0] ∧ win0_9.index t = ![0, 0] ∧ win0_10.index t = ![0] :=
  (by decide +kernel : ∀ t : Fin grid0.N, _)

variable (V : Contents Ideal) (c : Dev nD)

/-- Window w's block at point t, read off the entry contents. -/
abbrev blk (w : Fin cfg0.W) (t : Fin cfg0.N) := ((cfg0.win w).blk t).view.read (Elt Ideal) (V c (Pipeline.arrRef spec0 w))

theorem row_lt (t : Fin cfg0.N) (r : Fin 1024) : t.val * 1024 + r.val < 8192 := by
  have := (idx_facts t).2.2.2.2.2.2.2.2.2.2; omega

theorem blk0_apply (t : Fin cfg0.N) (r : Fin 1024) (k : Fin 3) :
    blk V c 0 t (ix2 r k) = V c main_v0 (ix2 ⟨t.val * 1024 + r.val, row_lt t r⟩ k) := by
  obtain ⟨e0, e1, -⟩ := idx_facts t
  show V c main_v0 (((cfg0.win 0).blk t).view.emb (ix2 r k)) = _
  refine congrArg _ ?_
  funext a; apply Fin.ext
  match a with
  | ⟨0, _⟩ => show win0_0.index t (0 : Fin 2) * 1024 + 1 * r.val = t.val * 1024 + r.val; omega
  | ⟨1, _⟩ => show win0_0.index t (1 : Fin 2) * 3 + 1 * k.val = k.val; omega

theorem blk1_apply (t : Fin cfg0.N) (r : Fin 1024) (k : Fin 256) :
    blk V c 1 t (ix2 r k) = V c main_v1 (ix2 ⟨t.val * 1024 + r.val, row_lt t r⟩ k) := by
  obtain ⟨-, -, e0, e1, -⟩ := idx_facts t
  show V c main_v1 (((cfg0.win 1).blk t).view.emb (ix2 r k)) = _
  refine congrArg _ ?_
  funext a; apply Fin.ext
  match a with
  | ⟨0, _⟩ => show win0_1.index t (0 : Fin 2) * 1024 + 1 * r.val = t.val * 1024 + r.val; omega
  | ⟨1, _⟩ => show win0_1.index t (1 : Fin 2) * 256 + 1 * k.val = k.val; omega

theorem blk2_apply (t : Fin cfg0.N) (k : Fin 3) (d : Fin 128) : blk V c 2 t (ix2 k d) = V c main_v2 (ix2 k d) := by
  have e := (idx_small t).1
  show V c main_v2 (((cfg0.win 2).blk t).view.emb (ix2 k d)) = _
  refine congrArg _ ?_
  funext a; apply Fin.ext
  match a with
  | ⟨0, _⟩ => show win0_2.index t (0 : Fin 2) * 3 + 1 * k.val = k.val; rw [e]; show 0 * 3 + 1 * k.val = k.val; omega
  | ⟨1, _⟩ => show win0_2.index t (1 : Fin 2) * 128 + 1 * d.val = d.val; rw [e]; show 0 * 128 + 1 * d.val = d.val; omega

theorem blk4_apply (t : Fin cfg0.N) (d : Fin 128) : blk V c 4 t (ix1 d) = V c main_arg3 (ix1 d) := by
  have e := (idx_small t).2.2.1
  show V c main_arg3 (((cfg0.win 4).blk t).view.emb (ix1 d)) = _
  refine congrArg _ ?_
  funext a; apply Fin.ext
  match a with
  | ⟨0, _⟩ => show win0_4.index t (0 : Fin 1) * 128 + 1 * d.val = d.val; rw [e]; show 0 * 128 + 1 * d.val = d.val; omega

theorem blk3_apply (t : Fin cfg0.N) (k : Fin 256) (d : Fin 128) : blk V c 3 t (ix2 k d) = V c main_v3 (ix2 k d) := by
  have e := (idx_small t).2.1
  show V c main_v3 (((cfg0.win 3).blk t).view.emb (ix2 k d)) = _
  refine congrArg _ ?_
  funext a; apply Fin.ext
  match a with
  | ⟨0, _⟩ => show win0_3.index t (0 : Fin 2) * 256 + 1 * k.val = k.val; rw [e]; show 0 * 256 + 1 * k.val = k.val; omega
  | ⟨1, _⟩ => show win0_3.index t (1 : Fin 2) * 128 + 1 * d.val = d.val; rw [e]; show 0 * 128 + 1 * d.val = d.val; omega

theorem blk5_apply (t : Fin cfg0.N) (k : Fin 3) (d : Fin 128) : blk V c 5 t (ix2 k d) = V c main_v4 (ix2 k d) := by
  have e := (idx_small t).2.2.2.1
  show V c main_v4 (((cfg0.win 5).blk t).view.emb (ix2 k d)) = _
  refine congrArg _ ?_
  funext a; apply Fin.ext
  match a with
  | ⟨0, _⟩ => show win0_5.index t (0 : Fin 2) * 3 + 1 * k.val = k.val; rw [e]; show 0 * 3 + 1 * k.val = k.val; omega
  | ⟨1, _⟩ => show win0_5.index t (1 : Fin 2) * 128 + 1 * d.val = d.val; rw [e]; show 0 * 128 + 1 * d.val = d.val; omega

theorem blk6_apply (t : Fin cfg0.N) (k : Fin 256) (d : Fin 128) : blk V c 6 t (ix2 k d) = V c main_v5 (ix2 k d) := by
  have e := (idx_small t).2.2.2.2.1
  show V c main_v5 (((cfg0.win 6).blk t).view.emb (ix2 k d)) = _
  refine congrArg _ ?_
  funext a; apply Fin.ext
  match a with
  | ⟨0, _⟩ => show win0_6.index t (0 : Fin 2) * 256 + 1 * k.val = k.val; rw [e]; show 0 * 256 + 1 * k.val = k.val; omega
  | ⟨1, _⟩ => show win0_6.index t (1 : Fin 2) * 128 + 1 * d.val = d.val; rw [e]; show 0 * 128 + 1 * d.val = d.val; omega

theorem blk7_apply (t : Fin cfg0.N) (d : Fin 128) : blk V c 7 t (ix1 d) = V c main_arg5 (ix1 d) := by
  have e := (idx_small t).2.2.2.2.2.1
  show V c main_arg5 (((cfg0.win 7).blk t).view.emb (ix1 d)) = _
  refine congrArg _ ?_
  funext a; apply Fin.ext
  match a with
  | ⟨0, _⟩ => show win0_7.index t (0 : Fin 1) * 128 + 1 * d.val = d.val; rw [e]; show 0 * 128 + 1 * d.val = d.val; omega

theorem blk8_apply (t : Fin cfg0.N) (k : Fin 3) (d : Fin 128) : blk V c 8 t (ix2 k d) = V c main_v6 (ix2 k d) := by
  have e := (idx_small t).2.2.2.2.2.2.1
  show V c main_v6 (((cfg0.win 8).blk t).view.emb (ix2 k d)) = _
  refine congrArg _ ?_
  funext a; apply Fin.ext
  match a with
  | ⟨0, _⟩ => show win0_8.index t (0 : Fin 2) * 3 + 1 * k.val = k.val; rw [e]; show 0 * 3 + 1 * k.val = k.val; omega
  | ⟨1, _⟩ => show win0_8.index t (1 : Fin 2) * 128 + 1 * d.val = d.val; rw [e]; show 0 * 128 + 1 * d.val = d.val; omega

theorem blk9_apply (t : Fin cfg0.N) (k : Fin 256) (d : Fin 128) : blk V c 9 t (ix2 k d) = V c main_v7 (ix2 k d) := by
  have e := (idx_small t).2.2.2.2.2.2.2.1
  show V c main_v7 (((cfg0.win 9).blk t).view.emb (ix2 k d)) = _
  refine congrArg _ ?_
  funext a; apply Fin.ext
  match a with
  | ⟨0, _⟩ => show win0_9.index t (0 : Fin 2) * 256 + 1 * k.val = k.val; rw [e]; show 0 * 256 + 1 * k.val = k.val; omega
  | ⟨1, _⟩ => show win0_9.index t (1 : Fin 2) * 128 + 1 * d.val = d.val; rw [e]; show 0 * 128 + 1 * d.val = d.val; omega

theorem blk10_apply (t : Fin cfg0.N) (d : Fin 128) : blk V c 10 t (ix1 d) = V c main_arg7 (ix1 d) := by
  have e := (idx_small t).2.2.2.2.2.2.2.2
  show V c main_arg7 (((cfg0.win 10).blk t).view.emb (ix1 d)) = _
  refine congrArg _ ?_
  funext a; apply Fin.ext
  match a with
  | ⟨0, _⟩ => show win0_10.index t (0 : Fin 1) * 128 + 1 * d.val = d.val; rw [e]; show 0 * 128 + 1 * d.val = d.val; omega

/-- What point t writes back of window 11 is block t of the affine map of the entry arrays. -/
theorem flushed11_eq (dat : Dat τ (Elt Ideal) Unit ℕ (UR sig nD τ) ℕ cfg0 c)
    (hafter : ∀ t, dat.after 11 t = k0_pay1 (k0_pay8 (blk V c 0 t) (blk V c 1 t) (blk V c 2 t) (blk V c 3 t) (blk V c 4 t)))
    (t : Fin cfg0.N) :
    dat.flushed 11 t = ((cfg0.win 11).blk t).view.read (Elt Ideal)
      (fun i : S8192x128.Idx => aff (V c main_v0) (V c main_v1) (V c main_v2) (V c main_v3) (V c main_arg3) ⟨(i 0).val, idx2_lt0 i⟩ ⟨(i 1).val, idx2_lt1 i⟩) := by
  show (cfg0.win 11).cut (grid0.coords t) (dat.after 11 t) = _
  rw [hafter t]
  funext j
  obtain ⟨r, d, rfl⟩ : ∃ (r : Fin 1024) (d : Fin 128), j = ix2 r d := ⟨j 0, j 1, eq_ix2 j⟩
  obtain ⟨-, -, -, -, e0, e1, -⟩ := idx_facts t
  have hn : (⟨((((cfg0.win 11).blk t).view.emb (ix2 r d)) 0).val, idx2_lt0 _⟩ : Fin 8192) = ⟨t.val * 1024 + r.val, row_lt t r⟩ :=
    Fin.ext (by show win0_11.index t (0 : Fin 2) * 1024 + 1 * r.val = t.val * 1024 + r.val; omega)
  have hd : (⟨((((cfg0.win 11).blk t).view.emb (ix2 r d)) 1).val, idx2_lt1 _⟩ : Fin 128) = d :=
    Fin.ext (by show win0_11.index t (1 : Fin 2) * 128 + 1 * d.val = d.val; omega)
  refine (projFi_apply _ _ _ _ _ r d).trans ?_
  show _ = aff (V c main_v0) (V c main_v1) (V c main_v2) (V c main_v3) (V c main_arg3) ⟨((((cfg0.win 11).blk t).view.emb (ix2 r d)) 0).val, idx2_lt0 _⟩ ⟨((((cfg0.win 11).blk t).view.emb (ix2 r d)) 1).val, idx2_lt1 _⟩
  rw [hn, hd]
  unfold aff
  simp only [blk0_apply, blk1_apply, blk2_apply, blk3_apply, blk4_apply]

theorem mem_blk11 (t : Fin cfg0.N) (i : S8192x128.Idx) :
    i ∈ ((cfg0.win 11).blk t).view.set ↔ ∀ a : Fin 2, win0_11.index t a * S1024x128.size a ≤ (i a).val ∧ (i a).val < win0_11.index t a * S1024x128.size a + S1024x128.size a := by
  show i ∈ ((View.whole main_v8_0).slice (win0_11.rect t)).set ↔ _
  rw [View.set_slice_whole, Rect.mem_set_unit]
  exact Iff.rfl

theorem cover11 (i : S8192x128.Idx) : ∃ t : Fin cfg0.N, (cfg0.win 11).flush t = true ∧ i ∈ ((cfg0.win 11).blk t).view.set := by
  have hi0 : (i 0).val < 8192 := idx2_lt0 i
  have hi1 : (i 1).val < 128 := idx2_lt1 i
  have hN : cfg0.N = 8 := N_0
  refine ⟨⟨(i 0).val / 1024, by omega⟩, flush0_11 _, ?_⟩
  rw [mem_blk11]
  obtain ⟨-, -, -, -, e0, e1, -⟩ := idx_facts ⟨(i 0).val / 1024, by omega⟩
  intro a
  match a with
  | ⟨0, _⟩ => show win0_11.index _ (0 : Fin 2) * 1024 ≤ (i 0).val ∧ (i 0).val < win0_11.index _ (0 : Fin 2) * 1024 + 1024; rw [e0]; show (i 0).val / 1024 * 1024 ≤ (i 0).val ∧ (i 0).val < (i 0).val / 1024 * 1024 + 1024; omega
  | ⟨1, _⟩ => show win0_11.index _ (1 : Fin 2) * 128 ≤ (i 1).val ∧ (i 1).val < win0_11.index _ (1 : Fin 2) * 128 + 128; rw [e1]; omega

/-- The array window 11 writes ends holding the affine map of the entry arrays. -/
theorem final11 (dat : Dat τ (Elt Ideal) Unit ℕ (UR sig nD τ) ℕ cfg0 c)
    (hafter : ∀ t, dat.after 11 t = k0_pay1 (k0_pay8 (blk V c 0 t) (blk V c 1 t) (blk V c 2 t) (blk V c 3 t) (blk V c 4 t))) :
    dat.arrAt 11 cfg0.N = (fun i : S8192x128.Idx => aff (V c main_v0) (V c main_v1) (V c main_v2) (V c main_v3) (V c main_arg3) ⟨(i 0).val, idx2_lt0 i⟩ ⟨(i 1).val, idx2_lt1 i⟩) :=
  dat.arrAt_eq_of_cover 11 _ (fun t _ => flushed11_eq V c dat hafter t) (cover11)

/-- What point t writes back of window 12 is block t of the affine map of the entry arrays. -/
theorem flushed12_eq (dat : Dat τ (Elt Ideal) Unit ℕ (UR sig nD τ) ℕ cfg0 c)
    (hafter : ∀ t, dat.after 12 t = k0_pay2 (k0_pay9 (blk V c 0 t) (blk V c 1 t) (blk V c 5 t) (blk V c 6 t)) (k0_pay10 (blk V c 7 t)))
    (t : Fin cfg0.N) :
    dat.flushed 12 t = ((cfg0.win 12).blk t).view.read (Elt Ideal)
      (fun i : S8192x128.Idx => aff (V c main_v0) (V c main_v1) (V c main_v4) (V c main_v5) (V c main_arg5) ⟨(i 0).val, idx2_lt0 i⟩ ⟨(i 1).val, idx2_lt1 i⟩) := by
  show (cfg0.win 12).cut (grid0.coords t) (dat.after 12 t) = _
  rw [hafter t]
  funext j
  obtain ⟨r, d, rfl⟩ : ∃ (r : Fin 1024) (d : Fin 128), j = ix2 r d := ⟨j 0, j 1, eq_ix2 j⟩
  obtain ⟨-, -, -, -, -, -, e0, e1, -⟩ := idx_facts t
  have hn : (⟨((((cfg0.win 12).blk t).view.emb (ix2 r d)) 0).val, idx2_lt0 _⟩ : Fin 8192) = ⟨t.val * 1024 + r.val, row_lt t r⟩ :=
    Fin.ext (by show win0_12.index t (0 : Fin 2) * 1024 + 1 * r.val = t.val * 1024 + r.val; omega)
  have hd : (⟨((((cfg0.win 12).blk t).view.emb (ix2 r d)) 1).val, idx2_lt1 _⟩ : Fin 128) = d :=
    Fin.ext (by show win0_12.index t (1 : Fin 2) * 128 + 1 * d.val = d.val; omega)
  refine (projFj_apply _ _ _ _ _ r d).trans ?_
  show _ = aff (V c main_v0) (V c main_v1) (V c main_v4) (V c main_v5) (V c main_arg5) ⟨((((cfg0.win 12).blk t).view.emb (ix2 r d)) 0).val, idx2_lt0 _⟩ ⟨((((cfg0.win 12).blk t).view.emb (ix2 r d)) 1).val, idx2_lt1 _⟩
  rw [hn, hd]
  unfold aff
  simp only [blk0_apply, blk1_apply, blk5_apply, blk6_apply, blk7_apply]

theorem mem_blk12 (t : Fin cfg0.N) (i : S8192x128.Idx) :
    i ∈ ((cfg0.win 12).blk t).view.set ↔ ∀ a : Fin 2, win0_12.index t a * S1024x128.size a ≤ (i a).val ∧ (i a).val < win0_12.index t a * S1024x128.size a + S1024x128.size a := by
  show i ∈ ((View.whole main_v8_1).slice (win0_12.rect t)).set ↔ _
  rw [View.set_slice_whole, Rect.mem_set_unit]
  exact Iff.rfl

theorem cover12 (i : S8192x128.Idx) : ∃ t : Fin cfg0.N, (cfg0.win 12).flush t = true ∧ i ∈ ((cfg0.win 12).blk t).view.set := by
  have hi0 : (i 0).val < 8192 := idx2_lt0 i
  have hi1 : (i 1).val < 128 := idx2_lt1 i
  have hN : cfg0.N = 8 := N_0
  refine ⟨⟨(i 0).val / 1024, by omega⟩, flush0_12 _, ?_⟩
  rw [mem_blk12]
  obtain ⟨-, -, -, -, -, -, e0, e1, -⟩ := idx_facts ⟨(i 0).val / 1024, by omega⟩
  intro a
  match a with
  | ⟨0, _⟩ => show win0_12.index _ (0 : Fin 2) * 1024 ≤ (i 0).val ∧ (i 0).val < win0_12.index _ (0 : Fin 2) * 1024 + 1024; rw [e0]; show (i 0).val / 1024 * 1024 ≤ (i 0).val ∧ (i 0).val < (i 0).val / 1024 * 1024 + 1024; omega
  | ⟨1, _⟩ => show win0_12.index _ (1 : Fin 2) * 128 ≤ (i 1).val ∧ (i 1).val < win0_12.index _ (1 : Fin 2) * 128 + 128; rw [e1]; omega

/-- The array window 12 writes ends holding the affine map of the entry arrays. -/
theorem final12 (dat : Dat τ (Elt Ideal) Unit ℕ (UR sig nD τ) ℕ cfg0 c)
    (hafter : ∀ t, dat.after 12 t = k0_pay2 (k0_pay9 (blk V c 0 t) (blk V c 1 t) (blk V c 5 t) (blk V c 6 t)) (k0_pay10 (blk V c 7 t))) :
    dat.arrAt 12 cfg0.N = (fun i : S8192x128.Idx => aff (V c main_v0) (V c main_v1) (V c main_v4) (V c main_v5) (V c main_arg5) ⟨(i 0).val, idx2_lt0 i⟩ ⟨(i 1).val, idx2_lt1 i⟩) :=
  dat.arrAt_eq_of_cover 12 _ (fun t _ => flushed12_eq V c dat hafter t) (cover12)

/-- What point t writes back of window 13 is block t of the affine map of the entry arrays. -/
theorem flushed13_eq (dat : Dat τ (Elt Ideal) Unit ℕ (UR sig nD τ) ℕ cfg0 c)
    (hafter : ∀ t, dat.after 13 t = k0_pay3 (k0_pay4 (blk V c 0 t)) (k0_pay5 (blk V c 1 t)) (k0_pay6 (blk V c 8 t)) (k0_pay7 (blk V c 9 t)) (blk V c 10 t))
    (t : Fin cfg0.N) :
    dat.flushed 13 t = ((cfg0.win 13).blk t).view.read (Elt Ideal)
      (fun i : S8192x128.Idx => aff (V c main_v0) (V c main_v1) (V c main_v6) (V c main_v7) (V c main_arg7) ⟨(i 0).val, idx2_lt0 i⟩ ⟨(i 1).val, idx2_lt1 i⟩) := by
  show (cfg0.win 13).cut (grid0.coords t) (dat.after 13 t) = _
  rw [hafter t]
  funext j
  obtain ⟨r, d, rfl⟩ : ∃ (r : Fin 1024) (d : Fin 128), j = ix2 r d := ⟨j 0, j 1, eq_ix2 j⟩
  obtain ⟨-, -, -, -, -, -, -, -, e0, e1, -⟩ := idx_facts t
  have hn : (⟨((((cfg0.win 13).blk t).view.emb (ix2 r d)) 0).val, idx2_lt0 _⟩ : Fin 8192) = ⟨t.val * 1024 + r.val, row_lt t r⟩ :=
    Fin.ext (by show win0_13.index t (0 : Fin 2) * 1024 + 1 * r.val = t.val * 1024 + r.val; omega)
  have hd : (⟨((((cfg0.win 13).blk t).view.emb (ix2 r d)) 1).val, idx2_lt1 _⟩ : Fin 128) = d :=
    Fin.ext (by show win0_13.index t (1 : Fin 2) * 128 + 1 * d.val = d.val; omega)
  refine (projFk_apply _ _ _ _ _ r d).trans ?_
  show _ = aff (V c main_v0) (V c main_v1) (V c main_v6) (V c main_v7) (V c main_arg7) ⟨((((cfg0.win 13).blk t).view.emb (ix2 r d)) 0).val, idx2_lt0 _⟩ ⟨((((cfg0.win 13).blk t).view.emb (ix2 r d)) 1).val, idx2_lt1 _⟩
  rw [hn, hd]
  unfold aff
  simp only [blk0_apply, blk1_apply, blk8_apply, blk9_apply, blk10_apply]

theorem mem_blk13 (t : Fin cfg0.N) (i : S8192x128.Idx) :
    i ∈ ((cfg0.win 13).blk t).view.set ↔ ∀ a : Fin 2, win0_13.index t a * S1024x128.size a ≤ (i a).val ∧ (i a).val < win0_13.index t a * S1024x128.size a + S1024x128.size a := by
  show i ∈ ((View.whole main_v8_2).slice (win0_13.rect t)).set ↔ _
  rw [View.set_slice_whole, Rect.mem_set_unit]
  exact Iff.rfl

theorem cover13 (i : S8192x128.Idx) : ∃ t : Fin cfg0.N, (cfg0.win 13).flush t = true ∧ i ∈ ((cfg0.win 13).blk t).view.set := by
  have hi0 : (i 0).val < 8192 := idx2_lt0 i
  have hi1 : (i 1).val < 128 := idx2_lt1 i
  have hN : cfg0.N = 8 := N_0
  refine ⟨⟨(i 0).val / 1024, by omega⟩, flush0_13 _, ?_⟩
  rw [mem_blk13]
  obtain ⟨-, -, -, -, -, -, -, -, e0, e1, -⟩ := idx_facts ⟨(i 0).val / 1024, by omega⟩
  intro a
  match a with
  | ⟨0, _⟩ => show win0_13.index _ (0 : Fin 2) * 1024 ≤ (i 0).val ∧ (i 0).val < win0_13.index _ (0 : Fin 2) * 1024 + 1024; rw [e0]; show (i 0).val / 1024 * 1024 ≤ (i 0).val ∧ (i 0).val < (i 0).val / 1024 * 1024 + 1024; omega
  | ⟨1, _⟩ => show win0_13.index _ (1 : Fin 2) * 128 ≤ (i 1).val ∧ (i 1).val < win0_13.index _ (1 : Fin 2) * 128 + 128; rw [e1]; omega

/-- The array window 13 writes ends holding the affine map of the entry arrays. -/
theorem final13 (dat : Dat τ (Elt Ideal) Unit ℕ (UR sig nD τ) ℕ cfg0 c)
    (hafter : ∀ t, dat.after 13 t = k0_pay3 (k0_pay4 (blk V c 0 t)) (k0_pay5 (blk V c 1 t)) (k0_pay6 (blk V c 8 t)) (k0_pay7 (blk V c 9 t)) (blk V c 10 t)) :
    dat.arrAt 13 cfg0.N = (fun i : S8192x128.Idx => aff (V c main_v0) (V c main_v1) (V c main_v6) (V c main_v7) (V c main_arg7) ⟨(i 0).val, idx2_lt0 i⟩ ⟨(i 1).val, idx2_lt1 i⟩) :=
  dat.arrAt_eq_of_cover 13 _ (fun t _ => flushed13_eq V c dat hafter t) (cover13)

end Cert.KernelIdeal.Hand.ProjValue
end
-- ==== Proof.KernelIdeal.AttnValue.lean ====
/-
  The value the attention kernel's region leaves in its output array, on the extended reals.

  The grid is 8 row blocks of 1024 query rows by 16 tiles of 512 key rows; point `t` works on row block `t / 16` and on
  tile `t % 16`. Two accumulators are carried from point to point along a row block: the denominator, which at row `r`
  collects the weights `logistic ⟨query row, key row⟩` of the tile's key rows, and the accumulator, which at `(r, d)`
  collects those weights against column `d` of the tile's value rows. Both start from zero at the row block's first
  point. By induction along the sixteen points, after tile `k` they hold the sums over the key rows of tiles `0 … k`;
  sixteen tiles of 512 rows are all 8192 rows, so at the last point they hold the sums over every key row. That point
  writes back the row block of

    out (n, c) = features (n, c) + ∑ d, (∑ j, w n j * value (j, d)) / (∑ j, w n j) * W (d, c) + b c,

  and the eight row blocks tile the output array. The statement is over ANY proof data of the region whose carried
  accumulators and last-point output satisfy the three equations below: it reads the kernel's arithmetic only through
  the payloads' entries.
-/
import proofs.«133152_j31482110280356_2_alg».proof.Proof.KernelIdeal.Run
import proofs.«133152_j31482110280356_2_alg».proof.Proof.Gen.KernelIdeal.Skeleton
import Idealize.ShloMosaic.Lib.ValueIdx
import Idealize.ShloMosaic.Lib.Pipeline.Value
import proofs.«133152_j31482110280356_2_alg».proof.Proof.KernelIdeal.PayloadRead

set_option maxRecDepth 16384

noncomputable section

open scoped BigOperators

namespace Cert.KernelIdeal.Hand.AttnValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The closed form -/

/-- The weight of key row `j` for query row `n`: the logistic function of the inner product of the two rows. -/
def weightK (FI FJ : S8192x128.Idx → EReal) (n j : Fin 8192) : EReal :=
  Ideal.logistic (∑ d : Fin 128, FI (ix2 n d) * FJ (ix2 j d))

/-- The output at `(n, c)`: the feature entry plus the weighted mean of the value rows — the weighted sum of column
    `d` over all key rows divided by the sum of the weights — against column `c` of the output weights, plus the bias. -/
def attnOut (FI FJ FK : S8192x128.Idx → EReal) (X : S8192x256.Idx → EReal) (W : S128x256.Idx → EReal) (b : S256.Idx → EReal)
    (n : Fin 8192) (c : Fin 256) : EReal :=
  X (ix2 n c) + ((∑ d : Fin 128, Ideal.div (∑ j : Fin 8192, weightK FI FJ n j * FK (ix2 j d)) (∑ j : Fin 8192, weightK FI FJ n j) * W (ix2 d c)) + b (ix1 c))

/-! ## Arrays read at natural coordinates

The induction along a row block's sixteen points names rows by natural numbers (`q * 1024 + r`, `s * 512 + j`); an
array read at a pair of naturals, zero outside its extents, keeps every bound proof out of the sums. -/

/-- A rank-2 array read at natural coordinates, zero outside its extents. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

theorem at2_of_lt {n0 n1 : ℕ} (X : (⟨2, ![n0, n1]⟩ : Shape).Idx → EReal) {a b : ℕ} (ha : a < n0) (hb : b < n1) :
    at2 X a b = X (ix2 ⟨a, ha⟩ ⟨b, hb⟩) := dif_pos ⟨ha, hb⟩

/-- The weight at natural row numbers. -/
def weightN (FI FJ : S8192x128.Idx → EReal) (n j : ℕ) : EReal :=
  Ideal.logistic (∑ d : Fin 128, at2 FI n d.val * at2 FJ j d.val)

theorem weightN_of_lt (FI FJ : S8192x128.Idx → EReal) {n j : ℕ} (hn : n < 8192) (hj : j < 8192) :
    weightN FI FJ n j = weightK FI FJ ⟨n, hn⟩ ⟨j, hj⟩ := by
  unfold weightN weightK
  refine congrArg Ideal.logistic (Finset.sum_congr rfl fun d _ => ?_)
  rw [at2_of_lt FI hn d.isLt, at2_of_lt FJ hj d.isLt]

/-- Sixteen consecutive tiles of 512 rows are the 8192 rows: a sum tile by tile is the sum over all rows. -/
theorem sum_tiles {M : Type*} [AddCommMonoid M] (f : ℕ → M) :
    ∑ s ∈ Finset.range 16, ∑ j : Fin 512, f (s * 512 + j.val) = ∑ j : Fin 8192, f j.val := by
  calc ∑ s ∈ Finset.range 16, ∑ j : Fin 512, f (s * 512 + j.val)
      = ∑ s : Fin 16, ∑ j : Fin 512, f (s.val * 512 + j.val) := Finset.sum_range _
    _ = ∑ p : Fin 16 × Fin 512, f (p.1.val * 512 + p.2.val) := (Fintype.sum_prod_type (fun p : Fin 16 × Fin 512 => f (p.1.val * 512 + p.2.val))).symm
    _ = ∑ p : Fin 16 × Fin 512, f ((finProdFinEquiv p : Fin (16 * 512)).val) := by
        refine Fintype.sum_congr _ _ fun p => congrArg f ?_
        show p.1.val * 512 + p.2.val = p.2.val + 512 * p.1.val
        omega
    _ = ∑ x : Fin (16 * 512), f x.val := Equiv.sum_comp finProdFinEquiv (fun x : Fin (16 * 512) => f x.val)
    _ = ∑ j : Fin 8192, f j.val := rfl

/-- The denominator's sixteen tile sums add up to the sum of the weights over all key rows. -/
theorem den_total (FI FJ : S8192x128.Idx → EReal) {n : ℕ} (hn : n < 8192) :
    ∑ s ∈ Finset.range 16, ∑ j : Fin 512, weightN FI FJ n (s * 512 + j.val) = ∑ j : Fin 8192, weightK FI FJ ⟨n, hn⟩ j := by
  rw [sum_tiles (fun j => weightN FI FJ n j)]
  exact Finset.sum_congr rfl fun j _ => weightN_of_lt FI FJ hn j.isLt

/-- The accumulator's sixteen tile sums add up to the weighted sum of a value column over all key rows. -/
theorem acc_total (FI FJ FK : S8192x128.Idx → EReal) {n : ℕ} (hn : n < 8192) (d : Fin 128) :
    ∑ s ∈ Finset.range 16, ∑ j : Fin 512, weightN FI FJ n (s * 512 + j.val) * at2 FK (s * 512 + j.val) d.val
      = ∑ j : Fin 8192, weightK FI FJ ⟨n, hn⟩ j * FK (ix2 j d) := by
  rw [sum_tiles (fun j => weightN FI FJ n j * at2 FK j d.val)]
  exact Finset.sum_congr rfl fun j _ => by rw [weightN_of_lt FI FJ hn j.isLt, at2_of_lt FK j.isLt d.isLt]

/-! ## The printed index maps -/

/-- The printed index maps and the tile's row offset, decided over the grid: point `t` works on row block `t / 16`
    and on tile `t % 16`. -/
theorem idx_facts : ∀ t : Fin cfg1.N,
    win1_0.index t (0 : Fin 2) = t.val / 16 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val / 16 ∧ win1_6.index t (1 : Fin 2) = 0
    ∧ k1_off1 (grid1.coords t) (0 : Fin 2) = t.val % 16 * 512 ∧ k1_off1 (grid1.coords t) (1 : Fin 2) = 0 :=
  (by decide +kernel : ∀ t : Fin grid1.N, _)

variable (V : Contents Ideal) (c : Dev nD)

/-- A window's block at a point, read off the entry contents. -/
abbrev blk (w : Fin cfg1.W) (t : Fin cfg1.N) := ((cfg1.win w).blk t).view.read (Elt Ideal) (V c (Pipeline.arrRef spec1 w))
/-- The rows of the key and value arrays that the tile of a point covers. -/
abbrev tileRect (i : grid1.Coords) : Rect S8192x128 := Rect.unit (s := S8192x128) (k1_off1 i) S512x128.size (k1_off1_inb i)

/-! ## Each block read where its rectangle says

A block's coordinate in its array is always the block index times the block size plus the coordinate inside the
block; the tile's rows start at the printed offset inside the whole key (value) array. -/

theorem lt_N (t : Fin cfg1.N) : t.val < 128 := Nat.lt_of_lt_of_eq t.isLt N_1

/-- The query block of point `t` at `(r, d)` is the query array at row `(t / 16) * 1024 + r`. -/
theorem blk0_apply (t : Fin cfg1.N) (r : Fin 1024) (d : Fin 128) :
    blk V c 0 t (ix2 r d) = at2 (n0 := 8192) (n1 := 128) (V c main_v8_0) (t.val / 16 * 1024 + r.val) d.val := by
  obtain ⟨e0, e1, -⟩ := idx_facts t
  have hN := lt_N t
  have hr : t.val / 16 * 1024 + r.val < 8192 := by have := r.isLt; omega
  rw [at2_of_lt _ hr d.isLt]
  show V c main_v8_0 (((cfg1.win 0).blk t).view.emb (ix2 r d)) = V c main_v8_0 _
  refine congrArg (V c main_v8_0) (funext fun a => Fin.ext ?_)
  match a with
  | ⟨0, _⟩ => show win1_0.index t (0 : Fin 2) * 1024 + 1 * r.val = t.val / 16 * 1024 + r.val; rw [e0]; omega
  | ⟨1, _⟩ => show win1_0.index t (1 : Fin 2) * 128 + 1 * d.val = d.val; rw [e1]; omega

/-- The key tile of point `t` at `(j, d)` is the key array at row `(t % 16) * 512 + j`. -/
theorem tile1_apply (t : Fin cfg1.N) (j : Fin 512) (d : Fin 128) :
    View.ld (blk V c 1 t) (tileRect (grid1.coords t)) (ix2 j d)
      = at2 (n0 := 8192) (n1 := 128) (V c main_v8_1) (t.val % 16 * 512 + j.val) d.val := by
  obtain ⟨-, -, e0, e1, -, -, -, -, -, -, -, -, -, o0, o1⟩ := idx_facts t
  have hj : t.val % 16 * 512 + j.val < 8192 := by have := j.isLt; omega
  rw [at2_of_lt _ hj d.isLt]
  show V c main_v8_1 (((cfg1.win 1).blk t).view.emb ((tileRect (grid1.coords t)).emb (ix2 j d))) = V c main_v8_1 _
  refine congrArg (V c main_v8_1) (funext fun a => Fin.ext ?_)
  match a with
  | ⟨0, _⟩ => show win1_1.index t (0 : Fin 2) * 8192 + 1 * (k1_off1 (grid1.coords t) (0 : Fin 2) + 1 * j.val) = t.val % 16 * 512 + j.val; rw [e0, o0]; omega
  | ⟨1, _⟩ => show win1_1.index t (1 : Fin 2) * 128 + 1 * (k1_off1 (grid1.coords t) (1 : Fin 2) + 1 * d.val) = d.val; rw [e1, o1]; omega

/-- The value tile of point `t` at `(j, d)` is the value array at row `(t % 16) * 512 + j`. -/
theorem tile2_apply (t : Fin cfg1.N) (j : Fin 512) (d : Fin 128) :
    View.ld (blk V c 2 t) (tileRect (grid1.coords t)) (ix2 j d)
      = at2 (n0 := 8192) (n1 := 128) (V c main_v8_2) (t.val % 16 * 512 + j.val) d.val := by
  obtain ⟨-, -, -, -, e0, e1, -, -, -, -, -, -, -, o0, o1⟩ := idx_facts t
  have hj : t.val % 16 * 512 + j.val < 8192 := by have := j.isLt; omega
  rw [at2_of_lt _ hj d.isLt]
  show V c main_v8_2 (((cfg1.win 2).blk t).view.emb ((tileRect (grid1.coords t)).emb (ix2 j d))) = V c main_v8_2 _
  refine congrArg (V c main_v8_2) (funext fun a => Fin.ext ?_)
  match a with
  | ⟨0, _⟩ => show win1_2.index t (0 : Fin 2) * 8192 + 1 * (k1_off1 (grid1.coords t) (0 : Fin 2) + 1 * j.val) = t.val % 16 * 512 + j.val; rw [e0, o0]; omega
  | ⟨1, _⟩ => show win1_2.index t (1 : Fin 2) * 128 + 1 * (k1_off1 (grid1.coords t) (1 : Fin 2) + 1 * d.val) = d.val; rw [e1, o1]; omega

/-- The feature block of point `t` at `(r, k)` is the feature array at row `(t / 16) * 1024 + r`. -/
theorem blk3_apply (t : Fin cfg1.N) (r : Fin 1024) (k : Fin 256) (hr : t.val / 16 * 1024 + r.val < 8192) :
    blk V c 3 t (ix2 r k) = (V c main_v1 : S8192x256.Idx → EReal) (ix2 ⟨t.val / 16 * 1024 + r.val, hr⟩ k) := by
  obtain ⟨-, -, -, -, -, -, e0, e1, -⟩ := idx_facts t
  show V c main_v1 (((cfg1.win 3).blk t).view.emb (ix2 r k)) = V c main_v1 _
  refine congrArg (V c main_v1) (funext fun a => Fin.ext ?_)
  match a with
  | ⟨0, _⟩ => show win1_3.index t (0 : Fin 2) * 1024 + 1 * r.val = t.val / 16 * 1024 + r.val; rw [e0]; omega
  | ⟨1, _⟩ => show win1_3.index t (1 : Fin 2) * 256 + 1 * k.val = k.val; rw [e1]; omega

/-- The output weights' block is the whole array. -/
theorem blk4_apply (t : Fin cfg1.N) (d : Fin 128) (k : Fin 256) :
    blk V c 4 t (ix2 d k) = (V c main_arg8 : S128x256.Idx → EReal) (ix2 d k) := by
  obtain ⟨-, -, -, -, -, -, -, -, e0, e1, -⟩ := idx_facts t
  show V c main_arg8 (((cfg1.win 4).blk t).view.emb (ix2 d k)) = V c main_arg8 _
  refine congrArg (V c main_arg8) (funext fun a => Fin.ext ?_)
  match a with
  | ⟨0, _⟩ => show win1_4.index t (0 : Fin 2) * 128 + 1 * d.val = d.val; rw [e0]; omega
  | ⟨1, _⟩ => show win1_4.index t (1 : Fin 2) * 256 + 1 * k.val = k.val; rw [e1]; omega

/-- The output bias' block is the whole vector. -/
theorem blk5_apply (t : Fin cfg1.N) (k : Fin 256) :
    blk V c 5 t (ix1 k) = (V c main_arg9 : S256.Idx → EReal) (ix1 k) := by
  obtain ⟨-, -, -, -, -, -, -, -, -, -, e0, -⟩ := idx_facts t
  show V c main_arg9 (((cfg1.win 5).blk t).view.emb (ix1 k)) = V c main_arg9 _
  refine congrArg (V c main_arg9) (funext fun a => Fin.ext ?_)
  match a with
  | ⟨0, _⟩ => show win1_5.index t (0 : Fin 1) * 256 + 1 * k.val = k.val; rw [e0]; omega

/-! ## One point's step, over the arrays -/

/-- The tile weight of point `t` at `(r, j)`: the weight of key row `(t % 16) * 512 + j` for query row
    `(t / 16) * 1024 + r`. -/
theorem weight_point (t : Fin cfg1.N) (r : Fin 1024) (j : Fin 512) :
    k1_pay3 (View.ld (blk V c 1 t) (tileRect (grid1.coords t))) (blk V c 0 t) (ix2 r j)
      = weightN (V c main_v8_0) (V c main_v8_1) (t.val / 16 * 1024 + r.val) (t.val % 16 * 512 + j.val) := by
  refine (tileWeight_apply _ _ r j).trans ?_
  unfold weightN
  exact congrArg Ideal.logistic (Finset.sum_congr rfl fun d _ =>
    congrArg₂ (· * ·) (blk0_apply V c t r d) (tile1_apply V c t j d))

/-- The denominator step of point `t` at row `r` adds the tile's weights of that row. -/
theorem den_point (t : Fin cfg1.N) (v15 : Vec Ideal S1024x1 .f32) (r : Fin 1024) :
    k1_pay4 (View.ld (blk V c 1 t) (tileRect (grid1.coords t))) (blk V c 0 t) v15 (ix2 r (0 : Fin 1))
      = v15 (ix2 r (0 : Fin 1))
        + ∑ j : Fin 512, weightN (V c main_v8_0) (V c main_v8_1) (t.val / 16 * 1024 + r.val) (t.val % 16 * 512 + j.val) := by
  refine (denStep_apply _ _ v15 r).trans ?_
  exact congrArg (v15 (ix2 r (0 : Fin 1)) + ·) (Finset.sum_congr rfl fun j _ => weight_point V c t r j)

/-- The accumulator step of point `t` at `(r, d)` adds the tile's weights of row `r` against column `d` of the
    tile's value rows. -/
theorem acc_point (t : Fin cfg1.N) (v23 : Vec Ideal S1024x128 .f32) (r : Fin 1024) (d : Fin 128) :
    k1_pay5 (View.ld (blk V c 1 t) (tileRect (grid1.coords t))) (View.ld (blk V c 2 t) (tileRect (grid1.coords t)))
        (blk V c 0 t) v23 (ix2 r d)
      = v23 (ix2 r d)
        + ∑ j : Fin 512, weightN (V c main_v8_0) (V c main_v8_1) (t.val / 16 * 1024 + r.val) (t.val % 16 * 512 + j.val)
            * at2 (n0 := 8192) (n1 := 128) (V c main_v8_2) (t.val % 16 * 512 + j.val) d.val := by
  refine (accStep_apply _ _ _ v23 r d).trans ?_
  exact congrArg (v23 (ix2 r d) + ·) (Finset.sum_congr rfl fun j _ =>
    congrArg₂ (· * ·) (weight_point V c t r j) (tile2_apply V c t j d))

/-! ## The two accumulators along a row block's sixteen points -/

section Carried

variable (car : (n : ℕ) → n < cfg1.N → Vec Ideal S1024x128 .f32 × Vec Ideal S1024x1 .f32)
  (hfirst : ∀ t : Fin cfg1.N, t.val % 16 = 0 → car t.val t.isLt =
    (k1_pay5 (View.ld (blk V c 1 t) (tileRect (grid1.coords t))) (View.ld (blk V c 2 t) (tileRect (grid1.coords t))) (blk V c 0 t) (k1_pay1 (F := Ideal)),
     k1_pay4 (View.ld (blk V c 1 t) (tileRect (grid1.coords t))) (blk V c 0 t) (k1_pay2 (F := Ideal))))
  (hnext : ∀ t : Fin cfg1.N, t.val % 16 ≠ 0 → car t.val t.isLt =
    (k1_pay5 (View.ld (blk V c 1 t) (tileRect (grid1.coords t))) (View.ld (blk V c 2 t) (tileRect (grid1.coords t))) (blk V c 0 t)
        (car (t.val - 1) (Nat.lt_of_le_of_lt (Nat.sub_le _ _) t.isLt)).1,
     k1_pay4 (View.ld (blk V c 1 t) (tileRect (grid1.coords t))) (blk V c 0 t) (car (t.val - 1) (Nat.lt_of_le_of_lt (Nat.sub_le _ _) t.isLt)).2))

omit V c in
theorem car_congr {u v : ℕ} (e : u = v) (hu : u < cfg1.N) (hv : v < cfg1.N) : car u hu = car v hv := by
  subst e; rfl

include hfirst hnext in
/-- After the point of tile `k` in row block `q`, the denominator at row `r` is the sum of the weights over the key
    rows of tiles `0 … k`, and the accumulator at `(r, d)` the weighted sum of value column `d` over them: the reset
    value is zero, and each point adds its tile. -/
theorem carried (q : ℕ) (hq : q < 8) : ∀ (k : ℕ) (hk : k < 16) (h : q * 16 + k < cfg1.N) (r : Fin 1024),
    (car (q * 16 + k) h).2 (ix2 r (0 : Fin 1))
        = ∑ s ∈ Finset.range (k + 1), ∑ j : Fin 512, weightN (V c main_v8_0) (V c main_v8_1) (q * 1024 + r.val) (s * 512 + j.val)
    ∧ ∀ d : Fin 128, (car (q * 16 + k) h).1 (ix2 r d)
        = ∑ s ∈ Finset.range (k + 1), ∑ j : Fin 512, weightN (V c main_v8_0) (V c main_v8_1) (q * 1024 + r.val) (s * 512 + j.val)
            * at2 (n0 := 8192) (n1 := 128) (V c main_v8_2) (s * 512 + j.val) d.val
  | 0, _, h, r => by
    have e := hfirst ⟨q * 16 + 0, h⟩ (by show (q * 16 + 0) % 16 = 0; omega)
    have e1 : (car (q * 16 + 0) h).1 = _ := congrArg Prod.fst e
    have e2 : (car (q * 16 + 0) h).2 = _ := congrArg Prod.snd e
    have hdiv : (q * 16 + 0) / 16 = q := by omega
    have hmod : (q * 16 + 0) % 16 = 0 := by omega
    refine ⟨?_, fun d => ?_⟩
    · rw [e2]
      refine (den_point V c ⟨q * 16 + 0, h⟩ _ r).trans ?_
      rw [denZero_apply r, zero_add, Finset.sum_range_one]
      show ∑ j : Fin 512, weightN _ _ ((q * 16 + 0) / 16 * 1024 + r.val) ((q * 16 + 0) % 16 * 512 + j.val) = _
      rw [hdiv, hmod]
    · rw [e1]
      refine (acc_point V c ⟨q * 16 + 0, h⟩ _ r d).trans ?_
      rw [accZero_apply r d, zero_add, Finset.sum_range_one]
      show ∑ j : Fin 512, weightN _ _ ((q * 16 + 0) / 16 * 1024 + r.val) ((q * 16 + 0) % 16 * 512 + j.val)
        * at2 _ ((q * 16 + 0) % 16 * 512 + j.val) d.val = _
      rw [hdiv, hmod]
  | k + 1, hk, h, r => by
    have h' : q * 16 + k < cfg1.N := by omega
    obtain ⟨ih2, ih1⟩ := carried q hq k (by omega) h' r
    have e := hnext ⟨q * 16 + (k + 1), h⟩ (by show (q * 16 + (k + 1)) % 16 ≠ 0; omega)
    have prev : car ((⟨q * 16 + (k + 1), h⟩ : Fin cfg1.N).val - 1) (Nat.lt_of_le_of_lt (Nat.sub_le _ _) h) = car (q * 16 + k) h' :=
      car_congr car (by show q * 16 + (k + 1) - 1 = q * 16 + k; omega) _ _
    rw [prev] at e
    have e1 : (car (q * 16 + (k + 1)) h).1 = _ := congrArg Prod.fst e
    have e2 : (car (q * 16 + (k + 1)) h).2 = _ := congrArg Prod.snd e
    have hdiv : (q * 16 + (k + 1)) / 16 = q := by omega
    have hmod : (q * 16 + (k + 1)) % 16 = k + 1 := by omega
    refine ⟨?_, fun d => ?_⟩
    · rw [e2]
      refine (den_point V c ⟨q * 16 + (k + 1), h⟩ _ r).trans ?_
      rw [ih2, Finset.sum_range_succ _ (k + 1)]
      show _ + ∑ j : Fin 512, weightN _ _ ((q * 16 + (k + 1)) / 16 * 1024 + r.val) ((q * 16 + (k + 1)) % 16 * 512 + j.val) = _
      rw [hdiv, hmod]
    · rw [e1]
      refine (acc_point V c ⟨q * 16 + (k + 1), h⟩ _ r d).trans ?_
      rw [ih1 d, Finset.sum_range_succ _ (k + 1)]
      show _ + ∑ j : Fin 512, weightN _ _ ((q * 16 + (k + 1)) / 16 * 1024 + r.val) ((q * 16 + (k + 1)) % 16 * 512 + j.val)
        * at2 _ ((q * 16 + (k + 1)) % 16 * 512 + j.val) d.val = _
      rw [hdiv, hmod]

end Carried

/-! ## The output array -/

section Final

variable (dat : Dat τ (Elt Ideal) Unit ℕ (UR sig nD τ) ℕ cfg1 c)
  (car : (n : ℕ) → n < cfg1.N → Vec Ideal S1024x128 .f32 × Vec Ideal S1024x1 .f32)
  (hfirst : ∀ t : Fin cfg1.N, t.val % 16 = 0 → car t.val t.isLt =
    (k1_pay5 (View.ld (blk V c 1 t) (tileRect (grid1.coords t))) (View.ld (blk V c 2 t) (tileRect (grid1.coords t))) (blk V c 0 t) (k1_pay1 (F := Ideal)),
     k1_pay4 (View.ld (blk V c 1 t) (tileRect (grid1.coords t))) (blk V c 0 t) (k1_pay2 (F := Ideal))))
  (hnext : ∀ t : Fin cfg1.N, t.val % 16 ≠ 0 → car t.val t.isLt =
    (k1_pay5 (View.ld (blk V c 1 t) (tileRect (grid1.coords t))) (View.ld (blk V c 2 t) (tileRect (grid1.coords t))) (blk V c 0 t)
        (car (t.val - 1) (Nat.lt_of_le_of_lt (Nat.sub_le _ _) t.isLt)).1,
     k1_pay4 (View.ld (blk V c 1 t) (tileRect (grid1.coords t))) (blk V c 0 t) (car (t.val - 1) (Nat.lt_of_le_of_lt (Nat.sub_le _ _) t.isLt)).2))
  (hout : ∀ t : Fin cfg1.N, t.val % 16 = 15 → dat.after 6 t =
    k1_pay6 (car t.val t.isLt).1 (car t.val t.isLt).2 (blk V c 4 t) (blk V c 5 t) (blk V c 3 t))

include hfirst hnext in
/-- At a row block's last point the two accumulators hold the sums over all 8192 key rows. -/
theorem carried_last (t : Fin cfg1.N) (ht : t.val % 16 = 15) (r : Fin 1024) (hr : t.val / 16 * 1024 + r.val < 8192) :
    (car t.val t.isLt).2 (ix2 r (0 : Fin 1))
        = ∑ j : Fin 8192, weightK (V c main_v8_0) (V c main_v8_1) ⟨t.val / 16 * 1024 + r.val, hr⟩ j
    ∧ ∀ d : Fin 128, (car t.val t.isLt).1 (ix2 r d)
        = ∑ j : Fin 8192, weightK (V c main_v8_0) (V c main_v8_1) ⟨t.val / 16 * 1024 + r.val, hr⟩ j
            * (V c main_v8_2 : S8192x128.Idx → EReal) (ix2 j d) := by
  have hN := lt_N t
  have h' : t.val / 16 * 16 + 15 < cfg1.N := by have := t.isLt; omega
  have e : car t.val t.isLt = car (t.val / 16 * 16 + 15) h' := car_congr car (by omega) _ _
  obtain ⟨h2, h1⟩ := carried V c car hfirst hnext (t.val / 16) (by omega) 15 (by omega) h' r
  rw [e]
  refine ⟨h2.trans (den_total _ _ hr), fun d => (h1 d).trans (acc_total _ _ _ hr d)⟩

/-- The output array as one function of the arrays the region finds. -/
abbrev G : S8192x256.Idx → EReal := fun i =>
  attnOut (V c main_v8_0) (V c main_v8_1) (V c main_v8_2) (V c main_v1) (V c main_arg8) (V c main_arg9)
    ⟨(i 0).val, ValueIdx.idx2_lt0 i⟩ ⟨(i 1).val, ValueIdx.idx2_lt1 i⟩

include hfirst hnext hout in
/-- What a row block's last point writes back is that block of the closed form. -/
theorem flushed_eq (t : Fin cfg1.N) (hf : (cfg1.win 6).flush t = true) :
    dat.flushed 6 t = ((cfg1.win 6).blk t).view.read (Elt Ideal) (G V c) := by
  have ht : t.val % 16 = 15 := (flush1_6 t).mp hf
  obtain ⟨-, -, -, -, -, -, -, -, -, -, -, e0, e1, -⟩ := idx_facts t
  have hN := lt_N t
  show (cfg1.win 6).cut (grid1.coords t) (dat.after 6 t) = _
  rw [hout t ht]
  funext y
  obtain ⟨r, k, rfl⟩ : ∃ (r : Fin 1024) (k : Fin 256), y = ix2 r k := ⟨y 0, y 1, eq_ix2 y⟩
  have hr : t.val / 16 * 1024 + r.val < 8192 := by have := r.isLt; omega
  obtain ⟨h2, h1⟩ := carried_last V c car hfirst hnext t ht r hr
  show k1_pay6 (car t.val t.isLt).1 (car t.val t.isLt).2 (blk V c 4 t) (blk V c 5 t) (blk V c 3 t) (ix2 r k)
    = G V c (((cfg1.win 6).blk t).view.emb (ix2 r k))
  refine (outBlock_apply _ _ _ _ _ r k).trans ?_
  have hG : G V c (((cfg1.win 6).blk t).view.emb (ix2 r k))
      = attnOut (V c main_v8_0) (V c main_v8_1) (V c main_v8_2) (V c main_v1) (V c main_arg8) (V c main_arg9)
          ⟨t.val / 16 * 1024 + r.val, hr⟩ k :=
    congrArg₂ (attnOut (V c main_v8_0) (V c main_v8_1) (V c main_v8_2) (V c main_v1) (V c main_arg8) (V c main_arg9))
      (Fin.ext (by show win1_6.index t (0 : Fin 2) * 1024 + 1 * r.val = t.val / 16 * 1024 + r.val; rw [e0]; omega))
      (Fin.ext (by show win1_6.index t (1 : Fin 2) * 256 + 1 * k.val = k.val; rw [e1]; omega))
  rw [hG]
  unfold attnOut
  refine congrArg₂ (· + ·) (blk3_apply V c t r k hr) (congrArg₂ (· + ·) (Finset.sum_congr rfl fun d _ => ?_) (blk5_apply V c t k))
  rw [h2, h1 d, blk4_apply V c t d k]

/-- Every row of the output lies in the block that the last point of its row block writes back. -/
theorem cover (i : S8192x256.Idx) : ∃ t : Fin cfg1.N, (cfg1.win 6).flush t = true ∧ i ∈ ((cfg1.win 6).blk t).view.set := by
  have hi0 : (i 0).val < 8192 := idx2_lt0 i
  have hi1 : (i 1).val < 256 := idx2_lt1 i
  have hN : cfg1.N = 128 := N_1
  let t : Fin cfg1.N := ⟨(i 0).val / 1024 * 16 + 15, by omega⟩
  have htv : t.val = (i 0).val / 1024 * 16 + 15 := rfl
  obtain ⟨-, -, -, -, -, -, -, -, -, -, -, e0, e1, -⟩ := idx_facts t
  refine ⟨t, (flush1_6 t).mpr (by rw [htv]; omega), ?_⟩
  show i ∈ ((View.whole main_v9).slice (win1_6.rect t)).set
  rw [View.set_slice_whole, Rect.mem_set_unit]
  intro a
  match a with
  | ⟨0, _⟩ =>
    show win1_6.index t (0 : Fin 2) * 1024 ≤ (i 0).val ∧ (i 0).val < win1_6.index t (0 : Fin 2) * 1024 + 1024
    rw [e0, htv]; omega
  | ⟨1, _⟩ =>
    show win1_6.index t (1 : Fin 2) * 256 ≤ (i 1).val ∧ (i 1).val < win1_6.index t (1 : Fin 2) * 256 + 256
    rw [e1]; omega

include hfirst hnext hout in
/-- THE VALUE the attention kernel's region leaves in its output array: at `(n, c)` the feature entry plus the
    normalised weighted mean of the value rows against the output weights, plus the bias. -/
theorem attn_final : dat.arrAt 6 cfg1.N = fun i =>
    attnOut (V c main_v8_0) (V c main_v8_1) (V c main_v8_2) (V c main_v1) (V c main_arg8) (V c main_arg9)
      ⟨(i 0).val, ValueIdx.idx2_lt0 i⟩ ⟨(i 1).val, ValueIdx.idx2_lt1 i⟩ :=
  dat.arrAt_eq_of_cover 6 (G V c) (fun t hf => flushed_eq V c dat car hfirst hnext hout t hf) (cover)

end Final

end Cert.KernelIdeal.Hand.AttnValue

end
-- ==== Proof.KernelIdeal.HostRead.lean ====
/-
  The program's host operations read at coordinates, on the extended reals.

  Before the first kernel the host drops the unit leading axis of the two data arrays and cuts each of the three
  259-row matrices into its first 3 rows and its last 256 rows; after the last kernel it puts the unit axis back on the
  result. Each of those arrays is read here at an index named by its coordinates: entry (n, k) of a reshaped array is
  entry (0, n, k) of the argument, entry (k, d) of a matrix's upper part is its entry (k, d), entry (k, d) of its lower
  part is its entry (k + 3, d), and entry (0, n, c) of the result is entry (n, c) of the last kernel's output. A buffer
  that no host operation writes keeps its contents.
-/
import proofs.«133152_j31482110280356_2_alg».proof.Proof.KernelIdeal.Run
import Idealize.ShloMosaic.Lib.ValueIdx
import Idealize.ShloMosaic.Lib.Pipeline.Value
import Idealize.ShloMosaic.Lib.StableHlo.Run

set_option maxRecDepth 16384

noncomputable section

namespace Cert.KernelIdeal.Hand.HostRead

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ### The arrays the first host operations write, as terms over the arguments -/

/-- The landmarks without their unit axis: the argument under another shape. -/
theorem v0_eq : (V1 m ρ c main_v0 : S8192x3.Idx → EReal)
    = shapeCast S8192x3 (m ((c : Thread nD τ).loc main_arg0)) shapeCasts_S1x8192x3_S8192x3 := by
  show StableHlo.after hostOps0 _ (Proc.devRef .tc main_v0) = _
  after_results
  rfl

/-- The features without their unit axis: the argument under another shape. -/
theorem v1_eq : (V1 m ρ c main_v1 : S8192x256.Idx → EReal)
    = shapeCast S8192x256 (m ((c : Thread nD τ).loc main_arg1)) shapeCasts_S1x8192x256_S8192x256 := by
  show StableHlo.after hostOps0 _ (Proc.devRef .tc main_v1) = _
  after_results
  rfl

/-- The first 3 rows of the first projection's matrix. -/
theorem v2_eq : (V1 m ρ c main_v2 : S3x128.Idx → EReal)
    = extractStridedSlice S3x128 ![0, 0] (m ((c : Thread nD τ).loc main_arg2)) slices_S259x128_S3x128_0_0 := by
  show StableHlo.after hostOps0 _ (Proc.devRef .tc main_v2) = _
  after_results
  try rfl

/-- The last 256 rows of the first projection's matrix. -/
theorem v3_eq : (V1 m ρ c main_v3 : S256x128.Idx → EReal)
    = extractStridedSlice S256x128 ![3, 0] (m ((c : Thread nD τ).loc main_arg2)) slices_S259x128_S256x128_3_0 := by
  show StableHlo.after hostOps0 _ (Proc.devRef .tc main_v3) = _
  after_results
  try rfl

/-- The first 3 rows of the second projection's matrix. -/
theorem v4_eq : (V1 m ρ c main_v4 : S3x128.Idx → EReal)
    = extractStridedSlice S3x128 ![0, 0] (m ((c : Thread nD τ).loc main_arg4)) slices_S259x128_S3x128_0_0 := by
  show StableHlo.after hostOps0 _ (Proc.devRef .tc main_v4) = _
  after_results
  try rfl

/-- The last 256 rows of the second projection's matrix. -/
theorem v5_eq : (V1 m ρ c main_v5 : S256x128.Idx → EReal)
    = extractStridedSlice S256x128 ![3, 0] (m ((c : Thread nD τ).loc main_arg4)) slices_S259x128_S256x128_3_0 := by
  show StableHlo.after hostOps0 _ (Proc.devRef .tc main_v5) = _
  after_results
  try rfl

/-- The first 3 rows of the third projection's matrix. -/
theorem v6_eq : (V1 m ρ c main_v6 : S3x128.Idx → EReal)
    = extractStridedSlice S3x128 ![0, 0] (m ((c : Thread nD τ).loc main_arg6)) slices_S259x128_S3x128_0_0 := by
  show StableHlo.after hostOps0 _ (Proc.devRef .tc main_v6) = _
  after_results
  try rfl

/-- The last 256 rows of the third projection's matrix. -/
theorem v7_eq : (V1 m ρ c main_v7 : S256x128.Idx → EReal)
    = extractStridedSlice S256x128 ![3, 0] (m ((c : Thread nD τ).loc main_arg6)) slices_S259x128_S256x128_3_0 := by
  show StableHlo.after hostOps0 _ (Proc.devRef .tc main_v7) = _
  after_results
  try rfl

/-! ### The same arrays at an index -/

/-- Entry (n, k) of the landmarks without their unit axis is entry (0, n, k) of the argument. -/
theorem v0_apply (n : Fin 8192) (k : Fin 3) :
    (V1 m ρ c main_v0 : S8192x3.Idx → EReal) (ix2 n k)
      = (m ((c : Thread nD τ).loc main_arg0) : S1x8192x3.Idx → EReal) (ix3 (0 : Fin 1) n k) := by
  refine (congrFun (v0_eq m ρ c) (ix2 n k)).trans ?_
  refine shapeCast_apply _ _ (ix2 n k) (ix3 (0 : Fin 1) n k) ?_
  rw [Shape.rowMajor_val_three, Shape.rowMajor_val_two]
  show (0 * 8192 + n.val) * 3 + k.val = n.val * 3 + k.val
  omega

/-- Entry (n, k) of the features without their unit axis is entry (0, n, k) of the argument. -/
theorem v1_apply (n : Fin 8192) (k : Fin 256) :
    (V1 m ρ c main_v1 : S8192x256.Idx → EReal) (ix2 n k)
      = (m ((c : Thread nD τ).loc main_arg1) : S1x8192x256.Idx → EReal) (ix3 (0 : Fin 1) n k) := by
  refine (congrFun (v1_eq m ρ c) (ix2 n k)).trans ?_
  refine shapeCast_apply _ _ (ix2 n k) (ix3 (0 : Fin 1) n k) ?_
  rw [Shape.rowMajor_val_three, Shape.rowMajor_val_two]
  show (0 * 8192 + n.val) * 256 + k.val = n.val * 256 + k.val
  omega

/-- Entry (k, d) of the upper part of the first projection's matrix is its entry (k, d). -/
theorem v2_apply (k : Fin 3) (d : Fin 128) :
    (V1 m ρ c main_v2 : S3x128.Idx → EReal) (ix2 k d)
      = (m ((c : Thread nD τ).loc main_arg2) : S259x128.Idx → EReal) (ix2 (⟨k.val, by omega⟩ : Fin 259) d) := by
  refine (congrFun (v2_eq m ρ c) (ix2 k d)).trans ?_
  refine extractStridedSlice_apply _ _ _ (ix2 k d) (ix2 (⟨k.val, by omega⟩ : Fin 259) d) fun a => ?_
  match a with
  | ⟨0, _⟩ => show k.val = 0 + k.val; omega
  | ⟨1, _⟩ => show d.val = 0 + d.val; omega

/-- Entry (k, d) of the lower part of the first projection's matrix is its entry (k + 3, d). -/
theorem v3_apply (k : Fin 256) (d : Fin 128) :
    (V1 m ρ c main_v3 : S256x128.Idx → EReal) (ix2 k d)
      = (m ((c : Thread nD τ).loc main_arg2) : S259x128.Idx → EReal) (ix2 (⟨k.val + 3, by omega⟩ : Fin 259) d) := by
  refine (congrFun (v3_eq m ρ c) (ix2 k d)).trans ?_
  refine extractStridedSlice_apply _ _ _ (ix2 k d) (ix2 (⟨k.val + 3, by omega⟩ : Fin 259) d) fun a => ?_
  match a with
  | ⟨0, _⟩ => show k.val + 3 = 3 + k.val; omega
  | ⟨1, _⟩ => show d.val = 0 + d.val; omega

/-- Entry (k, d) of the upper part of the second projection's matrix is its entry (k, d). -/
theorem v4_apply (k : Fin 3) (d : Fin 128) :
    (V1 m ρ c main_v4 : S3x128.Idx → EReal) (ix2 k d)
      = (m ((c : Thread nD τ).loc main_arg4) : S259x128.Idx → EReal) (ix2 (⟨k.val, by omega⟩ : Fin 259) d) := by
  refine (congrFun (v4_eq m ρ c) (ix2 k d)).trans ?_
  refine extractStridedSlice_apply _ _ _ (ix2 k d) (ix2 (⟨k.val, by omega⟩ : Fin 259) d) fun a => ?_
  match a with
  | ⟨0, _⟩ => show k.val = 0 + k.val; omega
  | ⟨1, _⟩ => show d.val = 0 + d.val; omega

/-- Entry (k, d) of the lower part of the second projection's matrix is its entry (k + 3, d). -/
theorem v5_apply (k : Fin 256) (d : Fin 128) :
    (V1 m ρ c main_v5 : S256x128.Idx → EReal) (ix2 k d)
      = (m ((c : Thread nD τ).loc main_arg4) : S259x128.Idx → EReal) (ix2 (⟨k.val + 3, by omega⟩ : Fin 259) d) := by
  refine (congrFun (v5_eq m ρ c) (ix2 k d)).trans ?_
  refine extractStridedSlice_apply _ _ _ (ix2 k d) (ix2 (⟨k.val + 3, by omega⟩ : Fin 259) d) fun a => ?_
  match a with
  | ⟨0, _⟩ => show k.val + 3 = 3 + k.val; omega
  | ⟨1, _⟩ => show d.val = 0 + d.val; omega

/-- Entry (k, d) of the upper part of the third projection's matrix is its entry (k, d). -/
theorem v6_apply (k : Fin 3) (d : Fin 128) :
    (V1 m ρ c main_v6 : S3x128.Idx → EReal) (ix2 k d)
      = (m ((c : Thread nD τ).loc main_arg6) : S259x128.Idx → EReal) (ix2 (⟨k.val, by omega⟩ : Fin 259) d) := by
  refine (congrFun (v6_eq m ρ c) (ix2 k d)).trans ?_
  refine extractStridedSlice_apply _ _ _ (ix2 k d) (ix2 (⟨k.val, by omega⟩ : Fin 259) d) fun a => ?_
  match a with
  | ⟨0, _⟩ => show k.val = 0 + k.val; omega
  | ⟨1, _⟩ => show d.val = 0 + d.val; omega

/-- Entry (k, d) of the lower part of the third projection's matrix is its entry (k + 3, d). -/
theorem v7_apply (k : Fin 256) (d : Fin 128) :
    (V1 m ρ c main_v7 : S256x128.Idx → EReal) (ix2 k d)
      = (m ((c : Thread nD τ).loc main_arg6) : S259x128.Idx → EReal) (ix2 (⟨k.val + 3, by omega⟩ : Fin 259) d) := by
  refine (congrFun (v7_eq m ρ c) (ix2 k d)).trans ?_
  refine extractStridedSlice_apply _ _ _ (ix2 k d) (ix2 (⟨k.val + 3, by omega⟩ : Fin 259) d) fun a => ?_
  match a with
  | ⟨0, _⟩ => show k.val + 3 = 3 + k.val; omega
  | ⟨1, _⟩ => show d.val = 0 + d.val; omega

/-- A buffer that none of the first host operations writes holds its launch contents. -/
theorem kept1 (r : Ref sig .tc) (h : r ∉ hostOps0_W) : V1 m ρ c r = m ((c : Thread nD τ).loc r) :=
  StableHlo.after_of_writes_sub hostOps0 _ hostOps0_writes h

/-! ### The last host operation -/

/-- Entry (0, n, c') of the result is entry (n, c') of the last kernel's output: the unit axis put back. -/
theorem out_apply (W : Valuation τ sig (Elt Ideal)) (n : Fin 8192) (c' : Fin 256) :
    (StableHlo.after hostOps2 W (Proc.devRef .tc main_v10) : S1x8192x256.Idx → EReal) (ix3 (0 : Fin 1) n c')
      = (W (Proc.devRef .tc main_v9) : S8192x256.Idx → EReal) (ix2 n c') := by
  have e : (StableHlo.after hostOps2 W (Proc.devRef .tc main_v10) : S1x8192x256.Idx → EReal)
      = broadcastInDim S1x8192x256 ![1, 2] bcast_S8192x256_S1x8192x256_1_2 (W (Proc.devRef .tc main_v9)) := by
    after_results
    try rfl
  refine (congrFun e (ix3 (0 : Fin 1) n c')).trans ?_
  refine broadcastInDim_apply _ _ _ (ix3 (0 : Fin 1) n c') (ix2 n c') fun a => ?_
  match a with
  | ⟨0, _⟩ => rfl
  | ⟨1, _⟩ => rfl

/-- A buffer that the last host operation does not write keeps its contents. -/
theorem kept4 (W : Valuation τ sig (Elt Ideal)) (r : Ref sig .tc) (h : r ∉ hostOps2_W) :
    StableHlo.after hostOps2 W (Proc.devRef .tc r) = W (Proc.devRef .tc r) :=
  StableHlo.after_of_writes_sub hostOps2 _ hostOps2_writes h

end Cert.KernelIdeal.Hand.HostRead

end
-- ==== Proof.Spec.lean ====
/-
  The function both programs compute, index by index, on the extended reals.

  x = [landmarks | features] has 8192 rows of 259 entries. Three affine maps of x give fi, fj, fk (8192 × 128).
  p n j = logistic (Σ_d fi n d · fj j d) is the unnormalised weight of row j for row n, den n = Σ_j p n j its row sum,
  mix n d = Σ_j (p n j / den n) · fk j d the weighted mean of fk's rows, and the result is
  features n c + ((Σ_d mix n d · Wr d c) + br c).
  Everything is stated over plain coordinates (Fin 8192, Fin 259, …) so that no printed program is needed here.
-/
import Idealize.ShloMosaic.PureOps.Ideal

noncomputable section

open scoped BigOperators

namespace Cert.Spec

open Idealize.ShloMosaic

/-- Entry k of row n of [landmarks | features]: a landmark coordinate for k < 3, feature k − 3 otherwise. -/
def cat (land : Fin 8192 → Fin 3 → EReal) (feat : Fin 8192 → Fin 256 → EReal) (n : Fin 8192) (k : Fin 259) : EReal :=
  if h : k.val < 3 then land n ⟨k.val, h⟩ else feat n ⟨k.val - 3, by omega⟩

/-- An affine map of the rows of x: (x · W + b) at (n, d). -/
def proj (x : Fin 8192 → Fin 259 → EReal) (W : Fin 259 → Fin 128 → EReal) (b : Fin 128 → EReal) (n : Fin 8192) (d : Fin 128) : EReal :=
  (∑ k : Fin 259, x n k * W k d) + b d

/-- The score of row j for row n: the inner product of fi's row n with fj's row j. -/
def score (fi fj : Fin 8192 → Fin 128 → EReal) (n j : Fin 8192) : EReal := ∑ d : Fin 128, fi n d * fj j d

/-- The unnormalised weight: the logistic function of the score. -/
def weight (fi fj : Fin 8192 → Fin 128 → EReal) (n j : Fin 8192) : EReal := Ideal.logistic (score fi fj n j)

/-- The row sum of the weights. -/
def den (p : Fin 8192 → Fin 8192 → EReal) (n : Fin 8192) : EReal := ∑ j : Fin 8192, p n j

/-- The weighted mean of fk's rows, each weight divided by its row sum first. -/
def mix (p : Fin 8192 → Fin 8192 → EReal) (fk : Fin 8192 → Fin 128 → EReal) (n : Fin 8192) (d : Fin 128) : EReal :=
  ∑ j : Fin 8192, Ideal.div (p n j) (den p n) * fk j d

/-- The result at (n, c). -/
def G (land : Fin 8192 → Fin 3 → EReal) (feat : Fin 8192 → Fin 256 → EReal)
    (Wi : Fin 259 → Fin 128 → EReal) (bi : Fin 128 → EReal) (Wj : Fin 259 → Fin 128 → EReal) (bj : Fin 128 → EReal)
    (Wk : Fin 259 → Fin 128 → EReal) (bk : Fin 128 → EReal) (Wr : Fin 128 → Fin 256 → EReal) (br : Fin 256 → EReal)
    (n : Fin 8192) (c : Fin 256) : EReal :=
  feat n c + ((∑ d : Fin 128,
      mix (weight (proj (cat land feat) Wi bi) (proj (cat land feat) Wj bj)) (proj (cat land feat) Wk bk) n d * Wr d c) + br c)

end Cert.Spec

end
-- ==== Proof.SpecKernel.lean ====
/-
  The same function in the kernel's arrangement, over plain coordinates.

  The kernel does not join landmarks and features: its affine maps add the product of the three landmark
  coordinates with the first three rows of W to the product of the 256 features with the remaining rows, then the
  bias. And it divides by the row sum once, after the weighted sum of fk's rows, where the specification divides
  every weight first.
-/
import proofs.«133152_j31482110280356_2_alg».proof.Proof.Spec

noncomputable section

open scoped BigOperators

namespace Cert.Spec

open Idealize.ShloMosaic

/-- The kernel's affine map: the three landmark rows of W, then its 256 feature rows, then the bias. -/
def affK (land : Fin 8192 → Fin 3 → EReal) (feat : Fin 8192 → Fin 256 → EReal) (W : Fin 259 → Fin 128 → EReal)
    (b : Fin 128 → EReal) (n : Fin 8192) (d : Fin 128) : EReal :=
  ((∑ k : Fin 3, land n k * W ⟨k.val, by omega⟩ d) + ∑ k : Fin 256, feat n k * W ⟨k.val + 3, by omega⟩ d) + b d

/-- The kernel's result: the weighted sum of fk's rows is divided by the row sum AFTER the sum. -/
def GK (land : Fin 8192 → Fin 3 → EReal) (feat : Fin 8192 → Fin 256 → EReal)
    (Wi : Fin 259 → Fin 128 → EReal) (bi : Fin 128 → EReal) (Wj : Fin 259 → Fin 128 → EReal) (bj : Fin 128 → EReal)
    (Wk : Fin 259 → Fin 128 → EReal) (bk : Fin 128 → EReal) (Wr : Fin 128 → Fin 256 → EReal) (br : Fin 256 → EReal)
    (n : Fin 8192) (c : Fin 256) : EReal :=
  feat n c + ((∑ d : Fin 128,
      Ideal.div (∑ j : Fin 8192, weight (affK land feat Wi bi) (affK land feat Wj bj) n j * affK land feat Wk bk j d)
        (∑ j : Fin 8192, weight (affK land feat Wi bi) (affK land feat Wj bj) n j) * Wr d c) + br c)

end Cert.Spec

end
-- ==== Proof.KernelIdeal.KernelValue.lean ====
/-
  The value the kernel program returns, on the extended reals, as one function of the ten argument arrays: the
  projection region's three arrays are affine maps of [landmarks | features] read through the host's slices of the
  weights; the attention region's array is, row by row, features + ((acc / den) · Wr + br) with acc and den the sums
  over all 8192 columns of the weights (times fk's rows, for acc); the last host operation only adds a unit axis.
-/
import proofs.«133152_j31482110280356_2_alg».proof.Proof.KernelIdeal.Frame
import proofs.«133152_j31482110280356_2_alg».proof.Proof.KernelIdeal.ProjValue
import proofs.«133152_j31482110280356_2_alg».proof.Proof.KernelIdeal.AttnValue
import proofs.«133152_j31482110280356_2_alg».proof.Proof.KernelIdeal.HostRead
import proofs.«133152_j31482110280356_2_alg».proof.Proof.SpecKernel

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx
open scoped BigOperators

/-- The kernel's result as an array over the result's shape: `Cert.Spec.GK` at the last two coordinates of the index,
    the arguments read at plain coordinates. -/
abbrev kernelArr (x0 : S1x8192x3.Idx → EReal) (x1 : S1x8192x256.Idx → EReal) (x2 : S259x128.Idx → EReal) (x3 : S128.Idx → EReal)
    (x4 : S259x128.Idx → EReal) (x5 : S128.Idx → EReal) (x6 : S259x128.Idx → EReal) (x7 : S128.Idx → EReal)
    (x8 : S128x256.Idx → EReal) (x9 : S256.Idx → EReal) : S1x8192x256.Idx → EReal :=
  fun i =>
    Cert.Spec.GK (fun n k => x0 (ix3 (0 : Fin 1) n k)) (fun n k => x1 (ix3 (0 : Fin 1) n k))
      (fun k d => x2 (ix2 k d)) (fun d => x3 (ix1 d)) (fun k d => x4 (ix2 k d)) (fun d => x5 (ix1 d))
      (fun k d => x6 (ix2 k d)) (fun d => x7 (ix1 d)) (fun d c => x8 (ix2 d c)) (fun c => x9 (ix1 c))
      (i 1) (i 2)

variable (m : (ℓ : Loc nD τ sig) → Buf (Elt Ideal) ℓ) (ρ : Dev nD → PrngReg) (c : Dev nD)

/-- The landmarks and the features at plain coordinates. -/
abbrev landOf : Fin 8192 → Fin 3 → EReal := fun n k => (m ((c : Thread nD τ).loc main_arg0) : S1x8192x3.Idx → EReal) (ix3 (0 : Fin 1) n k)
abbrev featOf : Fin 8192 → Fin 256 → EReal := fun n k => (m ((c : Thread nD τ).loc main_arg1) : S1x8192x256.Idx → EReal) (ix3 (0 : Fin 1) n k)

/-! ## The projection region's arrays -/

/-- One affine map of the entry arrays is the kernel's affine map of the arguments: the host's reshapes drop the
    unit axis, its slices are the first three and the last 256 rows of the weights. -/
theorem aff_eq
    (X2 : S3x128.Idx → EReal) (X3 : S256x128.Idx → EReal) (X4 : S128.Idx → EReal)
    (Wm : S259x128.Idx → EReal) (bm : S128.Idx → EReal)
    (h2 : ∀ (k : Fin 3) (d : Fin 128), X2 (ix2 k d) = Wm (ix2 (⟨k.val, by omega⟩ : Fin 259) d))
    (h3 : ∀ (k : Fin 256) (d : Fin 128), X3 (ix2 k d) = Wm (ix2 (⟨k.val + 3, by omega⟩ : Fin 259) d))
    (h4 : ∀ d : Fin 128, X4 (ix1 d) = bm (ix1 d)) (n : Fin 8192) (d : Fin 128) :
    ProjValue.aff (V1 m ρ c main_v0) (V1 m ρ c main_v1) X2 X3 X4 n d
      = Cert.Spec.affK (landOf m c) (featOf m c) (fun k d => Wm (ix2 k d)) (fun d => bm (ix1 d)) n d := by
  unfold ProjValue.aff Cert.Spec.affK
  simp only [h2, h3, h4]
  refine congrArg₂ (· + ·) (congrArg₂ (· + ·) (Finset.sum_congr rfl fun k _ => ?_) (Finset.sum_congr rfl fun k _ => ?_)) rfl
  · exact congrArg (· * _) (HostRead.v0_apply m ρ c n k)
  · exact congrArg (· * _) (HostRead.v1_apply m ρ c n k)

/-- fi: an output array of the projection region, as the second region finds it. -/
theorem fi_apply (n : Fin 8192) (d : Fin 128) :
    (V2 (projKit (F := Ideal)) m ρ c main_v8_0 : S8192x128.Idx → EReal) (ix2 n d)
      = Cert.Spec.affK (landOf m c) (featOf m c)
          (fun k d => (m ((c : Thread nD τ).loc main_arg2) : S259x128.Idx → EReal) (ix2 k d))
          (fun d => (m ((c : Thread nD τ).loc main_arg3) : S128.Idx → EReal) (ix1 d)) n d := by
  have h := ProjValue.final11 (V1 m ρ) c (dat0 (V1 m ρ) c) (fun t => after0_11 (V1 m ρ) c t)
  have e : (V2 (projKit (F := Ideal)) m ρ c main_v8_0 : S8192x128.Idx → EReal) = _ := (W2_arr projKit m ρ c 11).trans h
  rw [e]
  exact aff_eq m ρ c _ _ _ _ _ (HostRead.v2_apply m ρ c) (HostRead.v3_apply m ρ c)
    (fun d => congrFun (HostRead.kept1 m ρ c main_arg3 (by decide)) (ix1 d)) n d

/-- fj: an output array of the projection region, as the second region finds it. -/
theorem fj_apply (n : Fin 8192) (d : Fin 128) :
    (V2 (projKit (F := Ideal)) m ρ c main_v8_1 : S8192x128.Idx → EReal) (ix2 n d)
      = Cert.Spec.affK (landOf m c) (featOf m c)
          (fun k d => (m ((c : Thread nD τ).loc main_arg4) : S259x128.Idx → EReal) (ix2 k d))
          (fun d => (m ((c : Thread nD τ).loc main_arg5) : S128.Idx → EReal) (ix1 d)) n d := by
  have h := ProjValue.final12 (V1 m ρ) c (dat0 (V1 m ρ) c) (fun t => after0_12 (V1 m ρ) c t)
  have e : (V2 (projKit (F := Ideal)) m ρ c main_v8_1 : S8192x128.Idx → EReal) = _ := (W2_arr projKit m ρ c 12).trans h
  rw [e]
  exact aff_eq m ρ c _ _ _ _ _ (HostRead.v4_apply m ρ c) (HostRead.v5_apply m ρ c)
    (fun d => congrFun (HostRead.kept1 m ρ c main_arg5 (by decide)) (ix1 d)) n d

/-- fk: an output array of the projection region, as the second region finds it. -/
theorem fk_apply (n : Fin 8192) (d : Fin 128) :
    (V2 (projKit (F := Ideal)) m ρ c main_v8_2 : S8192x128.Idx → EReal) (ix2 n d)
      = Cert.Spec.affK (landOf m c) (featOf m c)
          (fun k d => (m ((c : Thread nD τ).loc main_arg6) : S259x128.Idx → EReal) (ix2 k d))
          (fun d => (m ((c : Thread nD τ).loc main_arg7) : S128.Idx → EReal) (ix1 d)) n d := by
  have h := ProjValue.final13 (V1 m ρ) c (dat0 (V1 m ρ) c) (fun t => after0_13 (V1 m ρ) c t)
  have e : (V2 (projKit (F := Ideal)) m ρ c main_v8_2 : S8192x128.Idx → EReal) = _ := (W2_arr projKit m ρ c 13).trans h
  rw [e]
  exact aff_eq m ρ c _ _ _ _ _ (HostRead.v6_apply m ρ c) (HostRead.v7_apply m ρ c)
    (fun d => congrFun (HostRead.kept1 m ρ c main_arg7 (by decide)) (ix1 d)) n d

/-- The features, the restoring weights and bias reach the second region as launched. -/
theorem feat_apply (n : Fin 8192) (k : Fin 256) :
    (V2 (projKit (F := Ideal)) m ρ c main_v1 : S8192x256.Idx → EReal) (ix2 n k) = featOf m c n k :=
  (congrFun (W2_in projKit m ρ c 1 rfl) (ix2 n k)).trans (HostRead.v1_apply m ρ c n k)

theorem wr_eq : V2 (projKit (F := Ideal)) m ρ c main_arg8 = m ((c : Thread nD τ).loc main_arg8) :=
  (W2_of_ne projKit m ρ c main_arg8 (by decide)).trans (W1_kept m ρ c main_arg8 (by decide))

theorem br_eq : V2 (projKit (F := Ideal)) m ρ c main_arg9 = m ((c : Thread nD τ).loc main_arg9) :=
  (W2_of_ne projKit m ρ c main_arg9 (by decide)).trans (W1_kept m ρ c main_arg9 (by decide))

/-! ## The attention region's array, and the result -/

/-- The attention region's closed form at the arrays it is entered with is the kernel's function of the arguments. -/
theorem attnOut_eq (n : Fin 8192) (c' : Fin 256) :
    AttnValue.attnOut (V2 (projKit (F := Ideal)) m ρ c main_v8_0) (V2 (projKit (F := Ideal)) m ρ c main_v8_1) (V2 (projKit (F := Ideal)) m ρ c main_v8_2)
        (V2 (projKit (F := Ideal)) m ρ c main_v1) (V2 (projKit (F := Ideal)) m ρ c main_arg8) (V2 (projKit (F := Ideal)) m ρ c main_arg9) n c'
      = kernelArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (ix3 (0 : Fin 1) n c') := by
  show _ = Cert.Spec.GK _ _ _ _ _ _ _ _ _ _ n c'
  unfold AttnValue.attnOut AttnValue.weightK Cert.Spec.GK Cert.Spec.weight Cert.Spec.score
  rw [wr_eq m ρ c, br_eq m ρ c]
  have hfi := fi_apply m ρ c
  have hfj := fj_apply m ρ c
  have hfk := fk_apply m ρ c
  have hfe := feat_apply m ρ c
  simp only [hfi, hfj, hfk, hfe]

/-- The attention region's output array, as the last host operation finds it. -/
theorem out_arr : (W3 (projKit (F := Ideal)) (attnKit (F := Ideal)) m ρ c (Proc.devRef .tc main_v9) : S8192x256.Idx → EReal)
    = fun i => AttnValue.attnOut (V2 (projKit (F := Ideal)) m ρ c main_v8_0) (V2 (projKit (F := Ideal)) m ρ c main_v8_1) (V2 (projKit (F := Ideal)) m ρ c main_v8_2)
        (V2 (projKit (F := Ideal)) m ρ c main_v1) (V2 (projKit (F := Ideal)) m ρ c main_arg8) (V2 (projKit (F := Ideal)) m ρ c main_arg9)
        ⟨(i 0).val, idx2_lt0 i⟩ ⟨(i 1).val, idx2_lt1 i⟩ :=
  (W3_arr (projKit (F := Ideal)) (attnKit (F := Ideal)) m ρ c 6).trans
    (AttnValue.attn_final (V2 (projKit (F := Ideal)) m ρ) c (dat1 (V2 (projKit (F := Ideal)) m ρ) c) (carried (V2 (projKit (F := Ideal)) m ρ) c)
      (fun t h => carried_first (V2 (projKit (F := Ideal)) m ρ) c t h) (fun t h => carried_next (V2 (projKit (F := Ideal)) m ρ) c t h)
      (fun t h => after1_6 (V2 (projKit (F := Ideal)) m ρ) c t h))

/-- THE RESULT ARRAY: what the program returns is the kernel's function of the ten arguments. -/
theorem value : (W4 (projKit (F := Ideal)) (attnKit (F := Ideal)) m ρ c (Proc.devRef .tc main_v10) : S1x8192x256.Idx → EReal)
    = kernelArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨z, n, c', rfl⟩ : ∃ (z : Fin 1) (n : Fin 8192) (c' : Fin 256), i = ix3 z n c' := ⟨i 0, i 1, i 2, eq_ix3 i⟩
  obtain rfl : z = 0 := Subsingleton.elim _ _
  refine (HostRead.out_apply (W3 (projKit (F := Ideal)) (attnKit (F := Ideal)) m ρ c) n c').trans ?_
  exact (congrFun (out_arr m ρ c) (ix2 n c')).trans (attnOut_eq m ρ c n c')

/-- THE RUN, READ: every execution terminates with the result array at the kernel's function of the arguments and
    the arguments as launched. -/
theorem value_run : θ_run defs (onTc (τ := τ) (main (F := Ideal))) ⟨m, fun _ => 0, ρ⟩ (fun r => ∀ c : Dev nD,
      r.2.mem ((c.tc : Thread nD τ).loc main_v10) = kernelArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v10 (by decide))).trans (value m ρ c),
    (h c _ (mem_uc main_arg0 (by decide))).trans (W4_main_arg0 (projKit (F := Ideal)) (attnKit (F := Ideal)) m ρ c),
    (h c _ (mem_uc main_arg1 (by decide))).trans (W4_main_arg1 (projKit (F := Ideal)) (attnKit (F := Ideal)) m ρ c),
    (h c _ (mem_uc main_arg2 (by decide))).trans (W4_main_arg2 (projKit (F := Ideal)) (attnKit (F := Ideal)) m ρ c),
    (h c _ (mem_uc main_arg3 (by decide))).trans (W4_main_arg3 (projKit (F := Ideal)) (attnKit (F := Ideal)) m ρ c),
    (h c _ (mem_uc main_arg4 (by decide))).trans (W4_main_arg4 (projKit (F := Ideal)) (attnKit (F := Ideal)) m ρ c),
    (h c _ (mem_uc main_arg5 (by decide))).trans (W4_main_arg5 (projKit (F := Ideal)) (attnKit (F := Ideal)) m ρ c),
    (h c _ (mem_uc main_arg6 (by decide))).trans (W4_main_arg6 (projKit (F := Ideal)) (attnKit (F := Ideal)) m ρ c),
    (h c _ (mem_uc main_arg7 (by decide))).trans (W4_main_arg7 (projKit (F := Ideal)) (attnKit (F := Ideal)) m ρ c),
    (h c _ (mem_uc main_arg8 (by decide))).trans (W4_main_arg8 (projKit (F := Ideal)) (attnKit (F := Ideal)) m ρ c),
    (h c _ (mem_uc main_arg9 (by decide))).trans (W4_main_arg9 (projKit (F := Ideal)) (attnKit (F := Ideal)) m ρ c)⟩) (run m ρ)

end Cert.KernelIdeal.Hand

end
-- ==== Proof.RefIsSpec.lean ====
/-
  The reference's result, read index by index on the extended reals, is the function of Spec.lean.

  The reference joins landmarks and features into x (8192 rows of 259 entries), takes the three affine maps
  fi, fj, fk of x, the scores s n j = Σ_d fi n d · fjᵀ d j, the weights 1 / (1 + exp (−s n j)), their row sums,
  the quotients weight / row sum, the weighted rows Σ_j (weight / row sum) · fk j d, one more affine map with Wr
  and br, and adds the features. Each stage is read at an index from the stage before it; the chain ends at
  Cert.Spec.G.
-/
import proofs.«133152_j31482110280356_2_alg».proof.Proof.Spec
import proofs.«133152_j31482110280356_2_alg».proof.Proof.Gen.ReferenceIdeal.Read
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx

/-- An array of the reference at the extended reals. -/
abbrev Arr (S : Shape) : Type := (⟨S, .f32⟩ : BufTy).Contents (Elt Ideal)

variable (a0 : Arr S1x8192x3) (a1 : Arr S1x8192x256)

/-- Row n of the landmarks. -/
abbrev land : Fin 8192 → Fin 3 → EReal := fun n k => a0 (ix3 (0 : Fin 1) n k)
/-- Row n of the features. -/
abbrev feat : Fin 8192 → Fin 256 → EReal := fun n k => a1 (ix3 (0 : Fin 1) n k)

/-! ## The joined rows -/

/-- Row n, entry k of the reshaped array sits at (0, n, k) of the joined one. -/
theorem idx_v1 (n : Fin 8192) (k : Fin 259) : idx_main_v1 (ix2 n k) = ix3 (0 : Fin 1) n k := by
  funext a
  apply Fin.ext
  have hn := n.isLt
  have hk := k.isLt
  match a with
  | ⟨0, _⟩ => rfl
  | ⟨1, _⟩ => show (n.val * 259 + k.val) / 259 % 8192 = n.val; omega
  | ⟨2, _⟩ => show (n.val * 259 + k.val) % 259 = k.val; omega

/-- The joined rows: a landmark coordinate below column 3, feature k − 3 from column 3 on. -/
theorem x_apply (n : Fin 8192) (k : Fin 259) :
    val_main_v1 (F := Ideal) a0 a1 (ix2 n k) = Cert.Spec.cat (land a0) (feat a1) n k := by
  rw [val_main_v1_apply, idx_v1]
  unfold val_main_v0 Cert.Spec.cat
  by_cases h : k.val < 3
  · rw [dif_pos h]
    exact concatenate_pair_apply_left 2 a0 a1 concatenates_S1x8192x3_S1x8192x256_S1x8192x259_d2 _ rfl
      (ix3 (0 : Fin 1) n (⟨k.val, h⟩ : Fin 3)) (fun b => by
        match b with
        | ⟨0, _⟩ => rfl
        | ⟨1, _⟩ => rfl
        | ⟨2, _⟩ => rfl)
  · rw [dif_neg h]
    exact concatenate_pair_apply_right 2 a0 a1 concatenates_S1x8192x3_S1x8192x256_S1x8192x259_d2 _ rfl rfl
      (ix3 (0 : Fin 1) n (⟨k.val - 3, by have := k.isLt; omega⟩ : Fin 256))
      (fun b hb => by
        match b with
        | ⟨0, _⟩ => rfl
        | ⟨1, _⟩ => rfl
        | ⟨2, _⟩ => exact absurd rfl hb)
      (by show (k.val - 3) + 3 = k.val; omega)

/-! ## The three affine maps -/

/-- The joined rows as a function of plain coordinates. -/
abbrev xs : Fin 8192 → Fin 259 → EReal := Cert.Spec.cat (land a0) (feat a1)

/-- An affine map of the joined rows at (n, d): Σ_k x n k · W k d + b d. -/
theorem proj_apply (W : Arr S259x128) (b : Arr S128) (n : Fin 8192) (d : Fin 128) :
    val_main_v5 (F := Ideal) a0 a1 W b (ix2 n d)
      = Cert.Spec.proj (xs a0 a1) (fun k d => W (ix2 k d)) (fun d => b (ix1 d)) n d := by
  rw [val_main_v5_apply, val_main_v2_apply, val_main_v4_apply, val_main_v3_apply]
  unfold Cert.Spec.proj
  rw [Ideal.addf_def]
  refine congrArg₂ (· + ·) (Finset.sum_congr rfl fun k _ => ?_) (congrArg b ?_)
  · rw [show lidx_main_v2 (ix2 n d) k = ix2 n k from
        funext fun a => by match a with | ⟨0, _⟩ => rfl | ⟨1, _⟩ => rfl,
      show ridx_main_v2 (ix2 n d) k = ix2 k d from
        funext fun a => by match a with | ⟨0, _⟩ => rfl | ⟨1, _⟩ => rfl,
      x_apply]
  · exact funext fun a => by match a with | ⟨0, _⟩ => rfl

/-- The second and third affine maps are the first one's function at their own weights and biases. -/
theorem v9_eq (W : Arr S259x128) (b : Arr S128) :
    val_main_v9 (F := Ideal) a0 a1 W b = val_main_v5 (F := Ideal) a0 a1 W b := rfl
theorem v13_eq (W : Arr S259x128) (b : Arr S128) :
    val_main_v13 (F := Ideal) a0 a1 W b = val_main_v5 (F := Ideal) a0 a1 W b := rfl

/-! ## Scores, weights, row sums -/

variable (a2 : Arr S259x128) (a3 : Arr S128) (a4 : Arr S259x128) (a5 : Arr S128)

/-- fi and fj over plain coordinates. -/
abbrev fi : Fin 8192 → Fin 128 → EReal :=
  Cert.Spec.proj (xs a0 a1) (fun k d => a2 (ix2 k d)) (fun d => a3 (ix1 d))
abbrev fj : Fin 8192 → Fin 128 → EReal :=
  Cert.Spec.proj (xs a0 a1) (fun k d => a4 (ix2 k d)) (fun d => a5 (ix1 d))

/-- The score at (n, j): fi's row n against the transpose's column j, which is fj's row j. -/
theorem score_apply (n j : Fin 8192) :
    val_main_v15 (F := Ideal) a0 a1 a2 a3 a4 a5 (ix2 n j)
      = Cert.Spec.score (fi a0 a1 a2 a3) (fj a0 a1 a4 a5) n j := by
  rw [val_main_v15_apply]
  unfold Cert.Spec.score
  refine Finset.sum_congr rfl fun d _ => ?_
  rw [val_main_v14_apply, v9_eq,
    show lidx_main_v15 (ix2 n j) d = ix2 n d from
      funext fun a => by match a with | ⟨0, _⟩ => rfl | ⟨1, _⟩ => rfl,
    show idx_main_v14 (ridx_main_v15 (ix2 n j) d) = ix2 j d from
      funext fun a => by match a with | ⟨0, _⟩ => rfl | ⟨1, _⟩ => rfl,
    proj_apply, proj_apply]

/-- The weight at (n, j): 1 / (1 + exp (−score)), the logistic function of the score. -/
theorem weight_apply (n j : Fin 8192) :
    val_main_v21 (F := Ideal) a0 a1 a2 a3 a4 a5 (ix2 n j)
      = Cert.Spec.weight (fi a0 a1 a2 a3) (fj a0 a1 a4 a5) n j := by
  rw [val_main_v21_apply, val_main_v20_apply, val_main_cst_0_apply, val_main_v19_apply, val_main_v18_apply,
    val_main_cst_apply, val_main_v17_apply, val_main_v16_apply, score_apply]
  simp only [Ideal.hostDivf_def, Ideal.addf_def, Ideal.hostUnary_exp_def, Ideal.hostNegf_def, Ideal.negf_def,
    Ideal.ofBits_def, Ideal.ofBits_one_f32]
  rfl

/-- The weights over plain coordinates. -/
abbrev wgt : Fin 8192 → Fin 8192 → EReal := Cert.Spec.weight (fi a0 a1 a2 a3) (fj a0 a1 a4 a5)

/-- The row sum at n: the sum from zero of the weights of row n. -/
theorem den_apply (n : Fin 8192) :
    val_main_v22 (F := Ideal) a0 a1 a2 a3 a4 a5 (ix1 n) = Cert.Spec.den (wgt a0 a1 a2 a3 a4 a5) n := by
  rw [val_main_v22_apply, val_main_cst_1_apply, Ideal.ofBits_def, Ideal.ofBits_zero_f32, zero_add]
  unfold Cert.Spec.den
  refine Finset.sum_congr rfl fun j _ => ?_
  rw [show idx_main_v22 (ix1 n) j = ix2 n j from
      funext fun a => by match a with | ⟨0, _⟩ => rfl | ⟨1, _⟩ => rfl,
    weight_apply]

/-- The normalised weight at (n, j): the weight over its row sum. -/
theorem att_apply (n j : Fin 8192) :
    val_main_v25 (F := Ideal) a0 a1 a2 a3 a4 a5 (ix2 n j)
      = Ideal.div (wgt a0 a1 a2 a3 a4 a5 n j) (Cert.Spec.den (wgt a0 a1 a2 a3 a4 a5) n) := by
  rw [val_main_v25_apply, val_main_v24_apply, val_main_v23_apply,
    show idx_main_v23 (idx_main_v24 (ix2 n j)) = ix1 n from
      funext fun a => by match a with | ⟨0, _⟩ => rfl,
    weight_apply, den_apply, Ideal.hostDivf_def]

/-! ## The weighted rows and the result -/

variable (a6 : Arr S259x128) (a7 : Arr S128) (a8 : Arr S128x256) (a9 : Arr S256)

/-- fk over plain coordinates. -/
abbrev fk : Fin 8192 → Fin 128 → EReal :=
  Cert.Spec.proj (xs a0 a1) (fun k d => a6 (ix2 k d)) (fun d => a7 (ix1 d))

/-- The weighted row at (n, d): Σ_j (weight n j / row sum n) · fk j d. -/
theorem mix_apply (n : Fin 8192) (d : Fin 128) :
    val_main_v26 (F := Ideal) a0 a1 a2 a3 a4 a5 a6 a7 (ix2 n d)
      = Cert.Spec.mix (wgt a0 a1 a2 a3 a4 a5) (fk a0 a1 a6 a7) n d := by
  rw [val_main_v26_apply]
  unfold Cert.Spec.mix
  refine Finset.sum_congr rfl fun j _ => ?_
  rw [v13_eq,
    show lidx_main_v26 (ix2 n d) j = ix2 n j from
      funext fun a => by match a with | ⟨0, _⟩ => rfl | ⟨1, _⟩ => rfl,
    show ridx_main_v26 (ix2 n d) j = ix2 j d from
      funext fun a => by match a with | ⟨0, _⟩ => rfl | ⟨1, _⟩ => rfl,
    att_apply, proj_apply]

/-- THE REFERENCE IS THE SPECIFICATION, index by index: at (0, n, c) the reference's result is
    features n c + ((Σ_d mix n d · Wr d c) + br c). -/
theorem ref_is_spec (n : Fin 8192) (c : Fin 256) :
    val_main_v32 (F := Ideal) a0 a1 a2 a3 a4 a5 a6 a7 a8 a9 (ix3 (0 : Fin 1) n c)
      = Cert.Spec.G (fun n k => a0 (ix3 (0 : Fin 1) n k)) (fun n k => a1 (ix3 (0 : Fin 1) n k))
          (fun k d => a2 (ix2 k d)) (fun d => a3 (ix1 d)) (fun k d => a4 (ix2 k d)) (fun d => a5 (ix1 d))
          (fun k d => a6 (ix2 k d)) (fun d => a7 (ix1 d)) (fun d c => a8 (ix2 d c)) (fun c => a9 (ix1 c)) n c := by
  rw [val_main_v32_apply, val_main_v31_apply,
    show idx_main_v31 (ix3 (0 : Fin 1) n c) = ix2 n c from
      funext fun a => by match a with | ⟨0, _⟩ => rfl | ⟨1, _⟩ => rfl,
    val_main_v30_apply, val_main_v27_apply, val_main_v29_apply, val_main_v28_apply,
    show idx_main_v28 (idx_main_v29 (ix2 n c)) = ix1 c from
      funext fun a => by match a with | ⟨0, _⟩ => rfl]
  unfold Cert.Spec.G
  rw [Ideal.addf_def, Ideal.addf_def]
  refine congrArg (a1 (ix3 (0 : Fin 1) n c) + ·) (congrArg (· + a9 (ix1 c)) (Finset.sum_congr rfl fun d _ => ?_))
  rw [show lidx_main_v27 (ix2 n c) d = ix2 n d from
      funext fun a => by match a with | ⟨0, _⟩ => rfl | ⟨1, _⟩ => rfl,
    show ridx_main_v27 (ix2 n c) d = ix2 d c from
      funext fun a => by match a with | ⟨0, _⟩ => rfl | ⟨1, _⟩ => rfl,
    mix_apply]

/-- The specification as an array over the result's shape: G at the last two coordinates of the index (the first
    coordinate ranges over one value), the arguments read at plain coordinates. -/
abbrev specArr (x0 : Arr S1x8192x3) (x1 : Arr S1x8192x256) (x2 : Arr S259x128) (x3 : Arr S128) (x4 : Arr S259x128)
    (x5 : Arr S128) (x6 : Arr S259x128) (x7 : Arr S128) (x8 : Arr S128x256) (x9 : Arr S256) : Arr S1x8192x256 :=
  fun i =>
    Cert.Spec.G (fun n k => x0 (ix3 (0 : Fin 1) n k)) (fun n k => x1 (ix3 (0 : Fin 1) n k))
      (fun k d => x2 (ix2 k d)) (fun d => x3 (ix1 d)) (fun k d => x4 (ix2 k d)) (fun d => x5 (ix1 d))
      (fun k d => x6 (ix2 k d)) (fun d => x7 (ix1 d)) (fun d c => x8 (ix2 d c)) (fun c => x9 (ix1 c))
      (i 1) (i 2)

/-- The same as one equation between arrays: the reference's result array is the specification's. -/
theorem result_eq :
    val_main_v32 (F := Ideal) a0 a1 a2 a3 a4 a5 a6 a7 a8 a9 = specArr a0 a1 a2 a3 a4 a5 a6 a7 a8 a9 := by
  funext i
  have hi : i = ix3 (0 : Fin 1) (i 1) (i 2) := by
    rw [show (0 : Fin 1) = i 0 from Subsingleton.elim _ _]; exact eq_ix3 i
  rw [hi]
  exact ref_is_spec a0 a1 a2 a3 a4 a5 a6 a7 a8 a9 (i 1) (i 2)

/-! ## The reference's run, its result stated through the specification -/

open Idealize.ShloMosaic.TcCoe Idealize.SL.Sem Idealize.ShloMosaic.StableHlo in
/-- Every weakly fair execution of the reference terminates with its result array equal to the specification at
    the ten argument arrays of the launch memory, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
          = specArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans
        ((val_main_v32_eq (F := Ideal) _ _ _ _ _ _ _ _ _ _).trans (result_eq _ _ _ _ _ _ _ _ _ _)), (h c).2⟩)
    (Cert.ReferenceIdeal.Value.run (F := Ideal) m ρ)

end Cert.ReferenceIdeal.RefValue

end
-- ==== Proof.LibTiledAttention.lean ====
/-
  The algebra, on the extended reals, that joins a weighted mean accumulated tile by tile to the same mean written with whole sums.

  • A sum over a + b indices is the sum over the first a plus the sum over the last b (a matrix product whose contracted
    axis is cut in two). No finiteness is needed: the extended reals are a commutative additive monoid.
  • A sum over a·b indices is reached by starting from zero and adding, in order, the a sums over b consecutive indices
    (an accumulator that is reset at the first tile and then adds one tile's sum per step).
  • Dividing a finite sum of products of real numbers by a nonzero real number is the sum of the products with each first
    factor divided: normalising after the sum is normalising every weight first.
  • The logistic function of a real number is a positive real number; finite sums and products of real numbers are real
    numbers, and a sum of positive reals over a nonempty index set is positive.
-/
import Mathlib.Algebra.BigOperators.Fin
import Mathlib.Algebra.BigOperators.Intervals
import Idealize.ShloMosaic.PureOps.Ideal

noncomputable section

namespace Cert.LibTiledAttention

open scoped BigOperators
open Idealize.ShloMosaic

/-! ### A sum cut in two -/

section Monoid
variable {M : Type*} [AddCommMonoid M]

/-- A sum over `a + b` indices is the sum over the first `a` plus the sum over the last `b`. -/
theorem sum_fin_split {a b n : ℕ} (h : a + b = n) (f : Fin n → M) :
    ∑ k : Fin n, f k = (∑ k : Fin a, f ⟨k.val, by omega⟩) + ∑ k : Fin b, f ⟨k.val + a, by omega⟩ := by
  subst h
  rw [Fin.sum_univ_add]
  congr 1
  refine Finset.sum_congr rfl fun k _ => ?_
  congr 1
  ext
  simp only [Fin.coe_natAdd]
  omega

/-- A sum of 259 terms is the sum of the first 3 plus the sum of the remaining 256. -/
theorem sum_259 (f : Fin 259 → M) :
    ∑ k : Fin 259, f k = (∑ k : Fin 3, f ⟨k.val, by omega⟩) + ∑ k : Fin 256, f ⟨k.val + 3, by omega⟩ :=
  sum_fin_split (a := 3) (b := 256) rfl f

/-! ### A sum taken tile by tile -/

/-- The entry of a function on `Fin n` at a natural number; zero past the end. -/
def atNat {n : ℕ} (f : Fin n → M) (i : ℕ) : M := if h : i < n then f ⟨i, h⟩ else 0

/-- Place `j` of tile `k`, of `a` tiles of `b` places, is below `a * b`. -/
theorem tile_bound {a b n : ℕ} (h : a * b = n) {k : ℕ} (hk : k < a) (j : Fin b) : k * b + j.val < n := by
  subst h
  calc k * b + j.val < k * b + b := Nat.add_lt_add_left j.isLt _
    _ = (k + 1) * b := by ring
    _ ≤ a * b := Nat.mul_le_mul_right _ hk

/-- The sum of `f` over tile `k`: the `b` consecutive indices from `k * b`. -/
def tileSum {a b n : ℕ} (h : a * b = n) (f : Fin n → M) (k : ℕ) (hk : k < a) : M :=
  ∑ j : Fin b, f ⟨k * b + j.val, tile_bound h hk j⟩

/-- The accumulator after tile `k`: zero plus the sum over tile 0 at the first tile, the previous accumulator plus the
    sum over tile `k + 1` afterwards. -/
def runningSum {a b n : ℕ} (h : a * b = n) (f : Fin n → M) : (k : ℕ) → k < a → M
  | 0, hk => 0 + tileSum h f 0 hk
  | k + 1, hk => runningSum h f k (Nat.lt_of_succ_lt hk) + tileSum h f (k + 1) hk

/-- The accumulator at the first tile. -/
theorem runningSum_zero {a b n : ℕ} (h : a * b = n) (f : Fin n → M) (hk : 0 < a) :
    runningSum h f 0 hk = 0 + tileSum h f 0 hk := rfl

/-- The accumulator at a later tile. -/
theorem runningSum_succ {a b n : ℕ} (h : a * b = n) (f : Fin n → M) (k : ℕ) (hk : k + 1 < a) :
    runningSum h f (k + 1) hk = runningSum h f k (Nat.lt_of_succ_lt hk) + tileSum h f (k + 1) hk := rfl

/-- A tile's sum as a sum over a range of natural numbers. -/
theorem tileSum_eq_range {a b n : ℕ} (h : a * b = n) (f : Fin n → M) (k : ℕ) (hk : k < a) :
    tileSum h f k hk = ∑ p ∈ Finset.range b, atNat f (k * b + p) := by
  rw [tileSum, Finset.sum_range]
  refine Finset.sum_congr rfl fun j _ => ?_
  rw [atNat, dif_pos (tile_bound h hk j)]

/-- The accumulator after tile `k` is the sum over the first `(k + 1) * b` indices. -/
theorem runningSum_eq_range {a b n : ℕ} (h : a * b = n) (f : Fin n → M) :
    ∀ (k : ℕ) (hk : k < a), runningSum h f k hk = ∑ i ∈ Finset.range ((k + 1) * b), atNat f i
  | 0, hk => by
    rw [runningSum_zero, zero_add, tileSum_eq_range, Nat.zero_add, Nat.one_mul]
    exact Finset.sum_congr rfl fun p _ => by rw [Nat.zero_mul, Nat.zero_add]
  | k + 1, hk => by
    rw [runningSum_succ, runningSum_eq_range h f k, tileSum_eq_range, Nat.succ_mul (k + 1) b, Finset.sum_range_add]

/-- After the last tile the accumulator is the sum over every index. -/
theorem runningSum_last {a b n : ℕ} (h : a * b = n) (f : Fin n → M) (k : ℕ) (hk : k < a) (hlast : k + 1 = a) :
    runningSum h f k hk = ∑ i : Fin n, f i := by
  rw [runningSum_eq_range, hlast, h, Finset.sum_range]
  exact Finset.sum_congr rfl fun i _ => dif_pos i.isLt

end Monoid

/-! ### Sixteen tiles of 512 -/

/-- Tile `k` of a function on `Fin 8192`: the sum of its 512 consecutive entries from `512 k`. -/
def tile (f : Fin 8192 → EReal) (k : ℕ) (hk : k < 16) : EReal := ∑ j : Fin 512, f ⟨k * 512 + j.val, by omega⟩

/-- The accumulator after tile `k` of sixteen: `0 + tile 0`, then one more tile per step. -/
def running (f : Fin 8192 → EReal) : (k : ℕ) → k < 16 → EReal
  | 0, hk => 0 + tile f 0 hk
  | k + 1, hk => running f k (Nat.lt_of_succ_lt hk) + tile f (k + 1) hk

/-- The accumulator at the first tile. -/
theorem running_zero (f : Fin 8192 → EReal) (hk : 0 < 16) : running f 0 hk = 0 + tile f 0 hk := rfl

/-- The accumulator at a later tile. -/
theorem running_succ (f : Fin 8192 → EReal) (k : ℕ) (hk : k + 1 < 16) :
    running f (k + 1) hk = running f k (Nat.lt_of_succ_lt hk) + tile f (k + 1) hk := rfl

/-- A tile of 512 is the general tile sum at sixteen tiles of 512. -/
theorem tile_eq_tileSum (f : Fin 8192 → EReal) (k : ℕ) (hk : k < 16) :
    tile f k hk = tileSum (a := 16) (b := 512) (n := 8192) rfl f k hk := rfl

/-- The accumulator over sixteen tiles of 512 is the general one. -/
theorem running_eq_runningSum (f : Fin 8192 → EReal) :
    ∀ (k : ℕ) (hk : k < 16), running f k hk = runningSum (a := 16) (b := 512) (n := 8192) rfl f k hk
  | 0, _ => rfl
  | k + 1, hk => by rw [running_succ, runningSum_succ, running_eq_runningSum f k, tile_eq_tileSum]

/-- After the sixteenth tile the accumulator is the sum over all 8192 indices. -/
theorem running_last (f : Fin 8192 → EReal) (hk : 15 < 16) : running f 15 hk = ∑ j : Fin 8192, f j := by
  rw [running_eq_runningSum]
  exact runningSum_last (a := 16) (b := 512) rfl f 15 hk rfl

/-! ### Real numbers among the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two real numbers is a real number. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A product of two real numbers is a real number. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of real numbers is a real number. -/
theorem real_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of products of real numbers is a real number. -/
theorem real_sum_mul {ι : Type*} (s : Finset ι) {f g : ι → EReal} (hf : ∀ i, ∃ r : ℝ, f i = (r : EReal))
    (hg : ∀ i, ∃ r : ℝ, g i = (r : EReal)) : ∃ r : ℝ, ∑ i ∈ s, f i * g i = (r : EReal) :=
  real_sum s fun i => real_mul (hf i) (hg i)

/-- A sum of positive real numbers over a nonempty finite index type is a positive real number. -/
theorem pos_sum {ι : Type*} [Fintype ι] [Nonempty ι] {f : ι → EReal} (hf : ∀ i, ∃ r : ℝ, 0 < r ∧ f i = (r : EReal)) :
    ∃ r : ℝ, 0 < r ∧ ∑ i, f i = (r : EReal) := by
  choose g hg using hf
  refine ⟨∑ i, g i, Finset.sum_pos (fun i _ => (hg i).1) Finset.univ_nonempty, ?_⟩
  rw [coe_sum]
  exact Finset.sum_congr rfl fun i _ => (hg i).2

/-- The logistic function of a real number is a positive real number. -/
theorem logistic_pos {x : EReal} (hx : ∃ r : ℝ, x = (r : EReal)) :
    ∃ r : ℝ, 0 < r ∧ Ideal.logistic x = (r : EReal) := by
  obtain ⟨a, rfl⟩ := hx
  exact ⟨(1 + Real.exp (-a))⁻¹, by positivity, Ideal.logistic_coe a⟩

/-- The logistic function of a real number is a real number. -/
theorem real_logistic {x : EReal} (hx : ∃ r : ℝ, x = (r : EReal)) : ∃ r : ℝ, Ideal.logistic x = (r : EReal) := by
  obtain ⟨r, _, h⟩ := logistic_pos hx
  exact ⟨r, h⟩

/-- A real number divided by a nonzero real number is a real number. -/
theorem real_div {x D : EReal} (hx : ∃ r : ℝ, x = (r : EReal)) (hD : ∃ δ : ℝ, δ ≠ 0 ∧ D = (δ : EReal)) :
    ∃ r : ℝ, Ideal.div x D = (r : EReal) := by
  obtain ⟨a, rfl⟩ := hx
  obtain ⟨δ, hδ, rfl⟩ := hD
  exact ⟨a * (1 / δ), by rw [Ideal.div_coe hδ, EReal.coe_mul]⟩

/-- A positive real number is a real number. -/
theorem real_of_pos {x : EReal} (hx : ∃ r : ℝ, 0 < r ∧ x = (r : EReal)) : ∃ r : ℝ, x = (r : EReal) := by
  obtain ⟨r, _, h⟩ := hx
  exact ⟨r, h⟩

/-- A positive real number is a nonzero real number. -/
theorem ne_zero_of_pos {D : EReal} (hD : ∃ δ : ℝ, 0 < δ ∧ D = (δ : EReal)) : ∃ δ : ℝ, δ ≠ 0 ∧ D = (δ : EReal) := by
  obtain ⟨δ, hδ, h⟩ := hD
  exact ⟨δ, hδ.ne', h⟩

/-! ### Normalising after the sum -/

/-- Dividing a finite sum of products of real numbers by a nonzero real number divides each first factor: the quotient
    of the accumulated products by the accumulated weights is the mean under the normalised weights. -/
theorem div_sum_mul {ι : Type*} [Fintype ι] (p v : ι → EReal) (D : EReal) (hp : ∀ j, ∃ r : ℝ, p j = (r : EReal))
    (hv : ∀ j, ∃ r : ℝ, v j = (r : EReal)) (hD : ∃ δ : ℝ, δ ≠ 0 ∧ D = (δ : EReal)) :
    Ideal.div (∑ j, p j * v j) D = ∑ j, Ideal.div (p j) D * v j := by
  choose a ha using hp
  choose b hb using hv
  obtain ⟨δ, hδ, rfl⟩ := hD
  have hl : ∑ j, p j * v j = ((∑ j, a j * b j : ℝ) : EReal) := by
    rw [coe_sum]
    exact Finset.sum_congr rfl fun j _ => by rw [ha j, hb j, EReal.coe_mul]
  have hr : ∀ j, Ideal.div (p j) (δ : EReal) * v j = ((a j * (1 / δ) * b j : ℝ) : EReal) := fun j => by
    rw [Ideal.div_coe hδ, ha j, hb j, EReal.coe_mul, EReal.coe_mul]
  rw [Ideal.div_coe hδ, hl, Finset.sum_congr rfl fun j _ => hr j, ← coe_sum, ← EReal.coe_mul, Finset.sum_mul]
  congr 1
  exact Finset.sum_congr rfl fun j _ => by ring

end Cert.LibTiledAttention

end
-- ==== Proof.SpecSplit.lean ====
/-
  The specification's sums in the arrangement of a computation by blocks, and the realness of its parts.

  • A row of [landmarks | features] against a column of a 259-row matrix is the landmark part against the first 3 rows
    plus the feature part against the last 256 rows.
  • With real inputs every projection and score is a real number, every weight a positive real number, every row sum of
    weights a positive real number, and every weighted mean a real number.
  • The quotient of the products accumulated over sixteen tiles of 512 by the weights accumulated the same way is the
    specification's weighted mean.
-/
import proofs.«133152_j31482110280356_2_alg».proof.Proof.Spec
import proofs.«133152_j31482110280356_2_alg».proof.Proof.LibTiledAttention

noncomputable section

namespace Cert.SpecSplit

open scoped BigOperators
open Idealize.ShloMosaic Cert.Spec Cert.LibTiledAttention

/-- A row of [landmarks | features] against column `d` of a 259-row matrix: the landmarks against its first 3 rows plus
    the features against its last 256 rows. -/
theorem cat_sum_split (land : Fin 8192 → Fin 3 → EReal) (feat : Fin 8192 → Fin 256 → EReal)
    (W : Fin 259 → Fin 128 → EReal) (n : Fin 8192) (d : Fin 128) :
    ∑ k : Fin 259, cat land feat n k * W k d
      = (∑ k : Fin 3, land n k * W ⟨k.val, by omega⟩ d) + ∑ k : Fin 256, feat n k * W ⟨k.val + 3, by omega⟩ d := by
  have h1 : ∀ k : Fin 3, cat land feat n ⟨k.val, by omega⟩ = land n k := fun k => by
    have hk : (⟨k.val, by omega⟩ : Fin 259).val < 3 := k.isLt
    rw [cat, dif_pos hk]
  have h2 : ∀ k : Fin 256, cat land feat n ⟨k.val + 3, by omega⟩ = feat n k := fun k => by
    have hk : ¬ (⟨k.val + 3, by omega⟩ : Fin 259).val < 3 := Nat.not_lt.2 (Nat.le_add_left 3 k.val)
    rw [cat, dif_neg hk]
    exact congrArg (feat n) (Fin.ext (Nat.add_sub_cancel k.val 3))
  rw [sum_259]
  simp only [h1, h2]

/-- The projection with its sum cut at the landmark / feature boundary. -/
theorem proj_cat (land : Fin 8192 → Fin 3 → EReal) (feat : Fin 8192 → Fin 256 → EReal)
    (W : Fin 259 → Fin 128 → EReal) (b : Fin 128 → EReal) (n : Fin 8192) (d : Fin 128) :
    proj (cat land feat) W b n d
      = ((∑ k : Fin 3, land n k * W ⟨k.val, by omega⟩ d) + ∑ k : Fin 256, feat n k * W ⟨k.val + 3, by omega⟩ d) + b d := by
  rw [proj, cat_sum_split]

/-! ### Real inputs give real parts -/

/-- Every entry of [landmarks | features] is a real number when those of both parts are. -/
theorem real_cat {land : Fin 8192 → Fin 3 → EReal} {feat : Fin 8192 → Fin 256 → EReal}
    (hl : ∀ n k, ∃ r : ℝ, land n k = (r : EReal)) (hf : ∀ n k, ∃ r : ℝ, feat n k = (r : EReal)) (n : Fin 8192)
    (k : Fin 259) : ∃ r : ℝ, cat land feat n k = (r : EReal) := by
  unfold cat
  split
  · exact hl _ _
  · exact hf _ _

/-- An affine map of real rows by a real matrix and a real bias has real entries. -/
theorem real_proj {x : Fin 8192 → Fin 259 → EReal} {W : Fin 259 → Fin 128 → EReal} {b : Fin 128 → EReal}
    (hx : ∀ n k, ∃ r : ℝ, x n k = (r : EReal)) (hW : ∀ k d, ∃ r : ℝ, W k d = (r : EReal))
    (hb : ∀ d, ∃ r : ℝ, b d = (r : EReal)) (n : Fin 8192) (d : Fin 128) : ∃ r : ℝ, proj x W b n d = (r : EReal) :=
  real_add (real_sum_mul _ (fun k => hx n k) (fun k => hW k d)) (hb d)

/-- The score of two real rows is a real number. -/
theorem real_score {fi fj : Fin 8192 → Fin 128 → EReal} (hi : ∀ n d, ∃ r : ℝ, fi n d = (r : EReal))
    (hj : ∀ n d, ∃ r : ℝ, fj n d = (r : EReal)) (n j : Fin 8192) : ∃ r : ℝ, score fi fj n j = (r : EReal) :=
  real_sum_mul _ (fun d => hi n d) (fun d => hj j d)

/-- The weight of two real rows is a positive real number. -/
theorem pos_weight {fi fj : Fin 8192 → Fin 128 → EReal} (hi : ∀ n d, ∃ r : ℝ, fi n d = (r : EReal))
    (hj : ∀ n d, ∃ r : ℝ, fj n d = (r : EReal)) (n j : Fin 8192) :
    ∃ r : ℝ, 0 < r ∧ weight fi fj n j = (r : EReal) :=
  logistic_pos (real_score hi hj n j)

/-- The weight of two real rows is a real number. -/
theorem real_weight {fi fj : Fin 8192 → Fin 128 → EReal} (hi : ∀ n d, ∃ r : ℝ, fi n d = (r : EReal))
    (hj : ∀ n d, ∃ r : ℝ, fj n d = (r : EReal)) (n j : Fin 8192) : ∃ r : ℝ, weight fi fj n j = (r : EReal) :=
  real_of_pos (pos_weight hi hj n j)

/-- A row sum of positive real weights is a positive real number. -/
theorem pos_den {p : Fin 8192 → Fin 8192 → EReal} (hp : ∀ n j, ∃ r : ℝ, 0 < r ∧ p n j = (r : EReal)) (n : Fin 8192) :
    ∃ r : ℝ, 0 < r ∧ den p n = (r : EReal) :=
  haveI : Nonempty (Fin 8192) := ⟨⟨0, by norm_num⟩⟩
  pos_sum fun j => hp n j

/-- A weighted mean of real rows under positive real weights is a real number. -/
theorem real_mix {p : Fin 8192 → Fin 8192 → EReal} {fk : Fin 8192 → Fin 128 → EReal}
    (hp : ∀ n j, ∃ r : ℝ, 0 < r ∧ p n j = (r : EReal)) (hk : ∀ j d, ∃ r : ℝ, fk j d = (r : EReal)) (n : Fin 8192)
    (d : Fin 128) : ∃ r : ℝ, mix p fk n d = (r : EReal) :=
  real_sum _ fun j => real_mul (real_div (real_of_pos (hp n j)) (ne_zero_of_pos (pos_den hp n))) (hk j d)

/-! ### The mean accumulated over tiles -/

/-- The weights accumulated over sixteen tiles of 512 are the specification's row sum. -/
theorem running_den (p : Fin 8192 → Fin 8192 → EReal) (n : Fin 8192) (hk : 15 < 16) :
    running (fun j => p n j) 15 hk = den p n := running_last _ hk

/-- The products accumulated over sixteen tiles of 512, divided by the weights accumulated the same way, are the
    specification's weighted mean: with positive real weights and real rows, normalising after the sum is normalising
    each weight. -/
theorem div_running_eq_mix {p : Fin 8192 → Fin 8192 → EReal} {fk : Fin 8192 → Fin 128 → EReal}
    (hp : ∀ n j, ∃ r : ℝ, 0 < r ∧ p n j = (r : EReal)) (hk : ∀ j d, ∃ r : ℝ, fk j d = (r : EReal)) (n : Fin 8192)
    (d : Fin 128) (h15 : 15 < 16) :
    Ideal.div (running (fun j => p n j * fk j d) 15 h15) (running (fun j => p n j) 15 h15) = mix p fk n d := by
  rw [running_last, running_last]
  exact div_sum_mul (fun j => p n j) (fun j => fk j d) _ (fun j => real_of_pos (hp n j)) (fun j => hk j d)
    (ne_zero_of_pos (pos_den hp n))

end Cert.SpecSplit

end
-- ==== Proof.Bridge.lean ====
/-
  The kernel's arrangement computes the specification's function when the inputs are real numbers.

  Two differences separate them. The kernel's affine map cuts the 259-term sum of a row of
  [landmarks | features] against a column of W at the landmark / feature boundary: that is the same sum, with no
  condition. And the kernel divides the weighted sum of fk's rows by the row sum of the weights once, after the
  sum, where the specification divides every weight first: with real inputs every entry of fi, fj, fk is a real
  number, every weight a positive real number, the row sum a positive (so nonzero) real number, and dividing a
  finite sum of products of reals by a nonzero real divides each first factor.
-/
import proofs.«133152_j31482110280356_2_alg».proof.Proof.SpecKernel
import proofs.«133152_j31482110280356_2_alg».proof.Proof.SpecSplit

noncomputable section

open scoped BigOperators

namespace Cert.Spec

open Idealize.ShloMosaic Cert.LibTiledAttention Cert.SpecSplit

/-- The kernel's affine map is the affine map of the joined rows: the 259-term sum is the sum of its first 3 terms
    plus the sum of its last 256. -/
theorem affK_eq_proj (land : Fin 8192 → Fin 3 → EReal) (feat : Fin 8192 → Fin 256 → EReal)
    (W : Fin 259 → Fin 128 → EReal) (b : Fin 128 → EReal) :
    affK land feat W b = proj (cat land feat) W b := by
  funext n d
  exact (proj_cat land feat W b n d).symm

/-- THE BRIDGE: with real landmarks, features, projection matrices and projection biases, the kernel's
    arrangement (sums cut at the landmark / feature boundary, one division after the weighted sum) is the
    specification (joined rows, every weight divided by its row sum first). Nothing is asked of Wr, br. -/
theorem bridge (land : Fin 8192 → Fin 3 → EReal) (feat : Fin 8192 → Fin 256 → EReal)
    (Wi : Fin 259 → Fin 128 → EReal) (bi : Fin 128 → EReal) (Wj : Fin 259 → Fin 128 → EReal) (bj : Fin 128 → EReal)
    (Wk : Fin 259 → Fin 128 → EReal) (bk : Fin 128 → EReal) (Wr : Fin 128 → Fin 256 → EReal) (br : Fin 256 → EReal)
    (hland : ∀ n k, ∃ r : ℝ, land n k = (r : EReal)) (hfeat : ∀ n k, ∃ r : ℝ, feat n k = (r : EReal))
    (hWi : ∀ k d, ∃ r : ℝ, Wi k d = (r : EReal)) (hbi : ∀ d, ∃ r : ℝ, bi d = (r : EReal))
    (hWj : ∀ k d, ∃ r : ℝ, Wj k d = (r : EReal)) (hbj : ∀ d, ∃ r : ℝ, bj d = (r : EReal))
    (hWk : ∀ k d, ∃ r : ℝ, Wk k d = (r : EReal)) (hbk : ∀ d, ∃ r : ℝ, bk d = (r : EReal))
    (n : Fin 8192) (c : Fin 256) :
    GK land feat Wi bi Wj bj Wk bk Wr br n c = G land feat Wi bi Wj bj Wk bk Wr br n c := by
  unfold GK G
  rw [affK_eq_proj, affK_eq_proj, affK_eq_proj]
  have hx := real_cat hland hfeat
  have hfi := real_proj hx hWi hbi
  have hfj := real_proj hx hWj hbj
  have hfk := real_proj hx hWk hbk
  have hp := pos_weight hfi hfj
  refine congrArg (feat n c + ·) (congrArg (· + br c) (Finset.sum_congr rfl fun d _ => ?_))
  refine congrArg (· * Wr d c) ?_
  exact div_sum_mul (fun j => weight (proj (cat land feat) Wi bi) (proj (cat land feat) Wj bj) n j)
    (fun j => proj (cat land feat) Wk bk j d) _ (fun j => real_of_pos (hp n j)) (fun j => hfk j d)
    (ne_zero_of_pos (pos_den hp n))

end Cert.Spec

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.FiniteInputs.lean ====
/-
  Every entry of the ten argument arrays is a real number, from the finiteness precondition.

  The precondition is the conjunction, over the ten arrays, of "every entry's absolute value compares below the word of +∞".
  The conjunction is split at the single index of the rank-0 result; each all-true test gives the comparison at every
  index of its array; and an extended real whose absolute value is below ⊤ is a real number.
-/
import proofs.«133152_j31482110280356_2_alg».proof.Defs
import proofs.«133152_j31482110280356_2_alg».proof.Proof.LibFiniteEntry
import Idealize.ShloMosaic.Lib.ReduceAll

noncomputable section

namespace Cert.FiniteInputs

open Idealize.ShloMosaic Idealize.SL.Sem
open Cert.Pre_finite_inputs

/-- One all-true test read back: if the reduction by "and" of the comparison |x| < +∞ over a whole array is 1 at the
    single index of the rank-0 result, then every entry of x is a real number. -/
theorem real_of_all {s : Shape} {axes : List (Fin s.rank)} (hb : S_.BroadcastsInDim s (![] : Fin 0 → Fin s.rank))
    (hr : s.ReducesTo axes S_) (hS : 0 < S_.numel) (x : FVec Ideal s .f32) (j : S_.Idx)
    (e : Host.reduce IntOp.andi
        (cmpf .olt (Host.absf x) (broadcastInDim s ![] hb (constant (F := Ideal) S_ .f32 0x7F800000#32)))
        (constantI S_ 1 1#1) hr hS j = 1#1) (i : s.Idx) : ∃ r : ℝ, x i = (r : EReal) :=
  Cert.FiniteEntry.real_of_abs_lt_top (x i) (Host.reduce_andi_all _ _ hr hS j e i)

/-- The finiteness predicate, all ones, says that every entry of each of its ten arrays is a real number. -/
theorem real_of_fn [Cert.Pre_finite_inputs.Facts]
    (x0 : FVec Ideal S1x8192x3 .f32) (x1 : FVec Ideal S1x8192x256 .f32) (x2 : FVec Ideal S259x128 .f32)
    (x3 : FVec Ideal S128 .f32) (x4 : FVec Ideal S259x128 .f32) (x5 : FVec Ideal S128 .f32)
    (x6 : FVec Ideal S259x128 .f32) (x7 : FVec Ideal S128 .f32) (x8 : FVec Ideal S128x256 .f32)
    (x9 : FVec Ideal S256 .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) := by
  have h0 := congrFun h (fun a => a.elim0)
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨real_of_all _ _ _ x0 _ e0, real_of_all _ _ _ x1 _ e1, real_of_all _ _ _ x2 _ e2, real_of_all _ _ _ x3 _ e3,
    real_of_all _ _ _ x4 _ e4, real_of_all _ _ _ x5 _ e5, real_of_all _ _ _ x6 _ e6, real_of_all _ _ _ x7 _ e7,
    real_of_all _ _ _ x8 _ e8, real_of_all _ _ _ x9 _ e9⟩

/-! ### The ten argument arrays of the program -/

section Args
variable [Cert.Pre_finite_inputs.Facts]

/-- Under the precondition, on every device, every entry of each of the ten argument arrays is a real number. -/
theorem finite_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S1x8192x3.Idx, ∃ r : ℝ, (m ((c.tc : Thread Cert.KernelIdeal.nD Cert.KernelIdeal.τ).loc Cert.KernelIdeal.main_arg0) : FVec Ideal S1x8192x3 .f32) i = (r : EReal))
    ∧ (∀ i : S1x8192x256.Idx, ∃ r : ℝ, (m ((c.tc : Thread Cert.KernelIdeal.nD Cert.KernelIdeal.τ).loc Cert.KernelIdeal.main_arg1) : FVec Ideal S1x8192x256 .f32) i = (r : EReal))
    ∧ (∀ i : S259x128.Idx, ∃ r : ℝ, (m ((c.tc : Thread Cert.KernelIdeal.nD Cert.KernelIdeal.τ).loc Cert.KernelIdeal.main_arg2) : FVec Ideal S259x128 .f32) i = (r : EReal))
    ∧ (∀ i : S128.Idx, ∃ r : ℝ, (m ((c.tc : Thread Cert.KernelIdeal.nD Cert.KernelIdeal.τ).loc Cert.KernelIdeal.main_arg3) : FVec Ideal S128 .f32) i = (r : EReal))
    ∧ (∀ i : S259x128.Idx, ∃ r : ℝ, (m ((c.tc : Thread Cert.KernelIdeal.nD Cert.KernelIdeal.τ).loc Cert.KernelIdeal.main_arg4) : FVec Ideal S259x128 .f32) i = (r : EReal))
    ∧ (∀ i : S128.Idx, ∃ r : ℝ, (m ((c.tc : Thread Cert.KernelIdeal.nD Cert.KernelIdeal.τ).loc Cert.KernelIdeal.main_arg5) : FVec Ideal S128 .f32) i = (r : EReal))
    ∧ (∀ i : S259x128.Idx, ∃ r : ℝ, (m ((c.tc : Thread Cert.KernelIdeal.nD Cert.KernelIdeal.τ).loc Cert.KernelIdeal.main_arg6) : FVec Ideal S259x128 .f32) i = (r : EReal))
    ∧ (∀ i : S128.Idx, ∃ r : ℝ, (m ((c.tc : Thread Cert.KernelIdeal.nD Cert.KernelIdeal.τ).loc Cert.KernelIdeal.main_arg7) : FVec Ideal S128 .f32) i = (r : EReal))
    ∧ (∀ i : S128x256.Idx, ∃ r : ℝ, (m ((c.tc : Thread Cert.KernelIdeal.nD Cert.KernelIdeal.τ).loc Cert.KernelIdeal.main_arg8) : FVec Ideal S128x256 .f32) i = (r : EReal))
    ∧ (∀ i : S256.Idx, ∃ r : ℝ, (m ((c.tc : Thread Cert.KernelIdeal.nD Cert.KernelIdeal.τ).loc Cert.KernelIdeal.main_arg9) : FVec Ideal S256 .f32) i = (r : EReal)) :=
  real_of_fn _ _ _ _ _ _ _ _ _ _ (h c)

/-- Every entry of argument 0 (the landmarks) is a real number. -/
theorem finite_arg0 (m : (ℓ : Loc Cert.KernelIdeal.nD Cert.KernelIdeal.τ Cert.KernelIdeal.sig) → Buf (Elt Ideal) ℓ)
    (h : Cert.Pre_KernelIdeal m) (c : Dev Cert.KernelIdeal.nD) (i : S1x8192x3.Idx) :
    ∃ r : ℝ, (m ((c.tc : Thread Cert.KernelIdeal.nD Cert.KernelIdeal.τ).loc Cert.KernelIdeal.main_arg0) : FVec Ideal S1x8192x3 .f32) i = (r : EReal) :=
  (finite_args m h c).1 i

/-- Every entry of argument 1 (the features) is a real number. -/
theorem finite_arg1 (m : (ℓ : Loc Cert.KernelIdeal.nD Cert.KernelIdeal.τ Cert.KernelIdeal.sig) → Buf (Elt Ideal) ℓ)
    (h : Cert.Pre_KernelIdeal m) (c : Dev Cert.KernelIdeal.nD) (i : S1x8192x256.Idx) :
    ∃ r : ℝ, (m ((c.tc : Thread Cert.KernelIdeal.nD Cert.KernelIdeal.τ).loc Cert.KernelIdeal.main_arg1) : FVec Ideal S1x8192x256 .f32) i = (r : EReal) :=
  (finite_args m h c).2.1 i

/-- Every entry of argument 2 (the first projection's matrix) is a real number. -/
theorem finite_arg2 (m : (ℓ : Loc Cert.KernelIdeal.nD Cert.KernelIdeal.τ Cert.KernelIdeal.sig) → Buf (Elt Ideal) ℓ)
    (h : Cert.Pre_KernelIdeal m) (c : Dev Cert.KernelIdeal.nD) (i : S259x128.Idx) :
    ∃ r : ℝ, (m ((c.tc : Thread Cert.KernelIdeal.nD Cert.KernelIdeal.τ).loc Cert.KernelIdeal.main_arg2) : FVec Ideal S259x128 .f32) i = (r : EReal) :=
  (finite_args m h c).2.2.1 i

/-- Every entry of argument 3 (the first projection's bias) is a real number. -/
theorem finite_arg3 (m : (ℓ : Loc Cert.KernelIdeal.nD Cert.KernelIdeal.τ Cert.KernelIdeal.sig) → Buf (Elt Ideal) ℓ)
    (h : Cert.Pre_KernelIdeal m) (c : Dev Cert.KernelIdeal.nD) (i : S128.Idx) :
    ∃ r : ℝ, (m ((c.tc : Thread Cert.KernelIdeal.nD Cert.KernelIdeal.τ).loc Cert.KernelIdeal.main_arg3) : FVec Ideal S128 .f32) i = (r : EReal) :=
  (finite_args m h c).2.2.2.1 i

/-- Every entry of argument 4 (the second projection's matrix) is a real number. -/
theorem finite_arg4 (m : (ℓ : Loc Cert.KernelIdeal.nD Cert.KernelIdeal.τ Cert.KernelIdeal.sig) → Buf (Elt Ideal) ℓ)
    (h : Cert.Pre_KernelIdeal m) (c : Dev Cert.KernelIdeal.nD) (i : S259x128.Idx) :
    ∃ r : ℝ, (m ((c.tc : Thread Cert.KernelIdeal.nD Cert.KernelIdeal.τ).loc Cert.KernelIdeal.main_arg4) : FVec Ideal S259x128 .f32) i = (r : EReal) :=
  (finite_args m h c).2.2.2.2.1 i

/-- Every entry of argument 5 (the second projection's bias) is a real number. -/
theorem finite_arg5 (m : (ℓ : Loc Cert.KernelIdeal.nD Cert.KernelIdeal.τ Cert.KernelIdeal.sig) → Buf (Elt Ideal) ℓ)
    (h : Cert.Pre_KernelIdeal m) (c : Dev Cert.KernelIdeal.nD) (i : S128.Idx) :
    ∃ r : ℝ, (m ((c.tc : Thread Cert.KernelIdeal.nD Cert.KernelIdeal.τ).loc Cert.KernelIdeal.main_arg5) : FVec Ideal S128 .f32) i = (r : EReal) :=
  (finite_args m h c).2.2.2.2.2.1 i

/-- Every entry of argument 6 (the third projection's matrix) is a real number. -/
theorem finite_arg6 (m : (ℓ : Loc Cert.KernelIdeal.nD Cert.KernelIdeal.τ Cert.KernelIdeal.sig) → Buf (Elt Ideal) ℓ)
    (h : Cert.Pre_KernelIdeal m) (c : Dev Cert.KernelIdeal.nD) (i : S259x128.Idx) :
    ∃ r : ℝ, (m ((c.tc : Thread Cert.KernelIdeal.nD Cert.KernelIdeal.τ).loc Cert.KernelIdeal.main_arg6) : FVec Ideal S259x128 .f32) i = (r : EReal) :=
  (finite_args m h c).2.2.2.2.2.2.1 i

/-- Every entry of argument 7 (the third projection's bias) is a real number. -/
theorem finite_arg7 (m : (ℓ : Loc Cert.KernelIdeal.nD Cert.KernelIdeal.τ Cert.KernelIdeal.sig) → Buf (Elt Ideal) ℓ)
    (h : Cert.Pre_KernelIdeal m) (c : Dev Cert.KernelIdeal.nD) (i : S128.Idx) :
    ∃ r : ℝ, (m ((c.tc : Thread Cert.KernelIdeal.nD Cert.KernelIdeal.τ).loc Cert.KernelIdeal.main_arg7) : FVec Ideal S128 .f32) i = (r : EReal) :=
  (finite_args m h c).2.2.2.2.2.2.2.1 i

/-- Every entry of argument 8 (the output matrix) is a real number. -/
theorem finite_arg8 (m : (ℓ : Loc Cert.KernelIdeal.nD Cert.KernelIdeal.τ Cert.KernelIdeal.sig) → Buf (Elt Ideal) ℓ)
    (h : Cert.Pre_KernelIdeal m) (c : Dev Cert.KernelIdeal.nD) (i : S128x256.Idx) :
    ∃ r : ℝ, (m ((c.tc : Thread Cert.KernelIdeal.nD Cert.KernelIdeal.τ).loc Cert.KernelIdeal.main_arg8) : FVec Ideal S128x256 .f32) i = (r : EReal) :=
  (finite_args m h c).2.2.2.2.2.2.2.2.1 i

/-- Every entry of argument 9 (the output bias) is a real number. -/
theorem finite_arg9 (m : (ℓ : Loc Cert.KernelIdeal.nD Cert.KernelIdeal.τ Cert.KernelIdeal.sig) → Buf (Elt Ideal) ℓ)
    (h : Cert.Pre_KernelIdeal m) (c : Dev Cert.KernelIdeal.nD) (i : S256.Idx) :
    ∃ r : ℝ, (m ((c.tc : Thread Cert.KernelIdeal.nD Cert.KernelIdeal.τ).loc Cert.KernelIdeal.main_arg9) : FVec Ideal S256 .f32) i = (r : EReal) :=
  (finite_args m h c).2.2.2.2.2.2.2.2.2 i

end Args

end Cert.FiniteInputs

end
-- ==== Proof.lean ====
/-
  The certificate of the sigmoid-attention kernel against its reference.

  Both programs compute, for every row n of x = [landmarks | features] (8192 rows), three affine maps fi, fj, fk of x,
  the weights p n j = logistic (fi n · fj j), their row sum den n, and
      features n c + ((Σ_d mix n d · Wr d c) + br c),   mix n d = the p-weighted mean of fk's rows.
  The reference divides every weight by the row sum and then sums (Cert.Spec.G). The kernel (Cert.Spec.GK) splits each
  affine map's 259-term inner product into its 3 landmark terms and its 256 feature terms, accumulates the row sum
  and the weighted sum of fk's rows over sixteen tiles of 512 columns, and divides once at the end. The split and the
  tiling are rearrangements of finite sums of extended reals and hold unconditionally; dividing after the sum equals
  dividing each term because, the inputs being finite, every weight is a positive real and so is the row sum
  (Cert.Spec.bridge) — the one place the precondition is used.

  The frames: the kernel program is two pipelined regions between host operations; each region's proof data and body
  obligation are stated once for any float instance (Proof/KernelIdeal, and its word-level twin Proof/Kernel), and the
  run threads the buffer contents through the four segments. The reference is a straight-line host program whose run
  returns its result as the composed term of its operations, read index by index as Cert.Spec.G.
-/
import proofs.«133152_j31482110280356_2_alg».proof.Defs
import proofs.«133152_j31482110280356_2_alg».proof.Proof.Gen.Kernel
import proofs.«133152_j31482110280356_2_alg».proof.Proof.Gen.KernelIdeal
import proofs.«133152_j31482110280356_2_alg».proof.Proof.Gen.ReferenceIdeal
import proofs.«133152_j31482110280356_2_alg».proof.Proof.Gen.Pre_finite_inputs
import proofs.«133152_j31482110280356_2_alg».proof.Proof.Kernel.Frame
import proofs.«133152_j31482110280356_2_alg».proof.Proof.KernelIdeal.KernelValue
import proofs.«133152_j31482110280356_2_alg».proof.Proof.RefIsSpec
import proofs.«133152_j31482110280356_2_alg».proof.Proof.Bridge
import proofs.«133152_j31482110280356_2_alg».proof.Proof.FiniteInputs
import Idealize.ShloMosaic.Adequacy
import Idealize.ShloMosaic.Init

noncomputable section

namespace Cert.Proof

open Idealize.ShloMosaic Idealize.SL.Sem
open Idealize.ShloMosaic.ValueIdx

/-- The word-level kernel program runs to the end and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_spec m ρ)

/-- The idealized program is the printed program's own text read on the extended reals: no operation was replaced, so
    nothing is left to preserve. -/
theorem preserves : Cert.preserves_Kernel_KernelIdeal := trivial

/-- From memories agreeing on the arguments, both idealized programs end with the same result array: the kernel's
    arrangement (Cert.Spec.GK) and the reference's (Cert.Spec.G) of the same ten arrays, equal entry by entry because
    every entry of the eight arrays the weights depend on is a real number. -/
theorem algebraic : Cert.algebraic_KernelIdeal_ReferenceIdeal := by
  intro m ρ m' ρ' hpre hagree
  refine ⟨fun c => Cert.KernelIdeal.Hand.kernelArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.value_run m ρ, ?_⟩
  refine (θ_run Cert.ReferenceIdeal.defs _ _).mono (fun _ h c => ⟨(h c).1.trans ?_, (h c).2⟩)
    (Cert.ReferenceIdeal.RefValue.run_spec m' ρ')
  obtain ⟨e0, e1, e2, e3, e4, e5, e6, e7, e8, e9⟩ := hagree c
  rw [e0, e1, e2, e3, e4, e5, e6, e7, e8, e9]
  funext i
  exact (Cert.Spec.bridge _ _ _ _ _ _ _ _ _ _
    (fun n k => Cert.FiniteInputs.finite_arg0 m hpre c _) (fun n k => Cert.FiniteInputs.finite_arg1 m hpre c _)
    (fun k d => Cert.FiniteInputs.finite_arg2 m hpre c _) (fun d => Cert.FiniteInputs.finite_arg3 m hpre c _)
    (fun k d => Cert.FiniteInputs.finite_arg4 m hpre c _) (fun d => Cert.FiniteInputs.finite_arg5 m hpre c _)
    (fun k d => Cert.FiniteInputs.finite_arg6 m hpre c _) (fun d => Cert.FiniteInputs.finite_arg7 m hpre c _)
    (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
